-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S1024x512 : Shape := ⟨2, ![1024, 512]⟩
abbrev S1024 : Shape := ⟨1, ![1024]⟩
abbrev S16x1024 : Shape := ⟨2, ![16, 1024]⟩
abbrev S16 : Shape := ⟨1, ![16]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S1024 .f32) (main_arg5 : FVec F S16x1024 .f32) (main_arg6 : FVec F S16 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8x2048x512 .f32) (main_arg1 : FVec F S1024x512 .f32) (main_arg2 : FVec F S1024 .f32) (main_arg3 : FVec F S1024 .f32) (main_arg4 : FVec F S1024 .f32) (main_arg5 : FVec F S16x1024 .f32) (main_arg6 : FVec F S16 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S8x2048x512 : Shape := ⟨3, ![8, 2048, 512]⟩
abbrev S1024x512 : Shape := ⟨2, ![1024, 512]⟩
abbrev S1024 : Shape := ⟨1, ![1024]⟩
abbrev S16x1024 : Shape := ⟨2, ![16, 1024]⟩
abbrev S16 : Shape := ⟨1, ![16]⟩
abbrev S8x2048x1024 : Shape := ⟨3, ![8, 2048, 1024]⟩
abbrev S1x512x512 : Shape := ⟨3, ![1, 512, 512]⟩
abbrev S1x512x1024 : Shape := ⟨3, ![1, 512, 1024]⟩
abbrev S512x512 : Shape := ⟨2, ![512, 512]⟩
abbrev S512x1024 : Shape := ⟨2, ![512, 1024]⟩
abbrev S1x1024 : Shape := ⟨2, ![1, 1024]⟩
abbrev S_ : Shape := ⟨0, ![]⟩
abbrev S128x1024 : Shape := ⟨2, ![128, 1024]⟩
abbrev S128 : Shape := ⟨1, ![128]⟩
abbrev S8x2048x128 : Shape := ⟨3, ![8, 2048, 128]⟩
abbrev S1x2048x1024 : Shape := ⟨3, ![1, 2048, 1024]⟩
abbrev S1x2048x128 : Shape := ⟨3, ![1, 2048, 128]⟩
abbrev S2048x1 : Shape := ⟨2, ![2048, 1]⟩
abbrev S2048x1024 : Shape := ⟨2, ![2048, 1024]⟩
abbrev S2048x512 : Shape := ⟨2, ![2048, 512]⟩
abbrev S2048 : Shape := ⟨1, ![2048]⟩
abbrev S2048x128 : Shape := ⟨2, ![2048, 128]⟩
abbrev S1x128 : Shape := ⟨2, ![1, 128]⟩
abbrev S8x2048x16 : Shape := ⟨3, ![8, 2048, 16]⟩

abbrev nBuf : Space → Nat
  | .hbm => 16
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S1024x512, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16x1024, .f32⟩
  | .hbm, ⟨6, _⟩ => ⟨S16, .f32⟩
  | .hbm, ⟨7, _⟩ => ⟨S8x2048x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S8x2048x128, .f32⟩
  | .hbm, ⟨15, _⟩ => ⟨S8x2048x16, .f32⟩
  | .local _ .vmem, ⟨0, _⟩ => ⟨S1x512x512, .f32⟩
  | .local _ .vmem, ⟨1, _⟩ => ⟨S1x512x512, .f32⟩
  | .local _ .vmem, ⟨2, _⟩ => ⟨S1024x512, .f32⟩
  | .local _ .vmem, ⟨3, _⟩ => ⟨S1024, .f32⟩
  | .local _ .vmem, ⟨4, _⟩ => ⟨S1x512x1024, .f32⟩
  | .local _ .vmem, ⟨5, _⟩ => ⟨S1x512x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S1x512x1024, .f32⟩
  | .local _ .vmem, ⟨9, _⟩ => ⟨S1x512x1024, .f32⟩
  | .local _ .vmem, ⟨10, _⟩ => ⟨S1024, .f32⟩
  | .local _ .vmem, ⟨11, _⟩ => ⟨S1024, .f32⟩
  | .local _ .vmem, ⟨12, _⟩ => ⟨S128x1024, .f32⟩
  | .local _ .vmem, ⟨13, _⟩ => ⟨S128, .f32⟩
  | .local _ .vmem, ⟨14, _⟩ => ⟨S1x2048x128, .f32⟩
  | .local _ .vmem, ⟨15, _⟩ => ⟨S1x2048x128, .f32⟩
  | .local _ .vmem, ⟨16, _⟩ => ⟨S2048x1, .f32⟩
  | .local _ .vmem, ⟨17, _⟩ => ⟨S2048x1, .f32⟩
  | .local _ .vmem, ⟨18, _⟩ => ⟨S2048x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 1, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_23 : BitVec 32 := 0#32
  let v42 : BitVec 1 := Scalar.cmpi .ne v41 c0_i32_23
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  pads_S16x1024_S128x1024_01120_000 : S16x1024.Pads (![0, 0] : Fin 2 → Nat) ![112, 0] ![0, 0] S128x1024
  h_S_ : 0 < S_.numel
  pads_S16_S128_01120 : S16.Pads (![0] : Fin 1 → Nat) ![112] ![0] S128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x1024 : S2048x1.Broadcasts S2048x1024
  reduces_S2048x1024_S2048 : S2048x1024.Reduces [1] S2048
  broadcasts_S1x1024_S2048x1024 : S1x1024.Broadcasts S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  slices_S8x2048x128_S8x2048x16_0_0_0 : S8x2048x128.Slices ![0, 0, 0] S8x2048x16
  dot_S512x512_S1024x512_S512x1024_1_1_0_0_n_n_wf : DotDims.WF S512x512 S1024x512 S512x1024 [1] [1] [0] [0] [] []
  dot_S2048x1024_S512x1024_S2048x512_1_1_0_0_n_n_wf : DotDims.WF S2048x1024 S512x1024 S2048x512 [1] [1] [0] [0] [] []
  dot_S2048x512_S512x1024_S2048x1024_1_0_0_1_n_n_wf : DotDims.WF S2048x512 S512x1024 S2048x1024 [1] [0] [0] [1] [] []
  dot_S2048x1024_S128x1024_S2048x128_1_1_0_0_n_n_wf : DotDims.WF S2048x1024 S128x1024 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .f32 = 32 ∨ (Rect.block (s := S8x2048x1024) S1x512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x1024.size a
  hwx1_0 : ∀ i : grid1.Coords, EltTy.bits .f32 = 32 ∨ (Rect.block (s := S8x2048x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .f32 = 32 ∨ (Rect.block (s := S8x2048x1024) S1x512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S128x1024.size a
  hwx1_4 : ∀ i : grid1.Coords, EltTy.bits .f32 = 32 ∨ (Rect.block (s := S128x1024) S128x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048x128.size a ≤ S8x2048x128.size a
  hwx1_6 : ∀ i : grid1.Coords, EltTy.bits .f32 = 32 ∨ (Rect.block (s := S8x2048x128) S1x2048x128.size (cc1_transform_6 i) (hinb1_6 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S1024x512 : Shape := ⟨2, ![1024, 512]⟩
abbrev S1024 : Shape := ⟨1, ![1024]⟩
abbrev S16x1024 : Shape := ⟨2, ![16, 1024]⟩
abbrev S16 : Shape := ⟨1, ![16]⟩
abbrev S8x2048x1024 : Shape := ⟨3, ![8, 2048, 1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x16 : Shape := ⟨3, ![8, 2048, 16]⟩
abbrev S1x1x16 : Shape := ⟨3, ![1, 1, 16]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S1024x512, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16x1024, .f32⟩
  | .hbm, ⟨6, _⟩ => ⟨S16, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x2048x16, .f32⟩
  | .hbm, ⟨58, _⟩ => ⟨S1x1x16, .f32⟩
  | .hbm, ⟨59, _⟩ => ⟨S8x2048x16, .f32⟩
  | .hbm, ⟨60, _⟩ => ⟨S8x2048x16, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x1024_S8x2048_d2 : S8x2048x1024.ReducesTo [2] S8x2048
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S16_S1x1x16_2 : S16.BroadcastsInDim S1x1x16 (![2] : Fin 1 → Fin S1x1x16.rank)
  bcast_S1x1x16_S8x2048x16_0_1_2 : S1x1x16.BroadcastsInDim S8x2048x16 (![0, 1, 2] : Fin 3 → Fin S8x2048x16.rank)
  dot_S8x2048x512_S1024x512_S8x2048x1024_2_1_01_0_n_n_wf : DotDims.WF S8x2048x512 S1024x512 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S16x1024_S8x2048x16_2_1_01_0_n_n_wf : DotDims.WF S8x2048x1024 S16x1024 S8x2048x16 [2] [1] [0, 1] [0] [] []

variable [Facts₀]

def dot_S8x2048x512_S1024x512_S8x2048x1024_2_1_01_0_n_n : DotDims S8x2048x512 S1024x512 S8x2048x1024 where
  lhsContracting := [2]
  rhsContracting := [1]
  lhsNonContracting := [0, 1]
  rhsNonContracting := [0]
  lhsBatch := []
  rhsBatch := []
  wf := dot_S8x2048x512_S1024x512_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S16x1024_S8x2048x16_2_1_01_0_n_n : DotDims S8x2048x1024 S16x1024 S8x2048x16 where
  lhsContracting := [2]
  rhsContracting := [1]
  lhsNonContracting := [0, 1]
  rhsNonContracting := [0]
  lhsBatch := []
  rhsBatch := []
  wf := dot_S8x2048x1024_S16x1024_S8x2048x16_2_1_01_0_n_n_wf

class Facts : Prop extends Facts₀ where

variable [Facts]
-- ==== Proof.K.Defs.lean ====
/-
  The pure content of the two kernel bodies, as functions of the blocks a grid point is handed.

  Region 0 (the linear layer) stores one block: the product of its x block with W1ᵀ plus the bias row.
  Region 1 (attention with a running maximum) keeps three scratch arrays between the points of one batch row —
  the running maximum m, the running normaliser l and the unnormalised accumulator a — resets them at the first
  key tile, updates them at every key tile, and at the last key tile stores the normalised, residual-added,
  layer-normalised and projected block.
-/
import proofs.«139171_j57775900065974_2_alg».proof.Proof.Gen.Kernel.Launch
import proofs.«139171_j57775900065974_2_alg».proof.Proof.Gen.Kernel.Skeleton
import proofs.«139171_j57775900065974_2_alg».proof.Proof.Gen.Kernel.Points
import Idealize.ShloMosaic.Lib.Pipeline.FrameBody

noncomputable section

namespace Cert.Kernel.Hand

open Idealize.ShloMosaic Idealize.ShloMosaic.TcCoe
open Idealize.SL Idealize.SL.RA Idealize.SL.Sem
open Cert.Kernel Cert.Kernel.Gen

variable {F : FTy → Type} [FloatOps F]

section
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end

/-- What region 0's body stores into its output block: x·W1ᵀ + b1 on the block's rows. -/
def out0_3 (x0 : Vec F S1x512x512 .f32) (x1 : Vec F S1024x512 .f32) (x2 : Vec F S1024 .f32) : Vec F S1x512x1024 .f32 :=
  k0_pay1 x0 x1 x2

/-- The three scratch arrays of region 1: running maximum, running normaliser, unnormalised accumulator. -/
structure Scr (F : FTy → Type) [FloatOps F] where
  m : Vec F S2048x1 .f32
  l : Vec F S2048x1 .f32
  a : Vec F S2048x1024 .f32

/-- The scratch at the first key tile: maximum −∞, normaliser 0, accumulator 0. -/
def scrInit : Scr F := ⟨k1_pay5, k1_pay6, k1_pay7⟩

/-- One key tile's update of the scratch, from the query block `Q` and the key block `Kb`. -/
def scrStep (Q : Vec F S1x2048x1024 .f32) (Kb : Vec F S1x512x1024 .f32) (s : Scr F) : Scr F :=
  ⟨k1_pay2 (k1_pay11 Q Kb s.m), k1_pay14 Q Kb s.m s.m s.l, k1_pay1 (k1_pay15 Q Kb s.m) (k1_pay16 Q Kb s.m s.m s.a)⟩

/-- What region 1's body stores into its output block at the last key tile, from the query block, the scale,
    shift, padded classifier weight and bias, and the scratch as that point's update left it. -/
def out1_6 (Q : Vec F S1x2048x1024 .f32) (g : Vec F S1024 .f32) (b : Vec F S1024 .f32) (w2 : Vec F S128x1024 .f32) (bb : Vec F S128 .f32)
    (s : Scr F) : Vec F S1x2048x128 .f32 :=
  k1_pay3 (k1_pay4 (k1_pay8 Q) s.a s.l g b w2 bb)

section
variable (V : (c : Dev nD) → (b : Ref sig .tc) → Buf (Elt F) ((c : Thread nD τ).loc b))

/-- The scratch before point `k` of region 1 (that is, after point `k − 1`); before point 0 it is not
    constrained, and the value given here is never read. A point whose key-tile coordinate is 0 starts from
    `scrInit`, any other from what the point before left. -/
def scrAfter (c : Dev nD) : ℕ → Scr F
  | 0 => scrInit
  | t + 1 =>
    if h : t < cfg1.N then
      scrStep (iblk1 V c 0 ⟨t, h⟩) (iblk1 V c 1 ⟨t, h⟩) (if t % 4 = 0 then scrInit else scrAfter c t)
    else scrInit

/-- What point `t` of region 1 leaves in the output window's staging buffer when it stores there (its key-tile
    coordinate is 3); at the other points the window is idle and this value is not read. -/
def outAt1 (c : Dev nD) (t : Fin cfg1.N) : Vec F S1x2048x128 .f32 :=
  out1_6 (iblk1 V c 0 t) (iblk1 V c 2 t) (iblk1 V c 3 t) (iblk1 V c 4 t) (iblk1 V c 5 t) (scrAfter V c (t.val + 1))
end

/-- The share of its array each window of region 1 holds: windows 0 (the query block) and 1 (the key block) read the
    SAME array, the linear layer's result, and hold complementary halves of it; every other window's array is its own. -/
def q1 : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

end Cert.Kernel.Hand

end
-- ==== Proof.K.Body0.lean ====
/-
  Region 0 (the linear layer): the body obligation.

  The body reads its three input blocks whole, reads the output block (the value is not used), and stores the
  product-plus-bias payload over the whole output block. So after the body each input's staging buffer holds its
  block unchanged and the output's holds the payload of the three input blocks.
-/
import proofs.«139171_j57775900065974_2_alg».proof.Proof.K.Defs
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The input windows hold their blocks at every point -/

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole buffer -/

abbrev rx0 : Rect S1x512x512 := Rect.unit (s := S1x512x512) ![0, 0, 0] S1x512x512.size inb_S1x512x512_S1x512x512_0_0_0
abbrev rx1 : Rect S1024x512 := Rect.unit (s := S1024x512) ![0, 0] S1024x512.size inb_S1024x512_S1024x512_0_0
abbrev rx2 : Rect S1024 := Rect.unit (s := S1024) ![0] S1024.size inb_S1024_S1024_0
abbrev rx3 : Rect S1x512x1024 := Rect.unit (s := S1x512x1024) ![0, 0, 0] S1x512x1024.size inb_S1x512x1024_S1x512x1024_0_0_0

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The one store as a piece: the payload of the loaded blocks over the whole buffer. -/
def out0_3c (x0 : Vec F S1x512x512 .f32) (x1 : Vec F S1024x512 .f32) (x2 : Vec F S1024 .f32) : Vec F S1x512x1024 .f32 :=
  View.canon [⟨rx3, k0_pay1 (View.ld x0 rx0) (View.ld x1 rx1) (View.ld x2 rx2)⟩]

/-- A whole-buffer store leaves its payload, and whole-buffer loads read the contents. -/
theorem out0_3c_eq (x0 : Vec F S1x512x512 .f32) (x1 : Vec F S1024x512 .f32) (x2 : Vec F S1024 .f32) :
    out0_3c x0 x1 x2 = out0_3 x0 x1 x2 := by
  unfold out0_3c out0_3
  rw [View.canon_unit_zero (S := S1x512x1024) zeros3 inb_S1x512x1024_S1x512x1024_0_0_0,
    View.ld_unit_zero (S := S1x512x512) zeros3 inb_S1x512x512_S1x512x512_0_0_0,
    View.ld_unit_zero (S := S1024x512) zeros2 inb_S1024x512_S1024x512_0_0,
    View.ld_unit_zero (S := S1024) zeros1 inb_S1024_S1024_0]

/-- The store covers the buffer. -/
theorem cover0_3 (p0 : Vec F S1x512x1024 .f32) (y : S1x512x1024.Idx) :
    ∃ pc ∈ ([⟨rx3, p0⟩] : List (View.Piece (Elt F) S1x512x1024 .f32)), y ∈ pc.1.set :=
  ⟨_, List.mem_singleton_self _, View.mem_set_unit_zero zeros3 inb_S1x512x1024_S1x512x1024_0_0_0 y⟩

/-! ## The body's triple -/

set_option maxHeartbeats 1000000 in
/-- The kernel body on whole staging memrefs, the inputs' at contents x0, x1, x2 and the output's at anything, runs to
    the continuation holding the inputs' as they were and the output's at the payload of the inputs. -/
theorem sound_kernel0 (c : Dev nD) (E : Set ℕ) (i : grid0.Coords)
    (arg0 : Memref sig .tc .vmem S1x512x512 .f32) (harg0 : arg0.IsWhole)
    (arg1 : Memref sig .tc .vmem S1024x512 .f32) (harg1 : arg1.IsWhole)
    (arg2 : Memref sig .tc .vmem S1024 .f32) (harg2 : arg2.IsWhole)
    (arg3 : Memref sig .tc .vmem S1x512x1024 .f32) (harg3 : arg3.IsWhole)
    (x0 : Vec F S1x512x512 .f32) (x1 : Vec F S1024x512 .f32) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  rw [← out0_3c_eq]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of region 0 on core c: the arrays as the region finds them; after the body at point t each input's
    buffer at its block and the output's at the payload of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1K.lean ====
/-
  Region 1 (the attention kernel): the kernel body's run on whole staging memrefs, in its three control cases.

  At every grid point the body replaces the scratch `s` it starts from by `scrStep Q Kb s`, where `Q` and `Kb` are the
  query and key blocks; at the first key tile (case A) it starts from `scrInit`, having stored it over whatever the
  scratch held; at the last key tile (case C) it also stores `out1_6` of the query block, the four parameter blocks and
  the updated scratch into the output buffer, which in the other two cases it leaves as found.
-/
import proofs.«139171_j57775900065974_2_alg».proof.Proof.K.Defs
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first conditional: the key-tile coordinate is 0. -/
abbrev cond1_0 (i : grid1.Coords) : Prop := (Scalar.cmpi .ne (Scalar.extui (Scalar.cmpi .eq (BitVec.ofNat 32 (i 2).val) 0#32)) 0#32) = 1#1

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer stored whole, last, reads the stored value, whatever was stored before. -/
theorem read_writes_whole {sig : RefSig} {κ : Kind} {sp : Space} {S : Shape} {e : EltTy} (v : View sig κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero hz inb y⟩),
    View.canon_cons_unit_zero hz]

set_option maxHeartbeats 4000000 in
/-- CASE A, the first key tile: the scratch is reset, then updated; the output buffer is left as found. -/
theorem kernelA (c : Dev nD) (E : Set ℕ) (i : grid1.Coords) (arg3 : Memref sig .tc .vmem S1x2048x1024 .f32) (harg3 : arg3.IsWhole) (arg4 : Memref sig .tc .vmem S1x512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1024 .f32) (harg12 : arg12.IsWhole)
    (hc0 : cond1_0 i) (hc1 : ¬ k1_cond2 i = 1#1)
    (Q : Vec F S1x2048x1024 .f32) (Kb : Vec F S1x512x1024 .f32) (g : Vec F S1024 .f32) (b : Vec F S1024 .f32) (w2 : Vec F S128x1024 .f32) (bb : Vec F S128 .f32)
    (d9 : Vec F S1x2048x128 .f32) (s : Scr F) (K : PUnit → sProp 𝕄) :
    iprop(owns (c : Thread nD τ) arg3 fullShare Q ∗ owns (c : Thread nD τ) arg4 fullShare Kb ∗ owns (c : Thread nD τ) arg5 fullShare g
        ∗ owns (c : Thread nD τ) arg6 fullShare b ∗ owns (c : Thread nD τ) arg7 fullShare w2 ∗ owns (c : Thread nD τ) arg8 fullShare bb
        ∗ owns (c : Thread nD τ) arg9 fullShare d9
        ∗ owns (c : Thread nD τ) arg10 fullShare s.m ∗ owns (c : Thread nD τ) arg11 fullShare s.l ∗ owns (c : Thread nD τ) arg12 fullShare s.a
        ∗ (iprop(owns (c : Thread nD τ) arg3 fullShare Q ∗ owns (c : Thread nD τ) arg4 fullShare Kb ∗ owns (c : Thread nD τ) arg5 fullShare g
            ∗ owns (c : Thread nD τ) arg6 fullShare b ∗ owns (c : Thread nD τ) arg7 fullShare w2 ∗ owns (c : Thread nD τ) arg8 fullShare bb
            ∗ owns (c : Thread nD τ) arg9 fullShare d9
            ∗ owns (c : Thread nD τ) arg10 fullShare (scrStep Q Kb scrInit).m ∗ owns (c : Thread nD τ) arg11 fullShare (scrStep Q Kb scrInit).l
            ∗ owns (c : Thread nD τ) arg12 fullShare (scrStep Q Kb scrInit).a) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part2_eq_skeleton, k1_part1_eq_skeleton]; unfold k1_part2_skel k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4
  obtain rfl := harg5.eq_unread hf5; obtain rfl := harg6.eq_unread hf6
  obtain rfl := harg7.eq_unread hf7; obtain rfl := harg8.eq_unread hf8
  obtain rfl := harg10.eq_unread hf10; obtain rfl := harg11.eq_unread hf11; obtain rfl := harg12.eq_unread hf12
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]; · iexists _; isplitr; · ipureintro; exact hf9
                  iexact H9
  isplitl [H10]
  · iexists _; isplitr
    swap; · iexact H10
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H11]
  · iexists _; isplitr
    swap; · iexact H11
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  · iexists _; isplitr
    swap; · iexact H12
    ipureintro
    refine (read_writes_whole (S := S2048x1024) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl

set_option maxHeartbeats 4000000 in
/-- CASE B, a middle key tile: the scratch is updated; the output buffer is left as found. -/
theorem kernelB (c : Dev nD) (E : Set ℕ) (i : grid1.Coords) (arg3 : Memref sig .tc .vmem S1x2048x1024 .f32) (harg3 : arg3.IsWhole) (arg4 : Memref sig .tc .vmem S1x512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1024 .f32) (harg12 : arg12.IsWhole)
    (hc0 : ¬ cond1_0 i) (hc1 : ¬ k1_cond2 i = 1#1)
    (Q : Vec F S1x2048x1024 .f32) (Kb : Vec F S1x512x1024 .f32) (g : Vec F S1024 .f32) (b : Vec F S1024 .f32) (w2 : Vec F S128x1024 .f32) (bb : Vec F S128 .f32)
    (d9 : Vec F S1x2048x128 .f32) (s : Scr F) (K : PUnit → sProp 𝕄) :
    iprop(owns (c : Thread nD τ) arg3 fullShare Q ∗ owns (c : Thread nD τ) arg4 fullShare Kb ∗ owns (c : Thread nD τ) arg5 fullShare g
        ∗ owns (c : Thread nD τ) arg6 fullShare b ∗ owns (c : Thread nD τ) arg7 fullShare w2 ∗ owns (c : Thread nD τ) arg8 fullShare bb
        ∗ owns (c : Thread nD τ) arg9 fullShare d9
        ∗ owns (c : Thread nD τ) arg10 fullShare s.m ∗ owns (c : Thread nD τ) arg11 fullShare s.l ∗ owns (c : Thread nD τ) arg12 fullShare s.a
        ∗ (iprop(owns (c : Thread nD τ) arg3 fullShare Q ∗ owns (c : Thread nD τ) arg4 fullShare Kb ∗ owns (c : Thread nD τ) arg5 fullShare g
            ∗ owns (c : Thread nD τ) arg6 fullShare b ∗ owns (c : Thread nD τ) arg7 fullShare w2 ∗ owns (c : Thread nD τ) arg8 fullShare bb
            ∗ owns (c : Thread nD τ) arg9 fullShare d9
            ∗ owns (c : Thread nD τ) arg10 fullShare (scrStep Q Kb s).m ∗ owns (c : Thread nD τ) arg11 fullShare (scrStep Q Kb s).l
            ∗ owns (c : Thread nD τ) arg12 fullShare (scrStep Q Kb s).a) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part2_eq_skeleton, k1_part1_eq_skeleton]; unfold k1_part2_skel k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4
  obtain rfl := harg5.eq_unread hf5; obtain rfl := harg6.eq_unread hf6
  obtain rfl := harg7.eq_unread hf7; obtain rfl := harg8.eq_unread hf8
  obtain rfl := harg10.eq_unread hf10; obtain rfl := harg11.eq_unread hf11; obtain rfl := harg12.eq_unread hf12
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]; · iexists _; isplitr; · ipureintro; exact hf9
                  iexact H9
  isplitl [H10]
  · iexists _; isplitr
    swap; · iexact H10
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H11]
  · iexists _; isplitr
    swap; · iexact H11
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  · iexists _; isplitr
    swap; · iexact H12
    ipureintro
    refine (read_writes_whole (S := S2048x1024) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl

set_option maxHeartbeats 4000000 in
/-- CASE C, the last key tile: the scratch is updated and the output block stored from the updated scratch. -/
theorem kernelC (c : Dev nD) (E : Set ℕ) (i : grid1.Coords) (arg3 : Memref sig .tc .vmem S1x2048x1024 .f32) (harg3 : arg3.IsWhole) (arg4 : Memref sig .tc .vmem S1x512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1024 .f32) (harg12 : arg12.IsWhole)
    (hc0 : ¬ cond1_0 i) (hc1 : k1_cond2 i = 1#1)
    (Q : Vec F S1x2048x1024 .f32) (Kb : Vec F S1x512x1024 .f32) (g : Vec F S1024 .f32) (b : Vec F S1024 .f32) (w2 : Vec F S128x1024 .f32) (bb : Vec F S128 .f32)
    (d9 : Vec F S1x2048x128 .f32) (s : Scr F) (K : PUnit → sProp 𝕄) :
    iprop(owns (c : Thread nD τ) arg3 fullShare Q ∗ owns (c : Thread nD τ) arg4 fullShare Kb ∗ owns (c : Thread nD τ) arg5 fullShare g
        ∗ owns (c : Thread nD τ) arg6 fullShare b ∗ owns (c : Thread nD τ) arg7 fullShare w2 ∗ owns (c : Thread nD τ) arg8 fullShare bb
        ∗ owns (c : Thread nD τ) arg9 fullShare d9
        ∗ owns (c : Thread nD τ) arg10 fullShare s.m ∗ owns (c : Thread nD τ) arg11 fullShare s.l ∗ owns (c : Thread nD τ) arg12 fullShare s.a
        ∗ (iprop(owns (c : Thread nD τ) arg3 fullShare Q ∗ owns (c : Thread nD τ) arg4 fullShare Kb ∗ owns (c : Thread nD τ) arg5 fullShare g
            ∗ owns (c : Thread nD τ) arg6 fullShare b ∗ owns (c : Thread nD τ) arg7 fullShare w2 ∗ owns (c : Thread nD τ) arg8 fullShare bb
            ∗ owns (c : Thread nD τ) arg9 fullShare (out1_6 Q g b w2 bb (scrStep Q Kb s))
            ∗ owns (c : Thread nD τ) arg10 fullShare (scrStep Q Kb s).m ∗ owns (c : Thread nD τ) arg11 fullShare (scrStep Q Kb s).l
            ∗ owns (c : Thread nD τ) arg12 fullShare (scrStep Q Kb s).a) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part2_eq_skeleton, k1_part1_eq_skeleton]; unfold k1_part2_skel k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4
  obtain rfl := harg5.eq_unread hf5; obtain rfl := harg6.eq_unread hf6
  obtain rfl := harg7.eq_unread hf7; obtain rfl := harg8.eq_unread hf8
  obtain rfl := harg10.eq_unread hf10; obtain rfl := harg11.eq_unread hf11; obtain rfl := harg12.eq_unread hf12
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]
  · iexists _; isplitr
    swap; · iexact H9
    ipureintro
    refine (read_writes_whole (S := S1x2048x128) _ _ hz3 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H10]
  · iexists _; isplitr
    swap; · iexact H10
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H11]
  · iexists _; isplitr
    swap; · iexact H11
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  · iexists _; isplitr
    swap; · iexact H12
    ipureintro
    refine (read_writes_whole (S := S2048x1024) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl

end Cert.Kernel.Hand

end
-- ==== Proof.K.Body1.lean ====
/-
  Region 1 (the attention kernel): the proof data and the body obligation.

  The kernel keeps three scratch arrays between the grid points of one batch row: the running maximum, the running
  normaliser and the unnormalised accumulator. The tracking invariant holds those three buffers whole, at the
  contents the recursion `scrAfter` names (before the first point: any contents), beside the rest of the core's scoped
  buffers and its generator register, which the body does not touch. A point whose key-tile coordinate is 0 resets the
  scratch before updating it; a point whose key-tile coordinate is 3 stores the output block from the updated scratch;
  at every other point the output window is idle and its buffer goes back as it came.
-/
import proofs.«139171_j57775900065974_2_alg».proof.Proof.K.Body1K
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three scratch buffers of region 1, in operand order. -/
abbrev scrRefs : List (Ref sig .tc) := [cc1_scratch0, cc1_scratch1, cc1_scratch2]

section
variable (V : (c : Dev nD) → (b : Ref sig .tc) → Buf (Elt F) ((c : Thread nD τ).loc b))

/-- The three scratch buffers held whole at the contents `s`. -/
def scrOwned (c : Dev nD) (s : Scr F) : sProp 𝕄 :=
  iprop(owns (c : Thread nD τ) (Memref.whole cc1_scratch0) fullShare s.m
    ∗ owns (c : Thread nD τ) (Memref.whole cc1_scratch1) fullShare s.l
    ∗ owns (c : Thread nD τ) (Memref.whole cc1_scratch2) fullShare s.a)

/-- The tracking invariant before point `k`: the class invariant with the three scratch buffers taken out of its
    scoped rest and held whole at contents `s`, where `s` is `scrAfter V c k` once a point has run (before the first
    point the scratch holds anything). -/
def Phi1 (c : Dev nD) (k : Fin (cfg1.N + 1)) : sProp 𝕄 :=
  iprop((∃ s : Scr F, ⌜k.val ≠ 0 → s = scrAfter V c k.val⌝ ∗ scrOwned c s)
    ∗ Pipeline.scopedRestBut (Ix := Unit) (Name := ℕ) (U := UR sig nD τ) (Lvl := ℕ) (Val := Elt F) spec1 c scrRefs
    ∗ ∃ r, prngReg c r)

/-- The proof data of region 1 on core `c`: the arrays as the region finds them; after the body each input's buffer
    at its block and the output's at what the last key tile stores; the tracking invariant; windows 0 and 1 at the two
    halves of their common array; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ := Phi1 V c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- Each input window's current staging buffer holds its block at every point, fetched there or not: unfetched, the
    block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- The scratch after point `t`: one key tile's update of the scratch the point starts from. -/
theorem scrAfter_succ (c : Dev nD) (t : Fin cfg1.N) :
    scrAfter V c (t.val + 1) = scrStep (iblk1 V c 0 t) (iblk1 V c 1 t) (if t.val % 4 = 0 then scrInit else scrAfter V c t.val) := by
  rw [scrAfter, dif_pos t.isLt]

/-- The class invariant's scoped rest, the three scratch buffers split off. -/
theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f))
        ∗ Pipeline.scopedRestBut (Ix := Unit) (Name := ℕ) (U := UR sig nD τ) (Lvl := ℕ) (Val := Elt F) spec1 c scrRefs) :=
  Pipeline.scopedRest_split_of_list spec1 c scrRefs (by decide) (by decide)

theorem Phi1_in (c : Dev nD) : Pipeline.ΦA spec1 c ⊢ (dat1 V c).Φ 0 := by
  rw [show (dat1 V c).Φ 0 = Phi1 V c 0 from rfl]
  unfold Pipeline.ΦA Phi1 scrOwned
  rw [scopedRest1_split]
  simp only [owns_whole]
  iintro ⟨⟨⟨⟨%f0, H0⟩, ⟨%f1, H1⟩, ⟨%f2, H2⟩⟩, Hrest⟩, Hp⟩
  isplitl [H0 H1 H2]
  · iexists (⟨f0, f1, f2⟩ : Scr F); isplitr
    · ipureintro; exact fun h => absurd rfl h
    isplitl [H0]; · iexact H0
    isplitl [H1]; · iexact H1
    iexact H2
  isplitl [Hrest]; · iexact Hrest
  iexact Hp

theorem Phi1_out (c : Dev nD) : (dat1 V c).Φ (Fin.last cfg1.N) ⊢ Pipeline.ΦA spec1 c := by
  rw [show (dat1 V c).Φ (Fin.last cfg1.N) = Phi1 V c (Fin.last cfg1.N) from rfl]
  unfold Pipeline.ΦA Phi1 scrOwned
  rw [scopedRest1_split]
  simp only [owns_whole]
  iintro ⟨⟨%s, -, H0, H1, H2⟩, Hrest, Hp⟩
  isplitl [H0 H1 H2 Hrest]
  · isplitl [H0 H1 H2]
    · isplitl [H0]; · iexists _; iexact H0
      isplitl [H1]; · iexists _; iexact H1
      iexists _; iexact H2
    iexact Hrest
  iexact Hp

/-! ## The body's branch conditions and the output window's idle points, in closed form over the grid -/

/-- The first conditional (reset the scratch) is taken at the points whose key-tile coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional (store the output block) is taken at the points whose key-tile coordinate is 3. -/
theorem hcond1_1 : ∀ t : Fin cfg1.N, k1_cond2 (grid1.coords t) = 1#1 ↔ t.val % 4 = 3 :=
  (by decide +kernel : ∀ t : Fin grid1.N, k1_cond2 (grid1.coords t) = 1#1 ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The output window is idle, and not written back, at the points whose key-tile coordinate is not 3; -/
theorem idleAt1_6 : ∀ t : Fin cfg1.N, ¬ t.val % 4 = 3 → cfg1.idle 6 (grid1.coords t) = true := by decide +kernel
theorem noFlush1_6 : ∀ t : Fin cfg1.N, ¬ t.val % 4 = 3 → (cfg1.win 6).flush t = false := by decide +kernel
/-- and live at the others. -/
theorem liveAt1_6 : ∀ t : Fin cfg1.N, t.val % 4 = 3 → cfg1.idle 6 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]

set_option maxHeartbeats 4000000 in
/-- The body at any point: the inputs' memrefs hold their blocks, the invariant hands over the scratch at what the point
    before left (at anything at the first point, where the body resets it), the closed forms say which case the point is
    in, and that case's run applies; the scratch goes back at this point's contents, the output buffer at the stored
    block where the body stores it and as found elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    leaves1_0, leaves1_1, leaves1_2, leaves1_3, leaves1_4, leaves1_5,
    show (dat1 V c).Φ t.castSucc = Phi1 V c t.castSucc from rfl, show (dat1 V c).Φ t.succ = Phi1 V c t.succ from rfl]
  unfold Phi1 scrOwned
  have hN : t.val < 32 := lt_of_lt_of_eq t.isLt (show cfg1.N = 32 from N_1)
  by_cases h1 : t.val % 4 = 3
  · have h0 : ¬ t.val % 4 = 0 := by omega
    rw [show (dat1 V c).leavesExact 6 t = owns (c : Thread nD τ) (st1_6 t) fullShare (outAt1 V c t) from by
      unfold Dat.leavesExact; rw [liveAt1_6 t h1, after1_6]]
    unfold outAt1
    iintro ⟨⟨⟨%s, %hs, Hs0, Hs1, Hs2⟩, Hrest, Hp⟩, Ho, ⟨%d0, H0⟩, ⟨%d1, H1⟩, ⟨%d2, H2⟩, ⟨%d3, H3⟩, ⟨%d4, H4⟩, ⟨%d5, H5⟩, ⟨%d6, H6⟩⟩
    have e : scrAfter V c (t.val + 1) = scrStep (iblk1 V c 0 t) (iblk1 V c 1 t) s := by
      have hs' : t.val ≠ 0 → s = scrAfter V c t.val := hs
      rw [scrAfter_succ, if_neg h0, hs' (fun hz => h0 (by rw [hz]))]
    rw [e]
    iapply (kernelC c Set.univ (grid1.coords t) _ _ _ _ _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) (iblk1 V c 4 t) (iblk1 V c 5 t) ((dat1 V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs0]; · iexact Hs0
    isplitl [Hs1]; · iexact Hs1
    isplitl [Hs2]; · iexact Hs2
    iintro ⟨H0, H1, H2, H3, H4, H5, H6, Hs0, Hs1, Hs2⟩
    isplitl [Hs0 Hs1 Hs2 Hrest Hp]
    · isplitl [Hs0 Hs1 Hs2]
      · iexists _; isplitr
        · ipureintro; exact fun _ => e.symm
        isplitl [Hs0]; · iexact Hs0
        isplitl [Hs1]; · iexact Hs1
        iexact Hs2
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idleAt1_6 t h1) (noFlush1_6 t h1)]
    by_cases h0 : t.val % 4 = 0
    · iintro ⟨⟨⟨%s, %hs, Hs0, Hs1, Hs2⟩, Hrest, Hp⟩, Ho, ⟨%d0, H0⟩, ⟨%d1, H1⟩, ⟨%d2, H2⟩, ⟨%d3, H3⟩, ⟨%d4, H4⟩, ⟨%d5, H5⟩, ⟨%d6, H6⟩⟩
      have e : scrAfter V c (t.val + 1) = scrStep (iblk1 V c 0 t) (iblk1 V c 1 t) scrInit := by
        rw [scrAfter_succ, if_pos h0]
      iapply (kernelA c Set.univ (grid1.coords t) _ _ _ _ _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) (iblk1 V c 4 t) (iblk1 V c 5 t) ((dat1 V c).before 6 t d6) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hs0]; · iexact Hs0
      isplitl [Hs1]; · iexact Hs1
      isplitl [Hs2]; · iexact Hs2
      iintro ⟨H0, H1, H2, H3, H4, H5, H6, Hs0, Hs1, Hs2⟩
      isplitl [Hs0 Hs1 Hs2 Hrest Hp]
      · isplitl [Hs0 Hs1 Hs2]
        · iexists _; isplitr
          · ipureintro; exact fun _ => e.symm
          isplitl [Hs0]; · iexact Hs0
          isplitl [Hs1]; · iexact Hs1
          iexact Hs2
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · iintro ⟨⟨⟨%s, %hs, Hs0, Hs1, Hs2⟩, Hrest, Hp⟩, Ho, ⟨%d0, H0⟩, ⟨%d1, H1⟩, ⟨%d2, H2⟩, ⟨%d3, H3⟩, ⟨%d4, H4⟩, ⟨%d5, H5⟩, ⟨%d6, H6⟩⟩
      have e : scrAfter V c (t.val + 1) = scrStep (iblk1 V c 0 t) (iblk1 V c 1 t) s := by
        have hs' : t.val ≠ 0 → s = scrAfter V c t.val := hs
        rw [scrAfter_succ, if_neg h0, hs' (fun hz => h0 (by rw [hz]))]
      iapply (kernelB c Set.univ (grid1.coords t) _ _ _ _ _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) (iblk1 V c 5 t) ((dat1 V c).before 6 t d6) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hs0]; · iexact Hs0
      isplitl [Hs1]; · iexact Hs1
      isplitl [Hs2]; · iexact Hs2
      iintro ⟨H0, H1, H2, H3, H4, H5, H6, Hs0, Hs1, Hs2⟩
      isplitl [Hs0 Hs1 Hs2 Hrest Hp]
      · isplitl [Hs0 Hs1 Hs2]
        · iexists _; isplitr
          · ipureintro; exact fun _ => e.symm
          isplitl [Hs0]; · iexact Hs0
          isplitl [Hs1]; · iexact Hs1
          iexact Hs2
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : Pipeline.BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The two-region program run from launch to return.

  Region 0 (the linear layer) writes its result array; four host stretches then pad the classifier weight and bias;
  region 1 (attention with a running maximum) reads the linear layer's result through TWO windows (the query block and
  the key block), so the two windows hold complementary halves of that array's points-to; a last host stretch slices
  the result. The buffer contents at each boundary are folded from the launch memory; each region is a segment whose
  entry sorts its windows' arrays out of "every unscoped buffer whole at the boundary's contents" and whose exit puts
  them back at what the write-backs left. The launch theorem reads the last boundary's contents against the final
  state: the result buffer and the seven argument arrays.
-/
import proofs.«139171_j57775900065974_2_alg».proof.Proof.K.Body0
import proofs.«139171_j57775900065974_2_alg».proof.Proof.K.Body1
import proofs.«139171_j57775900065974_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at the regions' entries -/

/-- Region 0's entry contents: the launch memory. -/
def entry0 (m : (ℓ : Loc nD τ sig) → Buf (Elt F) ℓ) (ρ : Dev nD → PrngReg) (c : Dev nD) :
    (b : Ref sig .tc) → Buf (Elt F) ((c : Thread nD τ).loc b) :=
  fun b => m ((c : Thread nD τ).loc b)

/-- What region 0 leaves in its result array. -/
def res0 (m : (ℓ : Loc nD τ sig) → Buf (Elt F) ℓ) (ρ : Dev nD → PrngReg) (c : Dev nD) :
    Buf (Elt F) ((c : Thread nD τ).loc main_v0) :=
  (dat0 (entry0 m ρ) c).arrAt 3 cfg0.N

/-- The regions' results as far as region 1's entry: only region 0's. -/
def outsA (m : (ℓ : Loc nD τ sig) → Buf (Elt F) ℓ) (ρ : Dev nD → PrngReg) : Outs (F := F) :=
  fun _ r c => Function.update (β := fun r : Ref sig .tc => Buf (Elt F) ((c : Thread nD τ).loc r))
    (fun r => m ((c : Thread nD τ).loc r)) main_v0 (res0 m ρ c) r

/-- Region 1's entry contents: after region 0's write-backs and the four host stretches. -/
def entry1 (m : (ℓ : Loc nD τ sig) → Buf (Elt F) ℓ) (ρ : Dev nD → PrngReg) (c : Dev nD) :
    (b : Ref sig .tc) → Buf (Elt F) ((c : Thread nD τ).loc b) :=
  fun b => V5 m (outsA m ρ) c b

/-- What region 1 leaves in its result array. -/
def res1 (m : (ℓ : Loc nD τ sig) → Buf (Elt F) ℓ) (ρ : Dev nD → PrngReg) (c : Dev nD) :
    Buf (Elt F) ((c : Thread nD τ).loc main_v3) :=
  (dat1 (entry1 m ρ) c).arrAt 6 cfg1.N

/-- The regions' results: region 0's and region 1's. -/
def outsH (m : (ℓ : Loc nD τ sig) → Buf (Elt F) ℓ) (ρ : Dev nD → PrngReg) : Outs (F := F) :=
  fun J r c => Function.update (β := fun r : Ref sig .tc => Buf (Elt F) ((c : Thread nD τ).loc r))
    (fun r => outsA m ρ J r c) main_v3 (res1 m ρ c) r

theorem outsA_v0 (c : Dev nD) : outsA m ρ 1 main_v0 c = res0 m ρ c := by
  unfold outsA; rw [Function.update_self]

theorem outsH_v0 (c : Dev nD) : outsH m ρ 1 main_v0 c = res0 m ρ c := by
  unfold outsH; rw [Function.update_of_ne (by decide)]; exact outsA_v0 m ρ c

theorem outsH_v3 (c : Dev nD) : outsH m ρ 6 main_v3 c = res1 m ρ c := by
  unfold outsH; rw [Function.update_self]

/-- Region 1's result does not reach back: the boundaries up to region 1's entry are those of region 0's result alone. -/
theorem V1_outsH (c : Dev nD) : V1 m (outsH m ρ) c = V1 m (outsA m ρ) c := by
  show Function.update (V0 m c) _ (outsH m ρ 1 main_v0 c) = Function.update (V0 m c) _ (outsA m ρ 1 main_v0 c)
  rw [outsH_v0, outsA_v0]

theorem V5_outsH (c : Dev nD) : V5 m (outsH m ρ) c = V5 m (outsA m ρ) c := by
  show StableHlo.after hostOps1_3 (StableHlo.after hostOps1_2 (StableHlo.after hostOps1_1 (StableHlo.after hostOps1 (V1 m (outsH m ρ) c)))) = _
  rw [V1_outsH]

theorem V5_entry1 (c : Dev nD) (b : Ref sig .tc) : V5 m (outsH m ρ) c b = entry1 m ρ c b := by
  rw [V5_outsH]; rfl

theorem V1_main_v0 (c : Dev nD) : V1 m (outsH m ρ) c main_v0 = res0 m ρ c := by
  show Function.update (V0 m c) _ (outsH m ρ 1 main_v0 c) _ = _
  rw [Function.update_self, outsH_v0]

theorem V6_main_v3 (c : Dev nD) : V6 m (outsH m ρ) c main_v3 = res1 m ρ c := by
  show Function.update (V5 m (outsH m ρ) c) _ (outsH m ρ 6 main_v3 c) _ = _
  rw [Function.update_self, outsH_v3]

theorem entry1_main_v0 (c : Dev nD) : entry1 m ρ c main_v0 = (dat0 (entry0 m ρ) c).arrAt 3 cfg0.N := by
  rw [← V5_entry1]
  exact (V5_of m (outsH m ρ) c main_v0 (by decide)).trans <| (V4_of m (outsH m ρ) c main_v0 (by decide)).trans <|
    (V3_of m (outsH m ρ) c main_v0 (by decide)).trans <| (V2_of m (outsH m ρ) c main_v0 (by decide)).trans (V1_main_v0 m ρ c)

theorem entry1_main_v1 (c : Dev nD) : entry1 m ρ c main_v1
    = pad S128x1024 ![0, 0] ![112, 0] ![0, 0] (m ((c : Thread nD τ).loc main_arg5)) (sitofp .f32 (constantI S_ 32 0#32)) pads_S16x1024_S128x1024_01120_000 h_S_ := by
  rw [← V5_entry1]
  refine (V5_of m (outsH m ρ) c main_v1 (by decide)).trans <| (V4_of m (outsH m ρ) c main_v1 (by decide)).trans ?_
  show StableHlo.after hostOps1_1 (StableHlo.after hostOps1 (V1 m (outsH m ρ) c)) (Proc.devRef .tc main_v1) = _
  after_results
  first | rfl | (have h := V1_of m (outsH m ρ) c main_arg5 (by decide); dsimp only [StableHlo.TRef.of] at *; rw [h]; rfl)

theorem entry1_main_v2 (c : Dev nD) : entry1 m ρ c main_v2
    = pad S128 ![0] ![112] ![0] (m ((c : Thread nD τ).loc main_arg6)) (sitofp .f32 (constantI S_ 32 0#32)) pads_S16_S128_01120 h_S_ := by
  rw [← V5_entry1]
  show StableHlo.after hostOps1_3 (StableHlo.after hostOps1_2 (StableHlo.after hostOps1_1 (StableHlo.after hostOps1 (V1 m (outsH m ρ) c)))) (Proc.devRef .tc main_v2) = _
  after_results
  first | rfl | (have h := V1_of m (outsH m ρ) c main_arg6 (by decide); dsimp only [StableHlo.TRef.of] at *; rw [h]; rfl)

theorem entry1_main_arg3 (c : Dev nD) : entry1 m ρ c main_arg3 = m ((c : Thread nD τ).loc main_arg3) := by
  rw [← V5_entry1]
  exact (V5_of m (outsH m ρ) c main_arg3 (by decide)).trans <| (V4_of m (outsH m ρ) c main_arg3 (by decide)).trans <|
    (V3_of m (outsH m ρ) c main_arg3 (by decide)).trans <| (V2_of m (outsH m ρ) c main_arg3 (by decide)).trans <|
    (V1_of m (outsH m ρ) c main_arg3 (by decide)).trans rfl

theorem entry1_main_arg4 (c : Dev nD) : entry1 m ρ c main_arg4 = m ((c : Thread nD τ).loc main_arg4) := by
  rw [← V5_entry1]
  exact (V5_of m (outsH m ρ) c main_arg4 (by decide)).trans <| (V4_of m (outsH m ρ) c main_arg4 (by decide)).trans <|
    (V3_of m (outsH m ρ) c main_arg4 (by decide)).trans <| (V2_of m (outsH m ρ) c main_arg4 (by decide)).trans <|
    (V1_of m (outsH m ρ) c main_arg4 (by decide)).trans rfl

end Run

/-! ## The array two windows share

Region 1 reads the linear layer's result through two windows. The buffers behind its arrays are six; its windowed
arrays are seven points-tos, the shared buffer's split in its two halves. -/

section Shared
variable (V : (c : Dev nD) → (b : Ref sig .tc) → Buf (Elt F) ((c : Thread nD τ).loc b))

/-- The distinct buffers behind region 1's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_arg3) ↦{fullShare} W main_arg3)
          ∗ (((c : Thread nD τ).loc main_arg4) ↦{fullShare} W main_arg4) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact bigSep_eq_bigSepL_of_eq [main_v0, main_arg3, main_arg4, main_v1, main_v2, main_v3] (by decide) (by decide) _

/-- Region 1's windowed arrays at contents G, window by window: windows 0 and 1 hold the two halves of the linear
    layer's result, every other window its own array whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg3) ↦{fullShare} G 2) ∗ (((c : Thread nD τ).loc main_arg4) ↦{fullShare} G 3)
          ∗ (((c : Thread nD τ).loc main_v1) ↦{fullShare} G 4) ∗ (((c : Thread nD τ).loc main_v2) ↦{fullShare} G 5)
          ∗ (((c : Thread nD τ).loc main_v3) ↦{fullShare} G 6)) := by
  unfold Dat.arrays
  rw [bigSep_W1, (arr_whole1 0).set_eq_univ, (arr_whole1 2).set_eq_univ, (arr_whole1 3).set_eq_univ,
    (arr_whole1 4).set_eq_univ, (arr_whole1 5).set_eq_univ, (arr_whole1 6).set_eq_univ]
  rfl

/-- THE SPLIT: the buffers behind region 1's arrays, each whole at the full share at contents W, are its windowed
    arrays at the contents read off W — the shared buffer's points-to cut in its two halves. -/
theorem arrays1_of_arrBufs (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  rw [arrBufs1_eq, arrays1_eq]
  iintro ⟨H0, H3, H4, H1, H2, Hv3⟩
  ihave Hs := (pointsTo_share (PosShare.mem_left_op_right fullShare)).1 $$ H0
  icases Hs with ⟨Hl, Hr⟩
  isplitl [Hl]; · iexact Hl
  isplitl [Hr]; · iexact Hr
  isplitl [H3]; · iexact H3
  isplitl [H4]; · iexact H4
  isplitl [H1]; · iexact H1
  isplitl [H2]; · iexact H2
  iexact Hv3

/-- THE JOIN: region 1's windowed arrays at contents that are read off W — in particular both halves of the shared
    buffer at the same contents — are the buffers behind them, each whole at the full share at W. -/
theorem arrBufs_of_arrays1 (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  obtain rfl : G = fun w => W (Pipeline.arrRef spec1 w) := funext hG
  rw [arrBufs1_eq, arrays1_eq]
  iintro ⟨Hl, Hr, H3, H4, H1, H2, Hv3⟩
  isplitl [Hl Hr]
  · iapply (pointsTo_share (PosShare.mem_left_op_right fullShare)).2
    isplitl [Hl]; · iexact Hl
    iexact Hr
  isplitl [H3]; · iexact H3
  isplitl [H4]; · iexact H4
  isplitl [H1]; · iexact H1
  isplitl [H2]; · iexact H2
  iexact Hv3

/-- ENTRY: a core's unscoped buffers at contents W are region 1's windowed arrays at the contents read off W and the
    unscoped rest. -/
theorem arrays1_of_held (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    (unscopedBufs c W : sProp 𝕄) ⊢ iprop((dat1 V c).arrays G ∗ Pipeline.unscopedRest (Ix := Unit) (Name := ℕ) (U := UR sig nD τ) (Lvl := ℕ) spec1 c W) := by
  rw [Pipeline.unscopedBufs_split₀ cfgs 1 winFacts₀1.arr_unscoped c W]
  exact sep_mono (arrays1_of_arrBufs V c W G hG) .rfl

/-- EXIT: region 1's windowed arrays at contents G and the unscoped rest at W are the core's unscoped buffers at any
    contents W' that have the arrays at G and agree with W off them. -/
theorem held_of_arrays1 (c : Dev nD) (W W' : (b : Ref sig .tc) → Buf (Elt F) ((c : Thread nD τ).loc b))
    (G : (w : Fin cfg1.W) → Buf (Elt F) ((cfg1.win w).arr.view.loc (c.tc : Thread nD τ))) (hG : ∀ w, G w = W' (Pipeline.arrRef spec1 w))
    (hrest : ∀ b, b ∉ Finset.univ.image (Pipeline.arrRef spec1) → W' b = W b) :
    iprop((dat1 V c).arrays G ∗ Pipeline.unscopedRest (Ix := Unit) (Name := ℕ) (U := UR sig nD τ) (Lvl := ℕ) spec1 c W) ⊢ (unscopedBufs c W' : sProp 𝕄) := by
  rw [Pipeline.unscopedBufs_split₀ cfgs 1 winFacts₀1.arr_unscoped c W']
  refine sep_mono (arrBufs_of_arrays1 V c W' G hG) (Entails.of_eq ?_)
  unfold Pipeline.unscopedRest
  exact bigSep_congr fun b hb => by rw [hrest b (Finset.mem_sdiff.mp hb).2]

end Shared

section Run2
variable (m : (ℓ : Loc nD τ sig) → Buf (Elt F) ℓ) (ρ : Dev nD → PrngReg)

/-! ## The regions' exit contents against the boundaries -/

/-- At region 0's exit each of its arrays holds what the pipeline leaves, -/
theorem hF0 (c : Dev nD) : ∀ w : Fin cfg0.W, (dat0 (entry0 m ρ) c).arrAt w cfg0.N = V1 m (outsH m ρ) c (Pipeline.arrRef spec0 w)
  | ⟨0, _⟩ => (((dat0 (entry0 m ρ) c).arrAt_in 0 rfl _).trans (A_eq0 (entry0 m ρ) c 0)).trans (V1_of m (outsH m ρ) c main_arg0 (by decide)).symm
  | ⟨1, _⟩ => (((dat0 (entry0 m ρ) c).arrAt_in 1 rfl _).trans (A_eq0 (entry0 m ρ) c 1)).trans (V1_of m (outsH m ρ) c main_arg1 (by decide)).symm
  | ⟨2, _⟩ => (((dat0 (entry0 m ρ) c).arrAt_in 2 rfl _).trans (A_eq0 (entry0 m ρ) c 2)).trans (V1_of m (outsH m ρ) c main_arg2 (by decide)).symm
  | ⟨3, _⟩ => (V1_main_v0 m ρ c).symm

/-- and every other buffer what it held at entry. -/
theorem hrest0 (c : Dev nD) : ∀ b, b ∉ Finset.univ.image (Pipeline.arrRef spec0) → V1 m (outsH m ρ) c b = entry0 m ρ c b :=
  fun b hb => V1_of m (outsH m ρ) c b fun hmem => hb (by rw [List.mem_singleton] at hmem; subst hmem; decide)

/-- At region 1's exit each of its arrays holds what the pipeline leaves: the six input arrays (the shared one twice)
    their entry contents, the result array the write-backs' fold, -/
theorem hF1_in (c : Dev nD) (w : Fin cfg1.W) (hw : (cfg1.win w).isOut = false)
    (hne : Pipeline.arrRef spec1 w ∉ ([main_v3] : List (Ref sig .tc))) :
    (dat1 (entry1 m ρ) c).arrAt w cfg1.N = V6 m (outsH m ρ) c (Pipeline.arrRef spec1 w) :=
  (((dat1 (entry1 m ρ) c).arrAt_in w hw _).trans (A_eq1 (entry1 m ρ) c w)).trans
    ((V5_entry1 m ρ c _).symm.trans (V6_of m (outsH m ρ) c _ hne).symm)

theorem hF1 (c : Dev nD) : ∀ w : Fin cfg1.W, (dat1 (entry1 m ρ) c).arrAt w cfg1.N = V6 m (outsH m ρ) c (Pipeline.arrRef spec1 w)
  | ⟨0, _⟩ => hF1_in m ρ c 0 rfl (by decide)
  | ⟨1, _⟩ => hF1_in m ρ c 1 rfl (by decide)
  | ⟨2, _⟩ => hF1_in m ρ c 2 rfl (by decide)
  | ⟨3, _⟩ => hF1_in m ρ c 3 rfl (by decide)
  | ⟨4, _⟩ => hF1_in m ρ c 4 rfl (by decide)
  | ⟨5, _⟩ => hF1_in m ρ c 5 rfl (by decide)
  | ⟨6, _⟩ => (V6_main_v3 m ρ c).symm

/-- and every other buffer what it held at entry. -/
theorem hrest1 (c : Dev nD) : ∀ b, b ∉ Finset.univ.image (Pipeline.arrRef spec1) → V6 m (outsH m ρ) c b = entry1 m ρ c b :=
  fun b hb => (V6_of m (outsH m ρ) c b fun hmem => hb (by rw [List.mem_singleton] at hmem; subst hmem; decide)).trans (V5_entry1 m ρ c b)

/-- The result buffer at the end: the slice of what region 1 leaves in its result array. -/
theorem V7_main_v4 (c : Dev nD) : V7 m (outsH m ρ) c main_v4
    = extractStridedSlice S8x2048x16 ![0, 0, 0] ((dat1 (entry1 m ρ) c).arrAt 6 cfg1.N) slices_S8x2048x128_S8x2048x16_0_0_0 := by
  show StableHlo.after hostOps2 (V6 m (outsH m ρ) c) (Proc.devRef .tc main_v4) = _
  after_results
  rw [V6_main_v3]
  rfl

/-! ## The proof data family and the thread state -/

/-- Every pipeline's proof data, each at its region's entry contents. -/
def pdats (m : (ℓ : Loc nD τ sig) → Buf (Elt F) ℓ) (ρ : Dev nD → PrngReg) :
    (p : Fin 2) → (c : Dev nD) → Dat τ (Elt F) Unit ℕ (UR sig nD τ) ℕ (cfgs p) c
  | ⟨0, _⟩ => fun c => dat0 (entry0 m ρ) c
  | ⟨1, _⟩ => fun c => dat1 (entry1 m ρ) c

abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the core's generator register at some state and its dues, at nothing. -/
abbrev Rh (c : Dev nD) : sProp 𝕄 := iprop((∃ r, prngReg c r) ∗ ∃ W, owes (c : Thread nD τ) (0 : CellTallies nD τ sig Unit) W)
abbrev Eh : Fin 3 → Dev nD → sProp 𝕄 := fun _ c => Rh c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 (the linear layer): entered from every unscoped buffer at the launch contents, left with its result array
    at what its write-backs leave. Its four arrays are distinct, so they split out of the unscoped buffers and go
    back whole. -/
def reg0 : Pipeline.RegionSeg (pcfgs (F := F)) adm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (entry0 m ρ) c).loose
  hwaits := Pipeline.hwaits_of_owed_zero _ _ _ _ Lh lvh 0 fun _ _ => rfl
  pre c := iprop(StableHlo.held (c : Thread nD τ) (Pipeline.ucRefs τ sig) (V0 m c) ∗ Rh c)
  post c := iprop(StableHlo.held (c : Thread nD τ) (Pipeline.ucRefs τ sig) (V1 m (outsH m ρ) c) ∗ Rh c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [show (unscopedBufs c (entry0 m ρ c) : sProp 𝕄) = StableHlo.held (c : Thread nD τ) (Pipeline.ucRefs τ sig) (V0 m c)
      from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (fun b => V1 m (outsH m ρ) c b) ((pdats m ρ 0 c).arrAt · cfg0.N) (hF0 m ρ c) (hrest0 m ρ c)
    rw [show (unscopedBufs c (fun b : Ref sig .tc => V1 m (outsH m ρ) c b) : sProp 𝕄)
        = StableHlo.held (c : Thread nD τ) (Pipeline.ucRefs τ sig) (V1 m (outsH m ρ) c)
      from Pipeline.unscopedBufs_held c (V1 m (outsH m ρ) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (attention): entered from every unscoped buffer at region 1's entry contents, left with its result array
    at what its write-backs leave. Two of its windows read one array: at entry that array's points-to is cut in halves
    (the split), at exit the halves, still at the entry contents, are joined again (the join). Its invariant tracks the
    scratch, entered from the class invariant and returned to it. -/
def reg1 : Pipeline.RegionSeg (pcfgs (F := F)) adm (pdats m ρ) () defs₀ 𝒱h Lh lvh 1 where
  win := winFacts₀1
  block_pos := block_pos1
  stage_whole := stage_whole1
  K := PEmpty
  osem k := k.elim
  ho := Pipeline.OwnSemFacts.none _
  hbody c := (body_obligation1 (entry1 m ρ) c).loose
  hwaits := Pipeline.hwaits_of_owed_zero _ _ _ _ Lh lvh 1 fun _ _ => rfl
  pre c := iprop(StableHlo.held (c : Thread nD τ) (Pipeline.ucRefs τ sig) (V5 m (outsH m ρ) c) ∗ Rh c)
  post c := iprop(StableHlo.held (c : Thread nD τ) (Pipeline.ucRefs τ sig) (V6 m (outsH m ρ) c) ∗ Rh c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := arrays1_of_held (entry1 m ρ) c (entry1 m ρ c) (fun w => (dat1 (entry1 m ρ) c).arrAt w 0)
      (fun w => A_eq1 (entry1 m ρ) c w)
    rw [show (unscopedBufs c (entry1 m ρ c) : sProp 𝕄) = StableHlo.held (c : Thread nD τ) (Pipeline.ucRefs τ sig) (V5 m (outsH m ρ) c)
      from by rw [V5_outsH]; exact Pipeline.unscopedBufs_held c (V5 m (outsA m ρ) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Phi1_in (entry1 m ρ) c)
    unfold Pipeline.ΦA
    iintro ⟨Hp, -, Hr⟩
    isplitl [Hr]; · iexact Hr
    iexact Hp
  hout c := by
    refine (Phi1_out (entry1 m ρ) c).trans ?_
    rw [Pipeline.ownSems0_none]; unfold Pipeline.ΦA
    iintro ⟨Hr, Hp⟩
    isplitl [Hp]; · iexact Hp
    isplitr; · iempintro
    iexact Hr
  hexit c := by
    have hjoin := held_of_arrays1 (entry1 m ρ) c (entry1 m ρ c) (fun b => V6 m (outsH m ρ) c b)
      (fun w => (dat1 (entry1 m ρ) c).arrAt w cfg1.N) (hF1 m ρ c) (hrest1 m ρ c)
    rw [show (unscopedBufs c (fun b : Ref sig .tc => V6 m (outsH m ρ) c b) : sProp 𝕄)
        = StableHlo.held (c : Thread nD τ) (Pipeline.ucRefs τ sig) (V6 m (outsH m ρ) c)
      from Pipeline.unscopedBufs_held c (V6 m (outsH m ρ) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

set_option backward.isDefEq.respectTransparency.types false in
/-- THE RUN: every weakly fair execution of @main from memory m with zero counters terminates; in every final state
    the result buffer holds the slice of what region 1's write-backs leave in its result array, and every argument
    array holds its launch contents. -/
theorem run : θ_run defs (onTc (τ := τ) (main (F := F))) ⟨m, fun _ => 0, ρ⟩ (fun r => ∀ c : Dev nD,
      r.2.mem ((c.tc : Thread nD τ).loc main_v4) = extractStridedSlice S8x2048x16 ![0, 0, 0] ((dat1 (entry1 m ρ) c).arrAt 6 cfg1.N) slices_S8x2048x128_S8x2048x16_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_dev (pcfgs (F := F)) adm (pdats m ρ) () cellOf_inj emb₁ defs₀ 𝒱h Lh lvh m ρ main
    (segs m (outsH m ρ) 𝒱h Lh lvh Eh () (pdats m ρ) (reg0 m ρ) (reg1 m ρ))
    (fun c Q => by
      rewrite [main_chain c, Pipeline.Seg.run_eq_chain,
        show (segs m (outsH m ρ) 𝒱h Lh lvh Eh () (pdats m ρ) (reg0 m ρ) (reg1 m ρ) c).map Pipeline.Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rh c))
    (Tₙ := fun c => StableHlo.held (c : Thread nD τ) (Pipeline.ucRefs τ sig) (V7 m (outsH m ρ) c))
    (hch := fun c => ⟨.rfl, .rfl, .rfl, .rfl, .rfl, .rfl, .rfl, sep_mono .rfl (by iintro ⟨-, H⟩; iexact H)⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outsH m ρ) c b)
    (hfin := fun c s' => by
      iintro ⟨Hh, HSI⟩
      unfold StableHlo.held
      imodintro
      iapply (pointsTo_read_all (Pipeline.ucRefs τ sig) (fun b => (((c : Thread nD τ)).1, b)) (V7 m (outsH m ρ) c) s')
      isplitl [Hh] <;> iassumption)
    (hQ := fun s h c =>
      ⟨(h c _ (mem_uc main_v4 (by decide))).trans (V7_main_v4 m ρ c),
        (h c _ (mem_uc main_arg0 (by decide))).trans (V7_main_arg0 m (outsH m ρ) c),
        (h c _ (mem_uc main_arg1 (by decide))).trans (V7_main_arg1 m (outsH m ρ) c),
        (h c _ (mem_uc main_arg2 (by decide))).trans (V7_main_arg2 m (outsH m ρ) c),
        (h c _ (mem_uc main_arg3 (by decide))).trans (V7_main_arg3 m (outsH m ρ) c),
        (h c _ (mem_uc main_arg4 (by decide))).trans (V7_main_arg4 m (outsH m ρ) c),
        (h c _ (mem_uc main_arg5 (by decide))).trans (V7_main_arg5 m (outsH m ρ) c),
        (h c _ (mem_uc main_arg6 (by decide))).trans (V7_main_arg6 m (outsH m ρ) c)⟩)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run m ρ).mono fun r h c => (h c).2

end Run2

end Cert.Kernel.Hand

end
-- ==== Proof.KI.Defs.lean ====
/-
  The pure content of the two kernel bodies, as functions of the blocks a grid point is handed.

  Region 0 (the linear layer) stores one block: the product of its x block with W1ᵀ plus the bias row.
  Region 1 (attention with a running maximum) keeps three scratch arrays between the points of one batch row —
  the running maximum m, the running normaliser l and the unnormalised accumulator a — resets them at the first
  key tile, updates them at every key tile, and at the last key tile stores the normalised, residual-added,
  layer-normalised and projected block.
-/
import proofs.«139171_j57775900065974_2_alg».proof.Proof.Gen.KernelIdeal.Launch
import proofs.«139171_j57775900065974_2_alg».proof.Proof.Gen.KernelIdeal.Skeleton
import proofs.«139171_j57775900065974_2_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.RA Idealize.SL.Sem
open Cert.KernelIdeal Cert.KernelIdeal.Gen

variable {F : FTy → Type} [FloatOps F]

section
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end

/-- What region 0's body stores into its output block: x·W1ᵀ + b1 on the block's rows. -/
def out0_3 (x0 : Vec F S1x512x512 .f32) (x1 : Vec F S1024x512 .f32) (x2 : Vec F S1024 .f32) : Vec F S1x512x1024 .f32 :=
  k0_pay1 x0 x1 x2

/-- The three scratch arrays of region 1: running maximum, running normaliser, unnormalised accumulator. -/
structure Scr (F : FTy → Type) [FloatOps F] where
  m : Vec F S2048x1 .f32
  l : Vec F S2048x1 .f32
  a : Vec F S2048x1024 .f32

/-- The scratch at the first key tile: maximum −∞, normaliser 0, accumulator 0. -/
def scrInit : Scr F := ⟨k1_pay5, k1_pay6, k1_pay7⟩

/-- One key tile's update of the scratch, from the query block `Q` and the key block `Kb`. -/
def scrStep (Q : Vec F S1x2048x1024 .f32) (Kb : Vec F S1x512x1024 .f32) (s : Scr F) : Scr F :=
  ⟨k1_pay2 (k1_pay11 Q Kb s.m), k1_pay14 Q Kb s.m s.m s.l, k1_pay1 (k1_pay15 Q Kb s.m) (k1_pay16 Q Kb s.m s.m s.a)⟩

/-- What region 1's body stores into its output block at the last key tile, from the query block, the scale,
    shift, padded classifier weight and bias, and the scratch as that point's update left it. -/
def out1_6 (Q : Vec F S1x2048x1024 .f32) (g : Vec F S1024 .f32) (b : Vec F S1024 .f32) (w2 : Vec F S128x1024 .f32) (bb : Vec F S128 .f32)
    (s : Scr F) : Vec F S1x2048x128 .f32 :=
  k1_pay3 (k1_pay4 (k1_pay8 Q) s.a s.l g b w2 bb)

section
variable (V : (c : Dev nD) → (b : Ref sig .tc) → Buf (Elt F) ((c : Thread nD τ).loc b))

/-- The scratch before point `k` of region 1 (that is, after point `k − 1`); before point 0 it is not
    constrained, and the value given here is never read. A point whose key-tile coordinate is 0 starts from
    `scrInit`, any other from what the point before left. -/
def scrAfter (c : Dev nD) : ℕ → Scr F
  | 0 => scrInit
  | t + 1 =>
    if h : t < cfg1.N then
      scrStep (iblk1 V c 0 ⟨t, h⟩) (iblk1 V c 1 ⟨t, h⟩) (if t % 4 = 0 then scrInit else scrAfter c t)
    else scrInit

/-- What point `t` of region 1 leaves in the output window's staging buffer when it stores there (its key-tile
    coordinate is 3); at the other points the window is idle and this value is not read. -/
def outAt1 (c : Dev nD) (t : Fin cfg1.N) : Vec F S1x2048x128 .f32 :=
  out1_6 (iblk1 V c 0 t) (iblk1 V c 2 t) (iblk1 V c 3 t) (iblk1 V c 4 t) (iblk1 V c 5 t) (scrAfter V c (t.val + 1))
end

/-- The share of its array each window of region 1 holds: windows 0 (the query block) and 1 (the key block) read the
    SAME array, the linear layer's result, and hold complementary halves of it; every other window's array is its own. -/
def q1 : Fin 7 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨6, _⟩ => fullShare

end Cert.KernelIdeal.Hand

end
-- ==== Proof.KI.Body0.lean ====
/-
  Region 0 (the linear layer): the body obligation.

  The body reads its three input blocks whole, reads the output block (the value is not used), and stores the
  product-plus-bias payload over the whole output block. So after the body each input's staging buffer holds its
  block unchanged and the output's holds the payload of the three input blocks.
-/
import proofs.«139171_j57775900065974_2_alg».proof.Proof.KI.Defs
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The input windows hold their blocks at every point -/

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole buffer -/

abbrev rx0 : Rect S1x512x512 := Rect.unit (s := S1x512x512) ![0, 0, 0] S1x512x512.size inb_S1x512x512_S1x512x512_0_0_0
abbrev rx1 : Rect S1024x512 := Rect.unit (s := S1024x512) ![0, 0] S1024x512.size inb_S1024x512_S1024x512_0_0
abbrev rx2 : Rect S1024 := Rect.unit (s := S1024) ![0] S1024.size inb_S1024_S1024_0
abbrev rx3 : Rect S1x512x1024 := Rect.unit (s := S1x512x1024) ![0, 0, 0] S1x512x1024.size inb_S1x512x1024_S1x512x1024_0_0_0

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The one store as a piece: the payload of the loaded blocks over the whole buffer. -/
def out0_3c (x0 : Vec F S1x512x512 .f32) (x1 : Vec F S1024x512 .f32) (x2 : Vec F S1024 .f32) : Vec F S1x512x1024 .f32 :=
  View.canon [⟨rx3, k0_pay1 (View.ld x0 rx0) (View.ld x1 rx1) (View.ld x2 rx2)⟩]

/-- A whole-buffer store leaves its payload, and whole-buffer loads read the contents. -/
theorem out0_3c_eq (x0 : Vec F S1x512x512 .f32) (x1 : Vec F S1024x512 .f32) (x2 : Vec F S1024 .f32) :
    out0_3c x0 x1 x2 = out0_3 x0 x1 x2 := by
  unfold out0_3c out0_3
  rw [View.canon_unit_zero (S := S1x512x1024) zeros3 inb_S1x512x1024_S1x512x1024_0_0_0,
    View.ld_unit_zero (S := S1x512x512) zeros3 inb_S1x512x512_S1x512x512_0_0_0,
    View.ld_unit_zero (S := S1024x512) zeros2 inb_S1024x512_S1024x512_0_0,
    View.ld_unit_zero (S := S1024) zeros1 inb_S1024_S1024_0]

/-- The store covers the buffer. -/
theorem cover0_3 (p0 : Vec F S1x512x1024 .f32) (y : S1x512x1024.Idx) :
    ∃ pc ∈ ([⟨rx3, p0⟩] : List (View.Piece (Elt F) S1x512x1024 .f32)), y ∈ pc.1.set :=
  ⟨_, List.mem_singleton_self _, View.mem_set_unit_zero zeros3 inb_S1x512x1024_S1x512x1024_0_0_0 y⟩

/-! ## The body's triple -/

set_option maxHeartbeats 1000000 in
/-- The kernel body on whole staging memrefs, the inputs' at contents x0, x1, x2 and the output's at anything, runs to
    the continuation holding the inputs' as they were and the output's at the payload of the inputs. -/
theorem sound_kernel0 (c : Dev nD) (E : Set ℕ) (i : grid0.Coords)
    (arg0 : Memref sig .tc .vmem S1x512x512 .f32) (harg0 : arg0.IsWhole)
    (arg1 : Memref sig .tc .vmem S1024x512 .f32) (harg1 : arg1.IsWhole)
    (arg2 : Memref sig .tc .vmem S1024 .f32) (harg2 : arg2.IsWhole)
    (arg3 : Memref sig .tc .vmem S1x512x1024 .f32) (harg3 : arg3.IsWhole)
    (x0 : Vec F S1x512x512 .f32) (x1 : Vec F S1024x512 .f32) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  rw [← out0_3c_eq]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of region 0 on core c: the arrays as the region finds them; after the body at point t each input's
    buffer at its block and the output's at the payload of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1K.lean ====
/-
  Region 1 (the attention kernel): the kernel body's run on whole staging memrefs, in its three control cases.

  At every grid point the body replaces the scratch `s` it starts from by `scrStep Q Kb s`, where `Q` and `Kb` are the
  query and key blocks; at the first key tile (case A) it starts from `scrInit`, having stored it over whatever the
  scratch held; at the last key tile (case C) it also stores `out1_6` of the query block, the four parameter blocks and
  the updated scratch into the output buffer, which in the other two cases it leaves as found.
-/
import proofs.«139171_j57775900065974_2_alg».proof.Proof.KI.Defs
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first conditional: the key-tile coordinate is 0. -/
abbrev cond1_0 (i : grid1.Coords) : Prop := (Scalar.cmpi .ne (Scalar.extui (Scalar.cmpi .eq (BitVec.ofNat 32 (i 2).val) 0#32)) 0#32) = 1#1

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A buffer stored whole, last, reads the stored value, whatever was stored before. -/
theorem read_writes_whole {sig : RefSig} {κ : Kind} {sp : Space} {S : Shape} {e : EltTy} (v : View sig κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero hz inb y⟩),
    View.canon_cons_unit_zero hz]

set_option maxHeartbeats 4000000 in
/-- CASE A, the first key tile: the scratch is reset, then updated; the output buffer is left as found. -/
theorem kernelA (c : Dev nD) (E : Set ℕ) (i : grid1.Coords) (arg3 : Memref sig .tc .vmem S1x2048x1024 .f32) (harg3 : arg3.IsWhole) (arg4 : Memref sig .tc .vmem S1x512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1024 .f32) (harg12 : arg12.IsWhole)
    (hc0 : cond1_0 i) (hc1 : ¬ k1_cond2 i = 1#1)
    (Q : Vec F S1x2048x1024 .f32) (Kb : Vec F S1x512x1024 .f32) (g : Vec F S1024 .f32) (b : Vec F S1024 .f32) (w2 : Vec F S128x1024 .f32) (bb : Vec F S128 .f32)
    (d9 : Vec F S1x2048x128 .f32) (s : Scr F) (K : PUnit → sProp 𝕄) :
    iprop(owns (c : Thread nD τ) arg3 fullShare Q ∗ owns (c : Thread nD τ) arg4 fullShare Kb ∗ owns (c : Thread nD τ) arg5 fullShare g
        ∗ owns (c : Thread nD τ) arg6 fullShare b ∗ owns (c : Thread nD τ) arg7 fullShare w2 ∗ owns (c : Thread nD τ) arg8 fullShare bb
        ∗ owns (c : Thread nD τ) arg9 fullShare d9
        ∗ owns (c : Thread nD τ) arg10 fullShare s.m ∗ owns (c : Thread nD τ) arg11 fullShare s.l ∗ owns (c : Thread nD τ) arg12 fullShare s.a
        ∗ (iprop(owns (c : Thread nD τ) arg3 fullShare Q ∗ owns (c : Thread nD τ) arg4 fullShare Kb ∗ owns (c : Thread nD τ) arg5 fullShare g
            ∗ owns (c : Thread nD τ) arg6 fullShare b ∗ owns (c : Thread nD τ) arg7 fullShare w2 ∗ owns (c : Thread nD τ) arg8 fullShare bb
            ∗ owns (c : Thread nD τ) arg9 fullShare d9
            ∗ owns (c : Thread nD τ) arg10 fullShare (scrStep Q Kb scrInit).m ∗ owns (c : Thread nD τ) arg11 fullShare (scrStep Q Kb scrInit).l
            ∗ owns (c : Thread nD τ) arg12 fullShare (scrStep Q Kb scrInit).a) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part2_eq_skeleton, k1_part1_eq_skeleton]; unfold k1_part2_skel k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4
  obtain rfl := harg5.eq_unread hf5; obtain rfl := harg6.eq_unread hf6
  obtain rfl := harg7.eq_unread hf7; obtain rfl := harg8.eq_unread hf8
  obtain rfl := harg10.eq_unread hf10; obtain rfl := harg11.eq_unread hf11; obtain rfl := harg12.eq_unread hf12
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]; · iexists _; isplitr; · ipureintro; exact hf9
                  iexact H9
  isplitl [H10]
  · iexists _; isplitr
    swap; · iexact H10
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H11]
  · iexists _; isplitr
    swap; · iexact H11
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  · iexists _; isplitr
    swap; · iexact H12
    ipureintro
    refine (read_writes_whole (S := S2048x1024) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl

set_option maxHeartbeats 4000000 in
/-- CASE B, a middle key tile: the scratch is updated; the output buffer is left as found. -/
theorem kernelB (c : Dev nD) (E : Set ℕ) (i : grid1.Coords) (arg3 : Memref sig .tc .vmem S1x2048x1024 .f32) (harg3 : arg3.IsWhole) (arg4 : Memref sig .tc .vmem S1x512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1024 .f32) (harg12 : arg12.IsWhole)
    (hc0 : ¬ cond1_0 i) (hc1 : ¬ k1_cond2 i = 1#1)
    (Q : Vec F S1x2048x1024 .f32) (Kb : Vec F S1x512x1024 .f32) (g : Vec F S1024 .f32) (b : Vec F S1024 .f32) (w2 : Vec F S128x1024 .f32) (bb : Vec F S128 .f32)
    (d9 : Vec F S1x2048x128 .f32) (s : Scr F) (K : PUnit → sProp 𝕄) :
    iprop(owns (c : Thread nD τ) arg3 fullShare Q ∗ owns (c : Thread nD τ) arg4 fullShare Kb ∗ owns (c : Thread nD τ) arg5 fullShare g
        ∗ owns (c : Thread nD τ) arg6 fullShare b ∗ owns (c : Thread nD τ) arg7 fullShare w2 ∗ owns (c : Thread nD τ) arg8 fullShare bb
        ∗ owns (c : Thread nD τ) arg9 fullShare d9
        ∗ owns (c : Thread nD τ) arg10 fullShare s.m ∗ owns (c : Thread nD τ) arg11 fullShare s.l ∗ owns (c : Thread nD τ) arg12 fullShare s.a
        ∗ (iprop(owns (c : Thread nD τ) arg3 fullShare Q ∗ owns (c : Thread nD τ) arg4 fullShare Kb ∗ owns (c : Thread nD τ) arg5 fullShare g
            ∗ owns (c : Thread nD τ) arg6 fullShare b ∗ owns (c : Thread nD τ) arg7 fullShare w2 ∗ owns (c : Thread nD τ) arg8 fullShare bb
            ∗ owns (c : Thread nD τ) arg9 fullShare d9
            ∗ owns (c : Thread nD τ) arg10 fullShare (scrStep Q Kb s).m ∗ owns (c : Thread nD τ) arg11 fullShare (scrStep Q Kb s).l
            ∗ owns (c : Thread nD τ) arg12 fullShare (scrStep Q Kb s).a) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part2_eq_skeleton, k1_part1_eq_skeleton]; unfold k1_part2_skel k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4
  obtain rfl := harg5.eq_unread hf5; obtain rfl := harg6.eq_unread hf6
  obtain rfl := harg7.eq_unread hf7; obtain rfl := harg8.eq_unread hf8
  obtain rfl := harg10.eq_unread hf10; obtain rfl := harg11.eq_unread hf11; obtain rfl := harg12.eq_unread hf12
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]; · iexists _; isplitr; · ipureintro; exact hf9
                  iexact H9
  isplitl [H10]
  · iexists _; isplitr
    swap; · iexact H10
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H11]
  · iexists _; isplitr
    swap; · iexact H11
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  · iexists _; isplitr
    swap; · iexact H12
    ipureintro
    refine (read_writes_whole (S := S2048x1024) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl

set_option maxHeartbeats 4000000 in
/-- CASE C, the last key tile: the scratch is updated and the output block stored from the updated scratch. -/
theorem kernelC (c : Dev nD) (E : Set ℕ) (i : grid1.Coords) (arg3 : Memref sig .tc .vmem S1x2048x1024 .f32) (harg3 : arg3.IsWhole) (arg4 : Memref sig .tc .vmem S1x512x1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1024 .f32) (harg12 : arg12.IsWhole)
    (hc0 : ¬ cond1_0 i) (hc1 : k1_cond2 i = 1#1)
    (Q : Vec F S1x2048x1024 .f32) (Kb : Vec F S1x512x1024 .f32) (g : Vec F S1024 .f32) (b : Vec F S1024 .f32) (w2 : Vec F S128x1024 .f32) (bb : Vec F S128 .f32)
    (d9 : Vec F S1x2048x128 .f32) (s : Scr F) (K : PUnit → sProp 𝕄) :
    iprop(owns (c : Thread nD τ) arg3 fullShare Q ∗ owns (c : Thread nD τ) arg4 fullShare Kb ∗ owns (c : Thread nD τ) arg5 fullShare g
        ∗ owns (c : Thread nD τ) arg6 fullShare b ∗ owns (c : Thread nD τ) arg7 fullShare w2 ∗ owns (c : Thread nD τ) arg8 fullShare bb
        ∗ owns (c : Thread nD τ) arg9 fullShare d9
        ∗ owns (c : Thread nD τ) arg10 fullShare s.m ∗ owns (c : Thread nD τ) arg11 fullShare s.l ∗ owns (c : Thread nD τ) arg12 fullShare s.a
        ∗ (iprop(owns (c : Thread nD τ) arg3 fullShare Q ∗ owns (c : Thread nD τ) arg4 fullShare Kb ∗ owns (c : Thread nD τ) arg5 fullShare g
            ∗ owns (c : Thread nD τ) arg6 fullShare b ∗ owns (c : Thread nD τ) arg7 fullShare w2 ∗ owns (c : Thread nD τ) arg8 fullShare bb
            ∗ owns (c : Thread nD τ) arg9 fullShare (out1_6 Q g b w2 bb (scrStep Q Kb s))
            ∗ owns (c : Thread nD τ) arg10 fullShare (scrStep Q Kb s).m ∗ owns (c : Thread nD τ) arg11 fullShare (scrStep Q Kb s).l
            ∗ owns (c : Thread nD τ) arg12 fullShare (scrStep Q Kb s).a) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part2_eq_skeleton, k1_part1_eq_skeleton]; unfold k1_part2_skel k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf3; obtain rfl := harg4.eq_unread hf4
  obtain rfl := harg5.eq_unread hf5; obtain rfl := harg6.eq_unread hf6
  obtain rfl := harg7.eq_unread hf7; obtain rfl := harg8.eq_unread hf8
  obtain rfl := harg10.eq_unread hf10; obtain rfl := harg11.eq_unread hf11; obtain rfl := harg12.eq_unread hf12
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]
  · iexists _; isplitr
    swap; · iexact H9
    ipureintro
    refine (read_writes_whole (S := S1x2048x128) _ _ hz3 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H10]
  · iexists _; isplitr
    swap; · iexact H10
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  isplitl [H11]
  · iexists _; isplitr
    swap; · iexact H11
    ipureintro
    refine (read_writes_whole (S := S2048x1) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl
  · iexists _; isplitr
    swap; · iexact H12
    ipureintro
    refine (read_writes_whole (S := S2048x1024) _ _ hz2 _ _ _).trans ?_
    sl_unfold_run_names
    simp only [View.readAt_eq_ld, harg3.read_unread, harg4.read_unread, harg5.read_unread, harg6.read_unread, harg7.read_unread, harg8.read_unread, harg10.read_unread, harg11.read_unread, harg12.read_unread,
      View.readCov_unit_zero (S := S2048x1) _ hz2, View.readCov_unit_zero (S := S2048x1024) _ hz2,
      View.ld_unit_zero (S := S1x2048x1024) hz3, View.ld_unit_zero (S := S1x512x1024) hz3, View.ld_unit_zero (S := S2048x1) hz2, View.ld_unit_zero (S := S2048x1024) hz2,
      View.ld_unit_zero (S := S1024) hz1, View.ld_unit_zero (S := S128x1024) hz2, View.ld_unit_zero (S := S128) hz1]
    rfl

end Cert.KernelIdeal.Hand

end
-- ==== Proof.KI.Body1.lean ====
/-
  Region 1 (the attention kernel): the proof data and the body obligation.

  The kernel keeps three scratch arrays between the grid points of one batch row: the running maximum, the running
  normaliser and the unnormalised accumulator. The tracking invariant holds those three buffers whole, at the
  contents the recursion `scrAfter` names (before the first point: any contents), beside the rest of the core's scoped
  buffers and its generator register, which the body does not touch. A point whose key-tile coordinate is 0 resets the
  scratch before updating it; a point whose key-tile coordinate is 3 stores the output block from the updated scratch;
  at every other point the output window is idle and its buffer goes back as it came.
-/
import proofs.«139171_j57775900065974_2_alg».proof.Proof.KI.Body1K
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three scratch buffers of region 1, in operand order. -/
abbrev scrRefs : List (Ref sig .tc) := [cc1_scratch0, cc1_scratch1, cc1_scratch2]

section
variable (V : (c : Dev nD) → (b : Ref sig .tc) → Buf (Elt F) ((c : Thread nD τ).loc b))

/-- The three scratch buffers held whole at the contents `s`. -/
def scrOwned (c : Dev nD) (s : Scr F) : sProp 𝕄 :=
  iprop(owns (c : Thread nD τ) (Memref.whole cc1_scratch0) fullShare s.m
    ∗ owns (c : Thread nD τ) (Memref.whole cc1_scratch1) fullShare s.l
    ∗ owns (c : Thread nD τ) (Memref.whole cc1_scratch2) fullShare s.a)

/-- The tracking invariant before point `k`: the class invariant with the three scratch buffers taken out of its
    scoped rest and held whole at contents `s`, where `s` is `scrAfter V c k` once a point has run (before the first
    point the scratch holds anything). -/
def Phi1 (c : Dev nD) (k : Fin (cfg1.N + 1)) : sProp 𝕄 :=
  iprop((∃ s : Scr F, ⌜k.val ≠ 0 → s = scrAfter V c k.val⌝ ∗ scrOwned c s)
    ∗ Pipeline.scopedRestBut (Ix := Unit) (Name := ℕ) (U := UR sig nD τ) (Lvl := ℕ) (Val := Elt F) spec1 c scrRefs
    ∗ ∃ r, prngReg c r)

/-- The proof data of region 1 on core `c`: the arrays as the region finds them; after the body each input's buffer
    at its block and the output's at what the last key tile stores; the tracking invariant; windows 0 and 1 at the two
    halves of their common array; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ := Phi1 V c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- Each input window's current staging buffer holds its block at every point, fetched there or not: unfetched, the
    block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- The scratch after point `t`: one key tile's update of the scratch the point starts from. -/
theorem scrAfter_succ (c : Dev nD) (t : Fin cfg1.N) :
    scrAfter V c (t.val + 1) = scrStep (iblk1 V c 0 t) (iblk1 V c 1 t) (if t.val % 4 = 0 then scrInit else scrAfter V c t.val) := by
  rw [scrAfter, dif_pos t.isLt]

/-- The class invariant's scoped rest, the three scratch buffers split off. -/
theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f))
        ∗ Pipeline.scopedRestBut (Ix := Unit) (Name := ℕ) (U := UR sig nD τ) (Lvl := ℕ) (Val := Elt F) spec1 c scrRefs) :=
  Pipeline.scopedRest_split_of_list spec1 c scrRefs (by decide) (by decide)

theorem Phi1_in (c : Dev nD) : Pipeline.ΦA spec1 c ⊢ (dat1 V c).Φ 0 := by
  rw [show (dat1 V c).Φ 0 = Phi1 V c 0 from rfl]
  unfold Pipeline.ΦA Phi1 scrOwned
  rw [scopedRest1_split]
  simp only [owns_whole]
  iintro ⟨⟨⟨⟨%f0, H0⟩, ⟨%f1, H1⟩, ⟨%f2, H2⟩⟩, Hrest⟩, Hp⟩
  isplitl [H0 H1 H2]
  · iexists (⟨f0, f1, f2⟩ : Scr F); isplitr
    · ipureintro; exact fun h => absurd rfl h
    isplitl [H0]; · iexact H0
    isplitl [H1]; · iexact H1
    iexact H2
  isplitl [Hrest]; · iexact Hrest
  iexact Hp

theorem Phi1_out (c : Dev nD) : (dat1 V c).Φ (Fin.last cfg1.N) ⊢ Pipeline.ΦA spec1 c := by
  rw [show (dat1 V c).Φ (Fin.last cfg1.N) = Phi1 V c (Fin.last cfg1.N) from rfl]
  unfold Pipeline.ΦA Phi1 scrOwned
  rw [scopedRest1_split]
  simp only [owns_whole]
  iintro ⟨⟨%s, -, H0, H1, H2⟩, Hrest, Hp⟩
  isplitl [H0 H1 H2 Hrest]
  · isplitl [H0 H1 H2]
    · isplitl [H0]; · iexists _; iexact H0
      isplitl [H1]; · iexists _; iexact H1
      iexists _; iexact H2
    iexact Hrest
  iexact Hp

/-! ## The body's branch conditions and the output window's idle points, in closed form over the grid -/

/-- The first conditional (reset the scratch) is taken at the points whose key-tile coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional (store the output block) is taken at the points whose key-tile coordinate is 3. -/
theorem hcond1_1 : ∀ t : Fin cfg1.N, k1_cond2 (grid1.coords t) = 1#1 ↔ t.val % 4 = 3 :=
  (by decide +kernel : ∀ t : Fin grid1.N, k1_cond2 (grid1.coords t) = 1#1 ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The output window is idle, and not written back, at the points whose key-tile coordinate is not 3; -/
theorem idleAt1_6 : ∀ t : Fin cfg1.N, ¬ t.val % 4 = 3 → cfg1.idle 6 (grid1.coords t) = true := by decide +kernel
theorem noFlush1_6 : ∀ t : Fin cfg1.N, ¬ t.val % 4 = 3 → (cfg1.win 6).flush t = false := by decide +kernel
/-- and live at the others. -/
theorem liveAt1_6 : ∀ t : Fin cfg1.N, t.val % 4 = 3 → cfg1.idle 6 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]

set_option maxHeartbeats 4000000 in
/-- The body at any point: the inputs' memrefs hold their blocks, the invariant hands over the scratch at what the point
    before left (at anything at the first point, where the body resets it), the closed forms say which case the point is
    in, and that case's run applies; the scratch goes back at this point's contents, the output buffer at the stored
    block where the body stores it and as found elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    leaves1_0, leaves1_1, leaves1_2, leaves1_3, leaves1_4, leaves1_5,
    show (dat1 V c).Φ t.castSucc = Phi1 V c t.castSucc from rfl, show (dat1 V c).Φ t.succ = Phi1 V c t.succ from rfl]
  unfold Phi1 scrOwned
  have hN : t.val < 32 := lt_of_lt_of_eq t.isLt (show cfg1.N = 32 from N_1)
  by_cases h1 : t.val % 4 = 3
  · have h0 : ¬ t.val % 4 = 0 := by omega
    rw [show (dat1 V c).leavesExact 6 t = owns (c : Thread nD τ) (st1_6 t) fullShare (outAt1 V c t) from by
      unfold Dat.leavesExact; rw [liveAt1_6 t h1, after1_6]]
    unfold outAt1
    iintro ⟨⟨⟨%s, %hs, Hs0, Hs1, Hs2⟩, Hrest, Hp⟩, Ho, ⟨%d0, H0⟩, ⟨%d1, H1⟩, ⟨%d2, H2⟩, ⟨%d3, H3⟩, ⟨%d4, H4⟩, ⟨%d5, H5⟩, ⟨%d6, H6⟩⟩
    have e : scrAfter V c (t.val + 1) = scrStep (iblk1 V c 0 t) (iblk1 V c 1 t) s := by
      have hs' : t.val ≠ 0 → s = scrAfter V c t.val := hs
      rw [scrAfter_succ, if_neg h0, hs' (fun hz => h0 (by rw [hz]))]
    rw [e]
    iapply (kernelC c Set.univ (grid1.coords t) _ _ _ _ _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) (iblk1 V c 4 t) (iblk1 V c 5 t) ((dat1 V c).before 6 t d6) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs0]; · iexact Hs0
    isplitl [Hs1]; · iexact Hs1
    isplitl [Hs2]; · iexact Hs2
    iintro ⟨H0, H1, H2, H3, H4, H5, H6, Hs0, Hs1, Hs2⟩
    isplitl [Hs0 Hs1 Hs2 Hrest Hp]
    · isplitl [Hs0 Hs1 Hs2]
      · iexists _; isplitr
        · ipureintro; exact fun _ => e.symm
        isplitl [Hs0]; · iexact Hs0
        isplitl [Hs1]; · iexact Hs1
        iexact Hs2
      isplitl [Hrest]; · iexact Hrest
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idleAt1_6 t h1) (noFlush1_6 t h1)]
    by_cases h0 : t.val % 4 = 0
    · iintro ⟨⟨⟨%s, %hs, Hs0, Hs1, Hs2⟩, Hrest, Hp⟩, Ho, ⟨%d0, H0⟩, ⟨%d1, H1⟩, ⟨%d2, H2⟩, ⟨%d3, H3⟩, ⟨%d4, H4⟩, ⟨%d5, H5⟩, ⟨%d6, H6⟩⟩
      have e : scrAfter V c (t.val + 1) = scrStep (iblk1 V c 0 t) (iblk1 V c 1 t) scrInit := by
        rw [scrAfter_succ, if_pos h0]
      iapply (kernelA c Set.univ (grid1.coords t) _ _ _ _ _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) (iblk1 V c 4 t) (iblk1 V c 5 t) ((dat1 V c).before 6 t d6) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hs0]; · iexact Hs0
      isplitl [Hs1]; · iexact Hs1
      isplitl [Hs2]; · iexact Hs2
      iintro ⟨H0, H1, H2, H3, H4, H5, H6, Hs0, Hs1, Hs2⟩
      isplitl [Hs0 Hs1 Hs2 Hrest Hp]
      · isplitl [Hs0 Hs1 Hs2]
        · iexists _; isplitr
          · ipureintro; exact fun _ => e.symm
          isplitl [Hs0]; · iexact Hs0
          isplitl [Hs1]; · iexact Hs1
          iexact Hs2
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · iintro ⟨⟨⟨%s, %hs, Hs0, Hs1, Hs2⟩, Hrest, Hp⟩, Ho, ⟨%d0, H0⟩, ⟨%d1, H1⟩, ⟨%d2, H2⟩, ⟨%d3, H3⟩, ⟨%d4, H4⟩, ⟨%d5, H5⟩, ⟨%d6, H6⟩⟩
      have e : scrAfter V c (t.val + 1) = scrStep (iblk1 V c 0 t) (iblk1 V c 1 t) s := by
        have hs' : t.val ≠ 0 → s = scrAfter V c t.val := hs
        rw [scrAfter_succ, if_neg h0, hs' (fun hz => h0 (by rw [hz]))]
      iapply (kernelB c Set.univ (grid1.coords t) _ _ _ _ _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) (iblk1 V c 5 t) ((dat1 V c).before 6 t d6) s _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hs0]; · iexact Hs0
      isplitl [Hs1]; · iexact Hs1
      isplitl [Hs2]; · iexact Hs2
      iintro ⟨H0, H1, H2, H3, H4, H5, H6, Hs0, Hs1, Hs2⟩
      isplitl [Hs0 Hs1 Hs2 Hrest Hp]
      · isplitl [Hs0 Hs1 Hs2]
        · iexists _; isplitr
          · ipureintro; exact fun _ => e.symm
          isplitl [Hs0]; · iexact Hs0
          isplitl [Hs1]; · iexact Hs1
          iexact Hs2
        isplitl [Hrest]; · iexact Hrest
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : Pipeline.BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The two-region program run from launch to return.

  Region 0 (the linear layer) writes its result array; four host stretches then pad the classifier weight and bias;
  region 1 (attention with a running maximum) reads the linear layer's result through TWO windows (the query block and
  the key block), so the two windows hold complementary halves of that array's points-to; a last host stretch slices
  the result. The buffer contents at each boundary are folded from the launch memory; each region is a segment whose
  entry sorts its windows' arrays out of "every unscoped buffer whole at the boundary's contents" and whose exit puts
  them back at what the write-backs left. The launch theorem reads the last boundary's contents against the final
  state: the result buffer and the seven argument arrays.
-/
import proofs.«139171_j57775900065974_2_alg».proof.Proof.KI.Body0
import proofs.«139171_j57775900065974_2_alg».proof.Proof.KI.Body1
import proofs.«139171_j57775900065974_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at the regions' entries -/

/-- Region 0's entry contents: the launch memory. -/
def entry0 (m : (ℓ : Loc nD τ sig) → Buf (Elt F) ℓ) (ρ : Dev nD → PrngReg) (c : Dev nD) :
    (b : Ref sig .tc) → Buf (Elt F) ((c : Thread nD τ).loc b) :=
  fun b => m ((c : Thread nD τ).loc b)

/-- What region 0 leaves in its result array. -/
def res0 (m : (ℓ : Loc nD τ sig) → Buf (Elt F) ℓ) (ρ : Dev nD → PrngReg) (c : Dev nD) :
    Buf (Elt F) ((c : Thread nD τ).loc main_v0) :=
  (dat0 (entry0 m ρ) c).arrAt 3 cfg0.N

/-- The regions' results as far as region 1's entry: only region 0's. -/
def outsA (m : (ℓ : Loc nD τ sig) → Buf (Elt F) ℓ) (ρ : Dev nD → PrngReg) : Outs (F := F) :=
  fun _ r c => Function.update (β := fun r : Ref sig .tc => Buf (Elt F) ((c : Thread nD τ).loc r))
    (fun r => m ((c : Thread nD τ).loc r)) main_v0 (res0 m ρ c) r

/-- Region 1's entry contents: after region 0's write-backs and the four host stretches. -/
def entry1 (m : (ℓ : Loc nD τ sig) → Buf (Elt F) ℓ) (ρ : Dev nD → PrngReg) (c : Dev nD) :
    (b : Ref sig .tc) → Buf (Elt F) ((c : Thread nD τ).loc b) :=
  fun b => V5 m (outsA m ρ) c b

/-- What region 1 leaves in its result array. -/
def res1 (m : (ℓ : Loc nD τ sig) → Buf (Elt F) ℓ) (ρ : Dev nD → PrngReg) (c : Dev nD) :
    Buf (Elt F) ((c : Thread nD τ).loc main_v3) :=
  (dat1 (entry1 m ρ) c).arrAt 6 cfg1.N

/-- The regions' results: region 0's and region 1's. -/
def outsH (m : (ℓ : Loc nD τ sig) → Buf (Elt F) ℓ) (ρ : Dev nD → PrngReg) : Outs (F := F) :=
  fun J r c => Function.update (β := fun r : Ref sig .tc => Buf (Elt F) ((c : Thread nD τ).loc r))
    (fun r => outsA m ρ J r c) main_v3 (res1 m ρ c) r

theorem outsA_v0 (c : Dev nD) : outsA m ρ 1 main_v0 c = res0 m ρ c := by
  unfold outsA; rw [Function.update_self]

theorem outsH_v0 (c : Dev nD) : outsH m ρ 1 main_v0 c = res0 m ρ c := by
  unfold outsH; rw [Function.update_of_ne (by decide)]; exact outsA_v0 m ρ c

theorem outsH_v3 (c : Dev nD) : outsH m ρ 6 main_v3 c = res1 m ρ c := by
  unfold outsH; rw [Function.update_self]

/-- Region 1's result does not reach back: the boundaries up to region 1's entry are those of region 0's result alone. -/
theorem V1_outsH (c : Dev nD) : V1 m (outsH m ρ) c = V1 m (outsA m ρ) c := by
  show Function.update (V0 m c) _ (outsH m ρ 1 main_v0 c) = Function.update (V0 m c) _ (outsA m ρ 1 main_v0 c)
  rw [outsH_v0, outsA_v0]

theorem V5_outsH (c : Dev nD) : V5 m (outsH m ρ) c = V5 m (outsA m ρ) c := by
  show StableHlo.after hostOps1_3 (StableHlo.after hostOps1_2 (StableHlo.after hostOps1_1 (StableHlo.after hostOps1 (V1 m (outsH m ρ) c)))) = _
  rw [V1_outsH]

theorem V5_entry1 (c : Dev nD) (b : Ref sig .tc) : V5 m (outsH m ρ) c b = entry1 m ρ c b := by
  rw [V5_outsH]; rfl

theorem V1_main_v0 (c : Dev nD) : V1 m (outsH m ρ) c main_v0 = res0 m ρ c := by
  show Function.update (V0 m c) _ (outsH m ρ 1 main_v0 c) _ = _
  rw [Function.update_self, outsH_v0]

theorem V6_main_v3 (c : Dev nD) : V6 m (outsH m ρ) c main_v3 = res1 m ρ c := by
  show Function.update (V5 m (outsH m ρ) c) _ (outsH m ρ 6 main_v3 c) _ = _
  rw [Function.update_self, outsH_v3]

theorem entry1_main_v0 (c : Dev nD) : entry1 m ρ c main_v0 = (dat0 (entry0 m ρ) c).arrAt 3 cfg0.N := by
  rw [← V5_entry1]
  exact (V5_of m (outsH m ρ) c main_v0 (by decide)).trans <| (V4_of m (outsH m ρ) c main_v0 (by decide)).trans <|
    (V3_of m (outsH m ρ) c main_v0 (by decide)).trans <| (V2_of m (outsH m ρ) c main_v0 (by decide)).trans (V1_main_v0 m ρ c)

theorem entry1_main_v1 (c : Dev nD) : entry1 m ρ c main_v1
    = pad S128x1024 ![0, 0] ![112, 0] ![0, 0] (m ((c : Thread nD τ).loc main_arg5)) (sitofp .f32 (constantI S_ 32 0#32)) pads_S16x1024_S128x1024_01120_000 h_S_ := by
  rw [← V5_entry1]
  refine (V5_of m (outsH m ρ) c main_v1 (by decide)).trans <| (V4_of m (outsH m ρ) c main_v1 (by decide)).trans ?_
  show StableHlo.after hostOps1_1 (StableHlo.after hostOps1 (V1 m (outsH m ρ) c)) (Proc.devRef .tc main_v1) = _
  after_results
  first | rfl | (have h := V1_of m (outsH m ρ) c main_arg5 (by decide); dsimp only [StableHlo.TRef.of] at *; rw [h]; rfl)

theorem entry1_main_v2 (c : Dev nD) : entry1 m ρ c main_v2
    = pad S128 ![0] ![112] ![0] (m ((c : Thread nD τ).loc main_arg6)) (sitofp .f32 (constantI S_ 32 0#32)) pads_S16_S128_01120 h_S_ := by
  rw [← V5_entry1]
  show StableHlo.after hostOps1_3 (StableHlo.after hostOps1_2 (StableHlo.after hostOps1_1 (StableHlo.after hostOps1 (V1 m (outsH m ρ) c)))) (Proc.devRef .tc main_v2) = _
  after_results
  first | rfl | (have h := V1_of m (outsH m ρ) c main_arg6 (by decide); dsimp only [StableHlo.TRef.of] at *; rw [h]; rfl)

theorem entry1_main_arg3 (c : Dev nD) : entry1 m ρ c main_arg3 = m ((c : Thread nD τ).loc main_arg3) := by
  rw [← V5_entry1]
  exact (V5_of m (outsH m ρ) c main_arg3 (by decide)).trans <| (V4_of m (outsH m ρ) c main_arg3 (by decide)).trans <|
    (V3_of m (outsH m ρ) c main_arg3 (by decide)).trans <| (V2_of m (outsH m ρ) c main_arg3 (by decide)).trans <|
    (V1_of m (outsH m ρ) c main_arg3 (by decide)).trans rfl

theorem entry1_main_arg4 (c : Dev nD) : entry1 m ρ c main_arg4 = m ((c : Thread nD τ).loc main_arg4) := by
  rw [← V5_entry1]
  exact (V5_of m (outsH m ρ) c main_arg4 (by decide)).trans <| (V4_of m (outsH m ρ) c main_arg4 (by decide)).trans <|
    (V3_of m (outsH m ρ) c main_arg4 (by decide)).trans <| (V2_of m (outsH m ρ) c main_arg4 (by decide)).trans <|
    (V1_of m (outsH m ρ) c main_arg4 (by decide)).trans rfl

end Run

/-! ## The array two windows share

Region 1 reads the linear layer's result through two windows. The buffers behind its arrays are six; its windowed
arrays are seven points-tos, the shared buffer's split in its two halves. -/

section Shared
variable (V : (c : Dev nD) → (b : Ref sig .tc) → Buf (Elt F) ((c : Thread nD τ).loc b))

/-- The distinct buffers behind region 1's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_arg3) ↦{fullShare} W main_arg3)
          ∗ (((c : Thread nD τ).loc main_arg4) ↦{fullShare} W main_arg4) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact bigSep_eq_bigSepL_of_eq [main_v0, main_arg3, main_arg4, main_v1, main_v2, main_v3] (by decide) (by decide) _

/-- Region 1's windowed arrays at contents G, window by window: windows 0 and 1 hold the two halves of the linear
    layer's result, every other window its own array whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg3) ↦{fullShare} G 2) ∗ (((c : Thread nD τ).loc main_arg4) ↦{fullShare} G 3)
          ∗ (((c : Thread nD τ).loc main_v1) ↦{fullShare} G 4) ∗ (((c : Thread nD τ).loc main_v2) ↦{fullShare} G 5)
          ∗ (((c : Thread nD τ).loc main_v3) ↦{fullShare} G 6)) := by
  unfold Dat.arrays
  rw [bigSep_W1, (arr_whole1 0).set_eq_univ, (arr_whole1 2).set_eq_univ, (arr_whole1 3).set_eq_univ,
    (arr_whole1 4).set_eq_univ, (arr_whole1 5).set_eq_univ, (arr_whole1 6).set_eq_univ]
  rfl

/-- THE SPLIT: the buffers behind region 1's arrays, each whole at the full share at contents W, are its windowed
    arrays at the contents read off W — the shared buffer's points-to cut in its two halves. -/
theorem arrays1_of_arrBufs (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  rw [arrBufs1_eq, arrays1_eq]
  iintro ⟨H0, H3, H4, H1, H2, Hv3⟩
  ihave Hs := (pointsTo_share (PosShare.mem_left_op_right fullShare)).1 $$ H0
  icases Hs with ⟨Hl, Hr⟩
  isplitl [Hl]; · iexact Hl
  isplitl [Hr]; · iexact Hr
  isplitl [H3]; · iexact H3
  isplitl [H4]; · iexact H4
  isplitl [H1]; · iexact H1
  isplitl [H2]; · iexact H2
  iexact Hv3

/-- THE JOIN: region 1's windowed arrays at contents that are read off W — in particular both halves of the shared
    buffer at the same contents — are the buffers behind them, each whole at the full share at W. -/
theorem arrBufs_of_arrays1 (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  obtain rfl : G = fun w => W (Pipeline.arrRef spec1 w) := funext hG
  rw [arrBufs1_eq, arrays1_eq]
  iintro ⟨Hl, Hr, H3, H4, H1, H2, Hv3⟩
  isplitl [Hl Hr]
  · iapply (pointsTo_share (PosShare.mem_left_op_right fullShare)).2
    isplitl [Hl]; · iexact Hl
    iexact Hr
  isplitl [H3]; · iexact H3
  isplitl [H4]; · iexact H4
  isplitl [H1]; · iexact H1
  isplitl [H2]; · iexact H2
  iexact Hv3

/-- ENTRY: a core's unscoped buffers at contents W are region 1's windowed arrays at the contents read off W and the
    unscoped rest. -/
theorem arrays1_of_held (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    (unscopedBufs c W : sProp 𝕄) ⊢ iprop((dat1 V c).arrays G ∗ Pipeline.unscopedRest (Ix := Unit) (Name := ℕ) (U := UR sig nD τ) (Lvl := ℕ) spec1 c W) := by
  rw [Pipeline.unscopedBufs_split₀ cfgs 1 winFacts₀1.arr_unscoped c W]
  exact sep_mono (arrays1_of_arrBufs V c W G hG) .rfl

/-- EXIT: region 1's windowed arrays at contents G and the unscoped rest at W are the core's unscoped buffers at any
    contents W' that have the arrays at G and agree with W off them. -/
theorem held_of_arrays1 (c : Dev nD) (W W' : (b : Ref sig .tc) → Buf (Elt F) ((c : Thread nD τ).loc b))
    (G : (w : Fin cfg1.W) → Buf (Elt F) ((cfg1.win w).arr.view.loc (c.tc : Thread nD τ))) (hG : ∀ w, G w = W' (Pipeline.arrRef spec1 w))
    (hrest : ∀ b, b ∉ Finset.univ.image (Pipeline.arrRef spec1) → W' b = W b) :
    iprop((dat1 V c).arrays G ∗ Pipeline.unscopedRest (Ix := Unit) (Name := ℕ) (U := UR sig nD τ) (Lvl := ℕ) spec1 c W) ⊢ (unscopedBufs c W' : sProp 𝕄) := by
  rw [Pipeline.unscopedBufs_split₀ cfgs 1 winFacts₀1.arr_unscoped c W']
  refine sep_mono (arrBufs_of_arrays1 V c W' G hG) (Entails.of_eq ?_)
  unfold Pipeline.unscopedRest
  exact bigSep_congr fun b hb => by rw [hrest b (Finset.mem_sdiff.mp hb).2]

end Shared

section Run2
variable (m : (ℓ : Loc nD τ sig) → Buf (Elt F) ℓ) (ρ : Dev nD → PrngReg)

/-! ## The regions' exit contents against the boundaries -/

/-- At region 0's exit each of its arrays holds what the pipeline leaves, -/
theorem hF0 (c : Dev nD) : ∀ w : Fin cfg0.W, (dat0 (entry0 m ρ) c).arrAt w cfg0.N = V1 m (outsH m ρ) c (Pipeline.arrRef spec0 w)
  | ⟨0, _⟩ => (((dat0 (entry0 m ρ) c).arrAt_in 0 rfl _).trans (A_eq0 (entry0 m ρ) c 0)).trans (V1_of m (outsH m ρ) c main_arg0 (by decide)).symm
  | ⟨1, _⟩ => (((dat0 (entry0 m ρ) c).arrAt_in 1 rfl _).trans (A_eq0 (entry0 m ρ) c 1)).trans (V1_of m (outsH m ρ) c main_arg1 (by decide)).symm
  | ⟨2, _⟩ => (((dat0 (entry0 m ρ) c).arrAt_in 2 rfl _).trans (A_eq0 (entry0 m ρ) c 2)).trans (V1_of m (outsH m ρ) c main_arg2 (by decide)).symm
  | ⟨3, _⟩ => (V1_main_v0 m ρ c).symm

/-- and every other buffer what it held at entry. -/
theorem hrest0 (c : Dev nD) : ∀ b, b ∉ Finset.univ.image (Pipeline.arrRef spec0) → V1 m (outsH m ρ) c b = entry0 m ρ c b :=
  fun b hb => V1_of m (outsH m ρ) c b fun hmem => hb (by rw [List.mem_singleton] at hmem; subst hmem; decide)

/-- At region 1's exit each of its arrays holds what the pipeline leaves: the six input arrays (the shared one twice)
    their entry contents, the result array the write-backs' fold, -/
theorem hF1_in (c : Dev nD) (w : Fin cfg1.W) (hw : (cfg1.win w).isOut = false)
    (hne : Pipeline.arrRef spec1 w ∉ ([main_v3] : List (Ref sig .tc))) :
    (dat1 (entry1 m ρ) c).arrAt w cfg1.N = V6 m (outsH m ρ) c (Pipeline.arrRef spec1 w) :=
  (((dat1 (entry1 m ρ) c).arrAt_in w hw _).trans (A_eq1 (entry1 m ρ) c w)).trans
    ((V5_entry1 m ρ c _).symm.trans (V6_of m (outsH m ρ) c _ hne).symm)

theorem hF1 (c : Dev nD) : ∀ w : Fin cfg1.W, (dat1 (entry1 m ρ) c).arrAt w cfg1.N = V6 m (outsH m ρ) c (Pipeline.arrRef spec1 w)
  | ⟨0, _⟩ => hF1_in m ρ c 0 rfl (by decide)
  | ⟨1, _⟩ => hF1_in m ρ c 1 rfl (by decide)
  | ⟨2, _⟩ => hF1_in m ρ c 2 rfl (by decide)
  | ⟨3, _⟩ => hF1_in m ρ c 3 rfl (by decide)
  | ⟨4, _⟩ => hF1_in m ρ c 4 rfl (by decide)
  | ⟨5, _⟩ => hF1_in m ρ c 5 rfl (by decide)
  | ⟨6, _⟩ => (V6_main_v3 m ρ c).symm

/-- and every other buffer what it held at entry. -/
theorem hrest1 (c : Dev nD) : ∀ b, b ∉ Finset.univ.image (Pipeline.arrRef spec1) → V6 m (outsH m ρ) c b = entry1 m ρ c b :=
  fun b hb => (V6_of m (outsH m ρ) c b fun hmem => hb (by rw [List.mem_singleton] at hmem; subst hmem; decide)).trans (V5_entry1 m ρ c b)

/-- The result buffer at the end: the slice of what region 1 leaves in its result array. -/
theorem V7_main_v4 (c : Dev nD) : V7 m (outsH m ρ) c main_v4
    = extractStridedSlice S8x2048x16 ![0, 0, 0] ((dat1 (entry1 m ρ) c).arrAt 6 cfg1.N) slices_S8x2048x128_S8x2048x16_0_0_0 := by
  show StableHlo.after hostOps2 (V6 m (outsH m ρ) c) (Proc.devRef .tc main_v4) = _
  after_results
  rw [V6_main_v3]
  rfl

/-! ## The proof data family and the thread state -/

/-- Every pipeline's proof data, each at its region's entry contents. -/
def pdats (m : (ℓ : Loc nD τ sig) → Buf (Elt F) ℓ) (ρ : Dev nD → PrngReg) :
    (p : Fin 2) → (c : Dev nD) → Dat τ (Elt F) Unit ℕ (UR sig nD τ) ℕ (cfgs p) c
  | ⟨0, _⟩ => fun c => dat0 (entry0 m ρ) c
  | ⟨1, _⟩ => fun c => dat1 (entry1 m ρ) c

abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the core's generator register at some state and its dues, at nothing. -/
abbrev Rh (c : Dev nD) : sProp 𝕄 := iprop((∃ r, prngReg c r) ∗ ∃ W, owes (c : Thread nD τ) (0 : CellTallies nD τ sig Unit) W)
abbrev Eh : Fin 3 → Dev nD → sProp 𝕄 := fun _ c => Rh c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 (the linear layer): entered from every unscoped buffer at the launch contents, left with its result array
    at what its write-backs leave. Its four arrays are distinct, so they split out of the unscoped buffers and go
    back whole. -/
def reg0 : Pipeline.RegionSeg (pcfgs (F := F)) adm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (entry0 m ρ) c).loose
  hwaits := Pipeline.hwaits_of_owed_zero _ _ _ _ Lh lvh 0 fun _ _ => rfl
  pre c := iprop(StableHlo.held (c : Thread nD τ) (Pipeline.ucRefs τ sig) (V0 m c) ∗ Rh c)
  post c := iprop(StableHlo.held (c : Thread nD τ) (Pipeline.ucRefs τ sig) (V1 m (outsH m ρ) c) ∗ Rh c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [show (unscopedBufs c (entry0 m ρ c) : sProp 𝕄) = StableHlo.held (c : Thread nD τ) (Pipeline.ucRefs τ sig) (V0 m c)
      from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (fun b => V1 m (outsH m ρ) c b) ((pdats m ρ 0 c).arrAt · cfg0.N) (hF0 m ρ c) (hrest0 m ρ c)
    rw [show (unscopedBufs c (fun b : Ref sig .tc => V1 m (outsH m ρ) c b) : sProp 𝕄)
        = StableHlo.held (c : Thread nD τ) (Pipeline.ucRefs τ sig) (V1 m (outsH m ρ) c)
      from Pipeline.unscopedBufs_held c (V1 m (outsH m ρ) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (attention): entered from every unscoped buffer at region 1's entry contents, left with its result array
    at what its write-backs leave. Two of its windows read one array: at entry that array's points-to is cut in halves
    (the split), at exit the halves, still at the entry contents, are joined again (the join). Its invariant tracks the
    scratch, entered from the class invariant and returned to it. -/
def reg1 : Pipeline.RegionSeg (pcfgs (F := F)) adm (pdats m ρ) () defs₀ 𝒱h Lh lvh 1 where
  win := winFacts₀1
  block_pos := block_pos1
  stage_whole := stage_whole1
  K := PEmpty
  osem k := k.elim
  ho := Pipeline.OwnSemFacts.none _
  hbody c := (body_obligation1 (entry1 m ρ) c).loose
  hwaits := Pipeline.hwaits_of_owed_zero _ _ _ _ Lh lvh 1 fun _ _ => rfl
  pre c := iprop(StableHlo.held (c : Thread nD τ) (Pipeline.ucRefs τ sig) (V5 m (outsH m ρ) c) ∗ Rh c)
  post c := iprop(StableHlo.held (c : Thread nD τ) (Pipeline.ucRefs τ sig) (V6 m (outsH m ρ) c) ∗ Rh c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := arrays1_of_held (entry1 m ρ) c (entry1 m ρ c) (fun w => (dat1 (entry1 m ρ) c).arrAt w 0)
      (fun w => A_eq1 (entry1 m ρ) c w)
    rw [show (unscopedBufs c (entry1 m ρ c) : sProp 𝕄) = StableHlo.held (c : Thread nD τ) (Pipeline.ucRefs τ sig) (V5 m (outsH m ρ) c)
      from by rw [V5_outsH]; exact Pipeline.unscopedBufs_held c (V5 m (outsA m ρ) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Phi1_in (entry1 m ρ) c)
    unfold Pipeline.ΦA
    iintro ⟨Hp, -, Hr⟩
    isplitl [Hr]; · iexact Hr
    iexact Hp
  hout c := by
    refine (Phi1_out (entry1 m ρ) c).trans ?_
    rw [Pipeline.ownSems0_none]; unfold Pipeline.ΦA
    iintro ⟨Hr, Hp⟩
    isplitl [Hp]; · iexact Hp
    isplitr; · iempintro
    iexact Hr
  hexit c := by
    have hjoin := held_of_arrays1 (entry1 m ρ) c (entry1 m ρ c) (fun b => V6 m (outsH m ρ) c b)
      (fun w => (dat1 (entry1 m ρ) c).arrAt w cfg1.N) (hF1 m ρ c) (hrest1 m ρ c)
    rw [show (unscopedBufs c (fun b : Ref sig .tc => V6 m (outsH m ρ) c b) : sProp 𝕄)
        = StableHlo.held (c : Thread nD τ) (Pipeline.ucRefs τ sig) (V6 m (outsH m ρ) c)
      from Pipeline.unscopedBufs_held c (V6 m (outsH m ρ) c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

set_option backward.isDefEq.respectTransparency.types false in
/-- THE RUN: every weakly fair execution of @main from memory m with zero counters terminates; in every final state
    the result buffer holds the slice of what region 1's write-backs leave in its result array, and every argument
    array holds its launch contents. -/
theorem run : θ_run defs (onTc (τ := τ) (main (F := F))) ⟨m, fun _ => 0, ρ⟩ (fun r => ∀ c : Dev nD,
      r.2.mem ((c.tc : Thread nD τ).loc main_v4) = extractStridedSlice S8x2048x16 ![0, 0, 0] ((dat1 (entry1 m ρ) c).arrAt 6 cfg1.N) slices_S8x2048x128_S8x2048x16_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_dev (pcfgs (F := F)) adm (pdats m ρ) () cellOf_inj emb₁ defs₀ 𝒱h Lh lvh m ρ main
    (segs m (outsH m ρ) 𝒱h Lh lvh Eh () (pdats m ρ) (reg0 m ρ) (reg1 m ρ))
    (fun c Q => by
      rewrite [main_chain c, Pipeline.Seg.run_eq_chain,
        show (segs m (outsH m ρ) 𝒱h Lh lvh Eh () (pdats m ρ) (reg0 m ρ) (reg1 m ρ) c).map Pipeline.Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rh c))
    (Tₙ := fun c => StableHlo.held (c : Thread nD τ) (Pipeline.ucRefs τ sig) (V7 m (outsH m ρ) c))
    (hch := fun c => ⟨.rfl, .rfl, .rfl, .rfl, .rfl, .rfl, .rfl, sep_mono .rfl (by iintro ⟨-, H⟩; iexact H)⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outsH m ρ) c b)
    (hfin := fun c s' => by
      iintro ⟨Hh, HSI⟩
      unfold StableHlo.held
      imodintro
      iapply (pointsTo_read_all (Pipeline.ucRefs τ sig) (fun b => (((c : Thread nD τ)).1, b)) (V7 m (outsH m ρ) c) s')
      isplitl [Hh] <;> iassumption)
    (hQ := fun s h c =>
      ⟨(h c _ (mem_uc main_v4 (by decide))).trans (V7_main_v4 m ρ c),
        (h c _ (mem_uc main_arg0 (by decide))).trans (V7_main_arg0 m (outsH m ρ) c),
        (h c _ (mem_uc main_arg1 (by decide))).trans (V7_main_arg1 m (outsH m ρ) c),
        (h c _ (mem_uc main_arg2 (by decide))).trans (V7_main_arg2 m (outsH m ρ) c),
        (h c _ (mem_uc main_arg3 (by decide))).trans (V7_main_arg3 m (outsH m ρ) c),
        (h c _ (mem_uc main_arg4 (by decide))).trans (V7_main_arg4 m (outsH m ρ) c),
        (h c _ (mem_uc main_arg5 (by decide))).trans (V7_main_arg5 m (outsH m ρ) c),
        (h c _ (mem_uc main_arg6 (by decide))).trans (V7_main_arg6 m (outsH m ρ) c)⟩)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run m ρ).mono fun r h c => (h c).2

end Run2

end Cert.KernelIdeal.Hand

end
-- ==== Proof.LibMatmulNT.lean ====
/-
  The product of an M × K matrix with the TRANSPOSE of an N × K matrix (both operands contracted over their second
  axis) into the zero accumulator, read at an entry at the ideal values: the sum over the contracted coordinate of the
  products of the two rows' entries.
-/
import Idealize.ShloMosaic.Lib.ValueIdx
import Idealize.ShloMosaic.PureOps.Ideal.Laws

noncomputable section

open scoped BigOperators

namespace Cert.LibMatmulNT

open Idealize.ShloMosaic Idealize.ShloMosaic.ValueIdx

/-- Entry (a, b) of A·Bᵀ for A of M rows and B of N rows, both of K columns: the sum over c of A (a, c) · B (b, c).
    The contraction index has one axis, of extent K; the sum over it is re-indexed by that axis's coordinate, and
    the two operand indices are read coordinate by coordinate. -/
theorem matmul_nt_zero_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B
        (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulNT

end
-- ==== Proof.KI.Pay0.lean ====
/-
  Region 0's stored block, read at an entry at the ideal values: row i, column h of the block is the inner product of
  row i of the x block with row h of W1, plus the bias b1 at h.
-/
import proofs.«139171_j57775900065974_2_alg».proof.Proof.KI.Defs
import proofs.«139171_j57775900065974_2_alg».proof.Proof.LibMatmulNT
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem out0_3_apply (x0 : Vec Ideal S1x512x512 .f32) (x1 : Vec Ideal S1024x512 .f32) (x2 : Vec Ideal S1024 .f32)
    (u : Fin 1) (i : Fin 512) (h : Fin 1024) :
    out0_3 x0 x1 x2 (ix3 u i h) = (∑ d : Fin 512, x0 (ix3 (0 : Fin 1) i d) * x1 (ix2 h d)) + x2 (ix1 h) := by
  unfold out0_3 k0_pay1
  refine (shapeCast_ab_1ab_apply _ _ u i h).trans ?_
  rw [addf_apply]
  congr 1
  · unfold dot_S512x512_S1024x512_S512x1024_1_1_0_0_n_n
    refine (Cert.LibMatmulNT.matmul_nt_zero_apply _ none _ _ i h).trans ?_
    refine Finset.sum_congr rfl fun d _ => ?_
    rw [truncf_apply, truncf_apply]
    congr 1
    exact shapeCast_1ab_ab_apply x0 _ i d
  · refine (broadcastTo_1b_ab_apply _ _ i h).trans ?_
    exact shapeCast_a_1a_apply x2 _ 0 h

end Cert.KernelIdeal.Hand

end
-- ==== Proof.Spec.lean ====
/-
  What both programs compute, as functions on the extended reals, one batch row and one output entry at a time.

  r = x·W1ᵀ + b1 (the linear layer); for a query row q the scores against all 2048 key rows are s_t = ⟨r_q, r_t⟩;
  the attended row is Σ_t softmax(s)_t · r_t; y = attended + r_q; the layer norm of y is scaled by gamma, shifted by
  beta, and projected on one row of W2 with its bias.

  The softmax appears in two arrangements. The direct one subtracts the row maximum M, exponentiates, divides each
  weight by the sum of the weights, and then takes the weighted sum of the rows. The running one walks the 2048 key
  rows in four tiles of 512, carrying a running maximum m, a running sum of weights l and a running weighted sum a,
  each rescaled by exp(m_old − m_new) when the maximum moves, and divides a by l once, at the end.
-/
import Idealize.ShloMosaic.PureOps.Ideal

noncomputable section

namespace Cert.Spec

open Idealize.ShloMosaic

/-- The number of columns of a row, 1024, as the f32 word both programs divide by. -/
abbrev c1024 : EReal := Ideal.ofBits .f32 0x44800000#32
/-- The layer norm's epsilon, as the f32 word both programs add. -/
abbrev cEps : EReal := Ideal.ofBits .f32 0x3727C5AC#32

/-- The linear layer: entry (s, h) of x·W1ᵀ + b1 for one batch row's x. -/
def lin (x : Fin 2048 → Fin 512 → EReal) (W1 : Fin 1024 → Fin 512 → EReal) (b1 : Fin 1024 → EReal)
    (s : Fin 2048) (h : Fin 1024) : EReal :=
  (∑ d : Fin 512, x s d * W1 h d) + b1 h

/-- The score of query row `q` against key row `t`. -/
def score (r : Fin 2048 → Fin 1024 → EReal) (q t : Fin 2048) : EReal := ∑ h : Fin 1024, r q h * r t h

/-- Key row `k` of tile `j`: row 512·j + k. -/
def tileRow (j : Fin 4) (k : Fin 512) : Fin 2048 := ⟨j.val * 512 + k.val, by have := j.isLt; have := k.isLt; omega⟩

/-- The attended row, direct arrangement: Σ_t (exp(s_t − M) / Σ_u exp(s_u − M)) · r_t with M the row maximum. -/
def attDirect (r : Fin 2048 → Fin 1024 → EReal) (q : Fin 2048) (h : Fin 1024) : EReal :=
  ∑ t : Fin 2048, Ideal.div (Ideal.exp (score r q t - Finset.univ.sup (score r q)))
      (∑ u : Fin 2048, Ideal.exp (score r q u - Finset.univ.sup (score r q))) * r t h

/-- The running state of one query row: maximum, sum of weights, weighted sum of rows. -/
structure Run where
  m : EReal
  l : EReal
  a : Fin 1024 → EReal

/-- Before the first tile: maximum −∞, nothing summed. -/
def run0 : Run := ⟨⊥, 0, fun _ => 0⟩

/-- One tile's update from its 512 scores `s` and its 512 rows `v`. -/
def runStep (s : Fin 512 → EReal) (v : Fin 512 → Fin 1024 → EReal) (st : Run) : Run :=
  ⟨max st.m (Finset.univ.sup s),
   Ideal.exp (st.m - max st.m (Finset.univ.sup s)) * st.l + ∑ k : Fin 512, Ideal.exp (s k - max st.m (Finset.univ.sup s)),
   fun h => Ideal.exp (st.m - max st.m (Finset.univ.sup s)) * st.a h
     + ∑ k : Fin 512, Ideal.exp (s k - max st.m (Finset.univ.sup s)) * v k h⟩

/-- The running state of query row `q` after tiles 0 … j−1. -/
def runAt (r : Fin 2048 → Fin 1024 → EReal) (q : Fin 2048) : ℕ → Run
  | 0 => run0
  | j + 1 => if hj : j < 4 then
      runStep (fun k => score r q (tileRow ⟨j, hj⟩ k)) (fun k h => r (tileRow ⟨j, hj⟩ k) h) (runAt r q j)
    else runAt r q j

/-- The attended row, running arrangement: the weighted sum divided by the sum of weights after the four tiles. -/
def attRunning (r : Fin 2048 → Fin 1024 → EReal) (q : Fin 2048) (h : Fin 1024) : EReal :=
  Ideal.div ((runAt r q 4).a h) (runAt r q 4).l

/-- Layer norm of the row `y` with scale `g` and shift `b`, projected on the weight row `w`, plus `bias`. -/
def tail (y g b w : Fin 1024 → EReal) (bias : EReal) : EReal :=
  (∑ h : Fin 1024,
    ((y h - Ideal.div (∑ h', y h') c1024)
        * Ideal.rsqrt (Ideal.div (∑ h', (y h' - Ideal.div (∑ h'', y h'') c1024) * (y h' - Ideal.div (∑ h'', y h'') c1024)) c1024 + cEps)
        * g h + b h) * w h) + bias

/-- One entry of the result, over an arrangement `att` of the attention: batch row's x, then (s, c). -/
def outWith (att : (Fin 2048 → Fin 1024 → EReal) → Fin 2048 → Fin 1024 → EReal)
    (x : Fin 2048 → Fin 512 → EReal) (W1 : Fin 1024 → Fin 512 → EReal) (b1 g b : Fin 1024 → EReal)
    (w : Fin 1024 → EReal) (bias : EReal) (s : Fin 2048) : EReal :=
  tail (fun h => att (lin x W1 b1) s h + lin x W1 b1 s h) g b w bias

end Cert.Spec

end
-- ==== Proof.KI.Val0.lean ====
/-
  Region 0's result array after the run, at the ideal values: entry (b, s, h) is the linear layer's entry — the inner
  product of row (b, s) of x with row h of W1, plus b1 at h. Each grid point (b, j) writes back rows 512·j … 512·j + 511
  of batch b, computed from the same rows of x; the 32 blocks tile the array.
-/
import proofs.«139171_j57775900065974_2_alg».proof.Proof.KI.Body0
import proofs.«139171_j57775900065974_2_alg».proof.Proof.KI.Pay0
import proofs.«139171_j57775900065974_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The linear layer as one function of the whole arrays, entry by entry. -/
def G0 (X : S8x2048x512.Idx → EReal) (W : S1024x512.Idx → EReal) (B : S1024.Idx → EReal) : S8x2048x1024.Idx → EReal :=
  fun i => (∑ d : Fin 512, X (ix3 (⟨(i 0).val, (i 0).isLt⟩ : Fin 8) (⟨(i 1).val, (i 1).isLt⟩ : Fin 2048) d)
      * W (ix2 (⟨(i 2).val, (i 2).isLt⟩ : Fin 1024) d)) + B (ix1 (⟨(i 2).val, (i 2).isLt⟩ : Fin 1024))

/-- The index maps over the grid: the x block and the output block move together (batch, row tile), the other
    windows stay at block 0. -/
theorem idx_facts0 : ∀ t : Fin cfg0.N, win0_0.index t (0 : Fin 3) = win0_3.index t (0 : Fin 3)
    ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 ∧ win0_2.index t (0 : Fin 1) = 0
    ∧ win0_3.index t (0 : Fin 3) ≤ 7 ∧ win0_3.index t (1 : Fin 3) ≤ 3 :=
  (by decide +kernel : ∀ t : Fin grid0.N, _)

/-- Every (batch, row tile) is some point's output block. -/
theorem idx_onto0 : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- What point `t` writes back is block `t` of the linear layer of the arrays as the region finds them. -/
theorem flushed0_eq (c : Dev nD) (t : Fin cfg0.N) :
    (dat0 V c).flushed 3 t = ((cfg0.win 3).blk t).view.read (Elt Ideal) (G0 (V c main_arg0) (V c main_arg1) (V c main_arg2)) := by
  show (cfg0.win 3).cut (grid0.coords t) ((dat0 V c).after 3 t) = _
  rw [after0_3]
  obtain ⟨e0, e1, e2, e3, e4, e5, e6, e7, e8⟩ := idx_facts0 t
  funext j
  obtain ⟨u, i, h, rfl⟩ : ∃ (u : Fin 1) (i : Fin 512) (h : Fin 1024), j = ix3 u i h := ⟨j 0, j 1, j 2, eq_ix3 j⟩
  show out0_3 (iblk0 V c 0 t) (iblk0 V c 1 t) (iblk0 V c 2 t) (ix3 u i h)
    = G0 (V c main_arg0) (V c main_arg1) (V c main_arg2) (((cfg0.win 3).blk t).view.emb (ix3 u i h))
  rw [out0_3_apply]
  unfold G0
  have hu : u.val = 0 := by omega
  refine congrArg₂ (· + ·) (Finset.sum_congr rfl fun d _ => congrArg₂ (· * ·) ?_ ?_) ?_
  · show V c main_arg0 (((cfg0.win 0).blk t).view.emb (ix3 (0 : Fin 1) i d)) = _
    refine congrArg (V c main_arg0) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 512 + 1 * i.val = win0_3.index t (1 : Fin 3) * 512 + 1 * i.val; omega
    | ⟨2, _⟩ => show win0_0.index t (2 : Fin 3) * 512 + 1 * d.val = d.val; omega
  · show V c main_arg1 (((cfg0.win 1).blk t).view.emb (ix2 h d)) = _
    refine congrArg (V c main_arg1) (funext fun a => Fin.ext ?_)
    match a with
    | ⟨0, _⟩ => show win0_1.index t (0 : Fin 2) * 1024 + 1 * h.val = win0_3.index t (2 : Fin 3) * 1024 + 1 * h.val; omega
    | ⟨1, _⟩ => show win0_1.index t (1 : Fin 2) * 512 + 1 * d.val = d.val; omega
  · show V c main_arg2 (((cfg0.win 2).blk t).view.emb (ix1 h)) = _
    refine congrArg (V c main_arg2) (funext fun a => Fin.ext ?_)
    match a with
    | ⟨0, _⟩ => show win0_2.index t (0 : Fin 1) * 1024 + 1 * h.val = win0_3.index t (2 : Fin 3) * 1024 + 1 * h.val; omega

/-- An index of the array is in point `t`'s block iff each coordinate is in the block's range on its axis. -/
theorem mem_blk0 (t : Fin cfg0.N) (i : S8x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v0).slice (win0_3.rect t)).set ↔ _
  rw [View.set_slice_whole, Rect.mem_set_unit]
  exact Iff.rfl

/-- The blocks cover the array. -/
theorem cover0 (i : S8x2048x1024.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ := idx_onto0 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The result array after the run is the linear layer of the arrays the region found. -/
theorem final0 (c : Dev nD) : (dat0 V c).arrAt 3 cfg0.N = G0 (V c main_arg0) (V c main_arg1) (V c main_arg2) :=
  (dat0 V c).arrAt_eq_of_cover 3 _ (fun t _ => flushed0_eq V c t) (cover0)

/-- The same, entry by entry, through the specification's linear layer of one batch row. -/
theorem final0_apply (c : Dev nD) (b : Fin 8) (s : Fin 2048) (h : Fin 1024) :
    (dat0 V c).arrAt 3 cfg0.N (ix3 b s h)
      = Cert.Spec.lin (fun s' d => V c main_arg0 (ix3 b s' d)) (fun h' d => V c main_arg1 (ix2 h' d)) (fun h' => V c main_arg2 (ix1 h')) s h := by
  rw [final0]; rfl

end Cert.KernelIdeal.Hand

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.KI.Pay1.lean ====
/-
  Region 1's payloads read at an entry at the ideal values.

  For one query row q of the block: the scores against the 512 key rows of the tile are the inner products of row q of
  the query block with the tile's rows; the scratch update is, row by row, the running-softmax step of the
  specification (new maximum, rescaled sum of weights plus the tile's weights, rescaled weighted sum plus the tile's
  weighted rows); and the block stored at the last tile is the specification's layer norm and projection of the row
  a / l + (row q of the query block).
-/
import proofs.«139171_j57775900065974_2_alg».proof.Proof.KI.Defs
import proofs.«139171_j57775900065974_2_alg».proof.Proof.Spec
import proofs.«139171_j57775900065974_2_alg».proof.Proof.LibMatmulNT
import proofs.«139171_j57775900065974_2_alg».proof.Proof.LibMatmulIx
import proofs.«139171_j57775900065974_2_alg».proof.Proof.LibKeepdims
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen Cert.LibKeepdims

/-! ## Small facts -/

theorem negInf_word : Ideal.ofBits .f32 0xFF800000#32 = ⊥ := by simp [Ideal.ofBits, Ideal.ieee]

/-- The fold of `max` from −∞ is the supremum. -/
theorem fold_max_bot {n : ℕ} (f : Fin n → EReal) : (Finset.univ : Finset (Fin n)).fold max ⊥ f = Finset.univ.sup f := by
  apply le_antisymm
  · rw [Finset.fold_max_le]; exact ⟨bot_le, fun x hx => Finset.le_sup hx⟩
  · refine Finset.sup_le fun x hx => ?_
    have h := le_refl ((Finset.univ : Finset (Fin n)).fold max ⊥ f)
    rw [Finset.fold_max_le] at h
    exact h.2 x hx

theorem run_ext (a b : Cert.Spec.Run) (h1 : a.m = b.m) (h2 : a.l = b.l) (h3 : a.a = b.a) : a = b := by
  cases a; cases b; simp_all

/-! ## The scores, the new maximum, the weights -/

variable (Q : Vec Ideal S1x2048x1024 .f32) (Kb : Vec Ideal S1x512x1024 .f32)

/-- The score of query row q against the tile's key row k. -/
theorem pay10_apply (q : Fin 2048) (k : Fin 512) :
    k1_pay10 Q Kb (ix2 q k) = ∑ h : Fin 1024, Q (ix3 (0 : Fin 1) q h) * Kb (ix3 (0 : Fin 1) k h) := by
  unfold k1_pay10 k1_pay9 k1_pay8 dot_S2048x1024_S512x1024_S2048x512_1_1_0_0_n_n
  refine (Cert.LibMatmulNT.matmul_nt_zero_apply _ none _ _ q k).trans ?_
  refine Finset.sum_congr rfl fun h _ => ?_
  rw [truncf_apply, truncf_apply]
  congr 1
  · exact shapeCast_1ab_ab_apply Q _ q h
  · exact shapeCast_1ab_ab_apply Kb _ k h

/-- The new maximum of row q: the old one against the largest score of the tile. -/
theorem pay11_apply (m : Vec Ideal S2048x1 .f32) (q : Fin 2048) (u : Fin 1) :
    k1_pay11 Q Kb m (ix2 q u) = max (m (ix2 q u)) (Finset.univ.sup fun k : Fin 512 => k1_pay10 Q Kb (ix2 q k)) := by
  unfold k1_pay11
  refine (maximumf_apply _ _ _).trans (congrArg _ ?_)
  refine (shapeCast_a_a1_apply _ _ q u).trans ?_
  refine (multiReduction_maximumf_axis1 _ _ _ _ _ q).trans ?_
  rw [negInf_word]; exact fold_max_bot _

/-- The rescaling factor of row q: exp (old maximum − new maximum). -/
theorem pay12_apply (m m2 : Vec Ideal S2048x1 .f32) (q : Fin 2048) (u : Fin 1) :
    k1_pay12 Q Kb m m2 (ix2 q u) = Ideal.exp (m2 (ix2 q u) - k1_pay11 Q Kb m (ix2 q u)) := rfl

/-- The weight of key row k for query row q: exp (score − new maximum). -/
theorem pay13_apply (m : Vec Ideal S2048x1 .f32) (q : Fin 2048) (k : Fin 512) :
    k1_pay13 Q Kb m (ix2 q k) = Ideal.exp (k1_pay10 Q Kb (ix2 q k) - k1_pay11 Q Kb m (ix2 q (0 : Fin 1))) := by
  unfold k1_pay13
  refine congrArg Ideal.exp (congrArg (k1_pay10 Q Kb (ix2 q k) - ·) ?_)
  exact broadcastTo_a1_ab_apply _ _ q k

/-- The new sum of weights of row q. -/
theorem pay14_apply (m m2 l : Vec Ideal S2048x1 .f32) (q : Fin 2048) (u : Fin 1) :
    k1_pay14 Q Kb m m2 l (ix2 q u)
      = k1_pay12 Q Kb m m2 (ix2 q u) * l (ix2 q u) + ∑ k : Fin 512, k1_pay13 Q Kb m (ix2 q k) := by
  unfold k1_pay14
  rw [shapeCast_self]
  refine (addf_apply _ _ _).trans (congrArg (k1_pay12 Q Kb m m2 (ix2 q u) * l (ix2 q u) + ·) ?_)
  refine (shapeCast_a_a1_apply _ _ q u).trans ?_
  exact multiReduction_add_axis1 _ _ _ _ _ q

/-- The tile's weighted rows, entry (q, h): Σ_k weight(q, k) · (key row k)(h). -/
theorem pay15_apply (m : Vec Ideal S2048x1 .f32) (q : Fin 2048) (h : Fin 1024) :
    k1_pay15 Q Kb m (ix2 q h) = ∑ k : Fin 512, k1_pay13 Q Kb m (ix2 q k) * Kb (ix3 (0 : Fin 1) k h) := by
  unfold k1_pay15 k1_pay9 dot_S2048x512_S512x1024_S2048x1024_1_0_0_1_n_n
  refine (Cert.LibMatmulIx.matmul_zero_apply _ none _ _ q h).trans ?_
  refine Finset.sum_congr rfl fun k _ => ?_
  rw [truncf_apply, truncf_apply]
  congr 1
  exact shapeCast_1ab_ab_apply Kb _ k h

/-- The rescaled old weighted sum, entry (q, h). -/
theorem pay16_apply (m m2 : Vec Ideal S2048x1 .f32) (a : Vec Ideal S2048x1024 .f32) (q : Fin 2048) (h : Fin 1024) :
    k1_pay16 Q Kb m m2 a (ix2 q h) = k1_pay12 Q Kb m m2 (ix2 q (0 : Fin 1)) * a (ix2 q h) := by
  unfold k1_pay16
  refine (mulf_apply _ _ _).trans (congrArg (· * a (ix2 q h)) ?_)
  exact broadcastTo_a1_ab_apply _ _ q h

theorem pay1_apply (v29 v32 : FVec Ideal S2048x1024 .f32) (i : S2048x1024.Idx) : k1_pay1 v29 v32 i = v32 i + v29 i := by
  unfold k1_pay1; rw [shapeCast_self]; rfl

theorem pay2_eq (v : FVec Ideal S2048x1 .f32) : k1_pay2 v = v := by
  unfold k1_pay2; exact shapeCast_self _ _

/-! ## The scratch, row by row -/

/-- Row q of the scratch as the specification's running state. -/
def rowOf (s : Scr Ideal) (q : Fin 2048) : Cert.Spec.Run :=
  ⟨s.m (ix2 q (0 : Fin 1)), s.l (ix2 q (0 : Fin 1)), fun h => s.a (ix2 q h)⟩

theorem rowOf_scrInit (q : Fin 2048) : rowOf scrInit q = Cert.Spec.run0 := by
  refine run_ext _ _ ?_ ?_ ?_
  · show k1_pay5 (F := Ideal) (ix2 q (0 : Fin 1)) = ⊥
    unfold k1_pay5; rw [shapeCast_self]; exact negInf_word
  · show k1_pay6 (F := Ideal) (ix2 q (0 : Fin 1)) = 0
    unfold k1_pay6; rw [shapeCast_self]; exact Ideal.ofBits_zero_f32
  · funext h
    show k1_pay7 (F := Ideal) (ix2 q h) = 0
    unfold k1_pay7; rw [shapeCast_self]; exact Ideal.ofBits_zero_f32

/-- One tile's scratch update is, on row q, the specification's step with the tile's scores and rows. -/
theorem rowOf_scrStep (s : Scr Ideal) (q : Fin 2048) :
    rowOf (scrStep Q Kb s) q
      = Cert.Spec.runStep (fun k : Fin 512 => ∑ h : Fin 1024, Q (ix3 (0 : Fin 1) q h) * Kb (ix3 (0 : Fin 1) k h))
          (fun k h => Kb (ix3 (0 : Fin 1) k h)) (rowOf s q) := by
  have hs : (fun k : Fin 512 => k1_pay10 Q Kb (ix2 q k))
      = fun k : Fin 512 => ∑ h : Fin 1024, Q (ix3 (0 : Fin 1) q h) * Kb (ix3 (0 : Fin 1) k h) :=
    funext fun k => pay10_apply Q Kb q k
  have hm : k1_pay11 Q Kb s.m (ix2 q (0 : Fin 1))
      = max (s.m (ix2 q (0 : Fin 1))) (Finset.univ.sup fun k : Fin 512 => ∑ h : Fin 1024, Q (ix3 (0 : Fin 1) q h) * Kb (ix3 (0 : Fin 1) k h)) := by
    rw [pay11_apply, hs]
  have hp : ∀ k : Fin 512, k1_pay13 Q Kb s.m (ix2 q k)
      = Ideal.exp ((∑ h : Fin 1024, Q (ix3 (0 : Fin 1) q h) * Kb (ix3 (0 : Fin 1) k h))
          - max (s.m (ix2 q (0 : Fin 1))) (Finset.univ.sup fun k : Fin 512 => ∑ h : Fin 1024, Q (ix3 (0 : Fin 1) q h) * Kb (ix3 (0 : Fin 1) k h))) := by
    intro k; rw [pay13_apply, hm, pay10_apply]
  have ha : k1_pay12 Q Kb s.m s.m (ix2 q (0 : Fin 1))
      = Ideal.exp (s.m (ix2 q (0 : Fin 1))
          - max (s.m (ix2 q (0 : Fin 1))) (Finset.univ.sup fun k : Fin 512 => ∑ h : Fin 1024, Q (ix3 (0 : Fin 1) q h) * Kb (ix3 (0 : Fin 1) k h))) := by
    rw [pay12_apply, hm]
  refine run_ext _ _ ?_ ?_ ?_
  · show k1_pay2 (k1_pay11 Q Kb s.m) (ix2 q (0 : Fin 1)) = _
    rw [pay2_eq, hm]; rfl
  · show k1_pay14 Q Kb s.m s.m s.l (ix2 q (0 : Fin 1)) = _
    rw [pay14_apply, ha]
    simp only [hp]; rfl
  · funext h
    show k1_pay1 (k1_pay15 Q Kb s.m) (k1_pay16 Q Kb s.m s.m s.a) (ix2 q h) = _
    rw [pay1_apply, pay16_apply, pay15_apply, ha]
    simp only [hp]; rfl

end Cert.KernelIdeal.Hand

end
-- ==== Proof.KI.Pay2.lean ====
/-
  The block region 1 stores at the last key tile, read at an entry at the ideal values: the layer norm of the row
  y = a / l + (the query row), scaled, shifted and projected on one row of the padded classifier weight, plus the
  padded bias — the specification's `tail`.
-/
import proofs.«139171_j57775900065974_2_alg».proof.Proof.KI.Defs
import proofs.«139171_j57775900065974_2_alg».proof.Proof.Spec
import proofs.«139171_j57775900065974_2_alg».proof.Proof.LibMatmulNT
import proofs.«139171_j57775900065974_2_alg».proof.Proof.LibKeepdims
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen Cert.LibKeepdims

/-! ## The stages of the final computation, each as a function of the rows `y` -/

/-- The mean of each row, as a column: the row sum divided by 1024. -/
def kmu (y : FVec Ideal S2048x1024 .f32) : FVec Ideal S2048x1 .f32 :=
  divf (shapeCast S2048x1 (multiReduction .add [1] S2048 y 0x00000000#32 reduces_S2048x1024_S2048 (.inl rfl) rfl) shapeCasts_S2048_S2048x1)
    (broadcast S2048x1 (Scalar.ofBits .f32 0x44800000#32))

/-- The rows centred at their means. -/
def kcen (y : FVec Ideal S2048x1024 .f32) : FVec Ideal S2048x1024 .f32 :=
  subf y (broadcastTo S2048x1024 (kmu y) broadcasts_S2048x1_S2048x1024)

/-- The normalised rows, scaled by `g` and shifted by `b`. -/
def kyn (y : FVec Ideal S2048x1024 .f32) (g b : Vec Ideal S1024 .f32) : FVec Ideal S2048x1024 .f32 :=
  addf (mulf (mulf (kcen y)
      (broadcastTo S2048x1024 (rsqrt (addf (kmu (mulf (kcen y) (kcen y))) (broadcast S2048x1 (Scalar.ofBits .f32 0x3727C5AC#32))))
        broadcasts_S2048x1_S2048x1024))
      (broadcastTo S2048x1024 (shapeCast S1x1024 g shapeCasts_S1024_S1x1024) broadcasts_S1x1024_S2048x1024))
    (broadcastTo S2048x1024 (shapeCast S1x1024 b shapeCasts_S1024_S1x1024) broadcasts_S1x1024_S2048x1024)

/-- The projection on the padded classifier weight, plus the padded bias. -/
def kout (yn : FVec Ideal S2048x1024 .f32) (w2 : Vec Ideal S128x1024 .f32) (bb : Vec Ideal S128 .f32) : FVec Ideal S2048x128 .f32 :=
  addf (matmul dot_S2048x1024_S128x1024_S2048x128_1_1_0_0_n_n none (truncf .bf16 yn bitsLt_bf16_f32)
      (truncf .bf16 (shapeCast S128x1024 w2 shapeCasts_S128x1024_S128x1024) bitsLt_bf16_f32) (constant S2048x128 .f32 0x00000000#32))
    (broadcastTo S2048x128 (shapeCast S1x128 (shapeCast S128 bb shapeCasts_S128_S128) shapeCasts_S128_S1x128) broadcasts_S1x128_S2048x128)

/-- The printed payload is the composition of the stages, on y = a / l + q. -/
theorem pay4_eq (v4 : FVec Ideal S2048x1024 .f32) (v43 : Vec Ideal S2048x1024 .f32) (v44 : Vec Ideal S2048x1 .f32)
    (v66 v70 : Vec Ideal S1024 .f32) (v75 : Vec Ideal S128x1024 .f32) (v79 : Vec Ideal S128 .f32) :
    k1_pay4 v4 v43 v44 v66 v70 v75 v79
      = kout (kyn (addf (divf v43 (broadcastTo S2048x1024 v44 broadcasts_S2048x1_S2048x1024)) v4) v66 v70) v75 v79 := rfl

/-! ## The stages at an entry -/

theorem kmu_apply (y : FVec Ideal S2048x1024 .f32) (q : Fin 2048) (u : Fin 1) :
    kmu y (ix2 q u) = Ideal.div (∑ h : Fin 1024, y (ix2 q h)) Cert.Spec.c1024 := by
  unfold kmu
  refine (divf_apply _ _ _).trans ?_
  refine congrArg₂ Ideal.div ?_ rfl
  refine (shapeCast_a_a1_apply _ _ q u).trans ?_
  exact multiReduction_add_axis1 _ _ _ _ _ q

theorem kcen_apply (y : FVec Ideal S2048x1024 .f32) (q : Fin 2048) (h : Fin 1024) :
    kcen y (ix2 q h) = y (ix2 q h) - Ideal.div (∑ h' : Fin 1024, y (ix2 q h')) Cert.Spec.c1024 := by
  unfold kcen
  refine (subf_apply _ _ _).trans (congrArg (y (ix2 q h) - ·) ?_)
  refine (broadcastTo_a1_ab_apply _ _ q h).trans ?_
  exact kmu_apply y q 0

theorem kyn_apply (y : FVec Ideal S2048x1024 .f32) (g b : Vec Ideal S1024 .f32) (q : Fin 2048) (h : Fin 1024) :
    kyn y g b (ix2 q h)
      = (y (ix2 q h) - Ideal.div (∑ h' : Fin 1024, y (ix2 q h')) Cert.Spec.c1024)
          * Ideal.rsqrt (Ideal.div (∑ h' : Fin 1024, (y (ix2 q h') - Ideal.div (∑ h'' : Fin 1024, y (ix2 q h'')) Cert.Spec.c1024)
              * (y (ix2 q h') - Ideal.div (∑ h'' : Fin 1024, y (ix2 q h'')) Cert.Spec.c1024)) Cert.Spec.c1024 + Cert.Spec.cEps)
          * g (ix1 h) + b (ix1 h) := by
  unfold kyn
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (kcen_apply y q h) ?_
      refine (broadcastTo_a1_ab_apply _ _ q h).trans ?_
      show Ideal.rsqrt (kmu (mulf (kcen y) (kcen y)) (ix2 q (0 : Fin 1)) + Cert.Spec.cEps) = _
      rw [kmu_apply]
      refine congrArg (fun z => Ideal.rsqrt (Ideal.div z Cert.Spec.c1024 + Cert.Spec.cEps)) ?_
      refine Finset.sum_congr rfl fun h' _ => ?_
      show kcen y (ix2 q h') * kcen y (ix2 q h') = _
      rw [kcen_apply]
    · refine (broadcastTo_1b_ab_apply _ _ q h).trans ?_
      exact shapeCast_a_1a_apply g _ 0 h
  · refine (broadcastTo_1b_ab_apply _ _ q h).trans ?_
    exact shapeCast_a_1a_apply b _ 0 h

theorem kout_apply (yn : FVec Ideal S2048x1024 .f32) (w2 : Vec Ideal S128x1024 .f32) (bb : Vec Ideal S128 .f32) (q : Fin 2048) (c : Fin 128) :
    kout yn w2 bb (ix2 q c) = (∑ h : Fin 1024, yn (ix2 q h) * w2 (ix2 c h)) + bb (ix1 c) := by
  unfold kout dot_S2048x1024_S128x1024_S2048x128_1_1_0_0_n_n
  refine (addf_apply _ _ _).trans ?_
  refine congrArg₂ (· + ·) ?_ ?_
  · refine (Cert.LibMatmulNT.matmul_nt_zero_apply _ none _ _ q c).trans ?_
    refine Finset.sum_congr rfl fun h _ => ?_
    rw [truncf_apply, truncf_apply, shapeCast_self]
  · refine (broadcastTo_1b_ab_apply _ _ q c).trans ?_
    refine (shapeCast_a_1a_apply _ _ 0 c).trans ?_
    rw [shapeCast_self]

/-! ## The stored block at an entry -/

theorem out1_6_apply (Q : Vec Ideal S1x2048x1024 .f32) (g b : Vec Ideal S1024 .f32) (w2 : Vec Ideal S128x1024 .f32) (bb : Vec Ideal S128 .f32)
    (s : Scr Ideal) (u : Fin 1) (q : Fin 2048) (c : Fin 128) :
    out1_6 Q g b w2 bb s (ix3 u q c)
      = Cert.Spec.tail (fun h => Ideal.div (s.a (ix2 q h)) (s.l (ix2 q (0 : Fin 1))) + Q (ix3 (0 : Fin 1) q h))
          (fun h => g (ix1 h)) (fun h => b (ix1 h)) (fun h => w2 (ix2 c h)) (bb (ix1 c)) := by
  have hy : ∀ h : Fin 1024, (addf (divf s.a (broadcastTo S2048x1024 s.l broadcasts_S2048x1_S2048x1024)) (k1_pay8 Q)) (ix2 q h)
      = Ideal.div (s.a (ix2 q h)) (s.l (ix2 q (0 : Fin 1))) + Q (ix3 (0 : Fin 1) q h) := by
    intro h
    refine (addf_apply _ _ _).trans ?_
    refine congrArg₂ (· + ·) ?_ ?_
    · refine (divf_apply _ _ _).trans (congrArg (Ideal.div (s.a (ix2 q h))) ?_)
      exact broadcastTo_a1_ab_apply _ _ q h
    · unfold k1_pay8
      exact shapeCast_1ab_ab_apply Q _ q h
  unfold out1_6 k1_pay3
  refine (shapeCast_ab_1ab_apply _ _ u q c).trans ?_
  rw [pay4_eq, kout_apply]
  unfold Cert.Spec.tail
  refine congrArg (· + bb (ix1 c)) ?_
  refine Finset.sum_congr rfl fun h _ => ?_
  rw [kyn_apply]
  simp only [hy]

end Cert.KernelIdeal.Hand

end
-- ==== Proof.Algebra.lean ====
/-
  The running arrangement of the softmax-weighted sum equals the direct one when every entry is a real number.

  Write s_t for the (real) scores of the query row and x_t for the key rows. The running state after some tiles is
  described without its maximum: for the real maximum m it carries, its sum of weights is exp(−m)·C and its weighted
  sum is exp(−m)·D, where C = Σ exp(s_t) and D = Σ exp(s_t)·x_t run over the rows seen so far. A tile adds its own
  rows to C and D whatever the new maximum is, because exp(m − m')·exp(−m) = exp(−m'). After the four tiles
  a/l = D/C, and the direct arrangement is Σ_t (exp(s_t − M)/(exp(−M)·C))·x_t = D/C as well.
-/
import proofs.«139171_j57775900065974_2_alg».proof.Proof.Spec

noncomputable section

namespace Cert.Spec

open Idealize.ShloMosaic

/-! ### Coercions from ℝ -/

/-- The coercion ℝ → EReal commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The supremum of finitely many reals, at least one, is a real. -/
theorem exists_sup_coe {ι : Type} [Fintype ι] [Nonempty ι] (f : ι → ℝ) :
    ∃ M : ℝ, (Finset.univ.sup fun i => (f i : EReal)) = (M : EReal) := by
  obtain ⟨i, _, hi⟩ := Finset.exists_mem_eq_sup Finset.univ Finset.univ_nonempty (fun i => (f i : EReal))
  exact ⟨f i, hi⟩

/-- The maximum of two reals is a real. -/
theorem exists_max_coe (m M : ℝ) : ∃ μ : ℝ, max (m : EReal) (M : EReal) = (μ : EReal) := by
  rcases le_total m M with h | h
  · exact ⟨M, max_eq_right (EReal.coe_le_coe_iff.2 h)⟩
  · exact ⟨m, max_eq_left (EReal.coe_le_coe_iff.2 h)⟩

theorem exp_sub_eq (s μ : ℝ) : Real.exp (s - μ) = Real.exp (-μ) * Real.exp s := by
  rw [← Real.exp_add]; congr 1; ring

/-- The weights of finitely many real scores against a real maximum μ sum to exp(−μ)·Σ exp(s). -/
theorem sum_exp_sub {ι : Type} [Fintype ι] (σ : ι → ℝ) (μ : ℝ) :
    (∑ k, Ideal.exp ((σ k : EReal) - (μ : EReal))) = ((Real.exp (-μ) * ∑ k, Real.exp (σ k) : ℝ) : EReal) := by
  simp only [← EReal.coe_sub, Ideal.exp_coe]
  rw [← coe_sum, Finset.mul_sum]
  congr 1
  exact Finset.sum_congr rfl (fun k _ => exp_sub_eq _ _)

/-- The same with each weight multiplying a real entry. -/
theorem sum_exp_sub_mul {ι : Type} [Fintype ι] (σ : ι → ℝ) (ν : ι → ℝ) (μ : ℝ) :
    (∑ k, Ideal.exp ((σ k : EReal) - (μ : EReal)) * (ν k : EReal))
      = ((Real.exp (-μ) * ∑ k, Real.exp (σ k) * ν k : ℝ) : EReal) := by
  simp only [← EReal.coe_sub, Ideal.exp_coe, ← EReal.coe_mul]
  rw [← coe_sum, Finset.mul_sum]
  congr 1
  refine Finset.sum_congr rfl (fun k _ => ?_)
  rw [exp_sub_eq, mul_assoc]

/-! ### The running state -/

/-- The state carries the un-normalised sums `C` (of weights) and `D` (of weighted rows), each scaled by exp(−m)
    for the real maximum m of the state. -/
def Rep (st : Run) (C : ℝ) (D : Fin 1024 → ℝ) : Prop :=
  ∃ m : ℝ, st.m = (m : EReal) ∧ st.l = ((Real.exp (-m) * C : ℝ) : EReal) ∧
    ∀ h, st.a h = ((Real.exp (-m) * D h : ℝ) : EReal)

/-- The first tile: from maximum −∞ and empty sums, the old terms vanish (exp(−∞) = 0 and 0·0 = 0). -/
theorem rep_step_zero (s : Fin 512 → EReal) (v : Fin 512 → Fin 1024 → EReal) (σ : Fin 512 → ℝ)
    (ν : Fin 512 → Fin 1024 → ℝ) (hs : ∀ k, s k = (σ k : EReal)) (hv : ∀ k h, v k h = (ν k h : EReal)) :
    Rep (runStep s v run0) (∑ k, Real.exp (σ k)) (fun h => ∑ k, Real.exp (σ k) * ν k h) := by
  obtain rfl : s = fun k => (σ k : EReal) := funext hs
  obtain rfl : v = fun k h => (ν k h : EReal) := funext fun k => funext (hv k)
  obtain ⟨M, hM⟩ := exists_sup_coe σ
  have hmax : max (⊥ : EReal) (Finset.univ.sup fun k => (σ k : EReal)) = (M : EReal) := by
    rw [hM]; exact max_eq_right bot_le
  refine ⟨M, ?_, ?_, ?_⟩
  · exact hmax
  · show Ideal.exp (⊥ - max (⊥ : EReal) (Finset.univ.sup fun k => (σ k : EReal))) * 0
        + ∑ k, Ideal.exp ((σ k : EReal) - max (⊥ : EReal) (Finset.univ.sup fun k => (σ k : EReal))) = _
    rw [hmax, EReal.bot_sub, Ideal.exp_bot, mul_zero, zero_add, sum_exp_sub]
  · intro h
    show Ideal.exp (⊥ - max (⊥ : EReal) (Finset.univ.sup fun k => (σ k : EReal))) * 0
        + ∑ k, Ideal.exp ((σ k : EReal) - max (⊥ : EReal) (Finset.univ.sup fun k => (σ k : EReal))) * (ν k h : EReal) = _
    rw [hmax, EReal.bot_sub, Ideal.exp_bot, mul_zero, zero_add, sum_exp_sub_mul]

/-- A later tile: the old sums are rescaled by exp(m − m'), and exp(m − m')·exp(−m) = exp(−m'). -/
theorem rep_step (s : Fin 512 → EReal) (v : Fin 512 → Fin 1024 → EReal) (st : Run) (σ : Fin 512 → ℝ)
    (ν : Fin 512 → Fin 1024 → ℝ) (C : ℝ) (D : Fin 1024 → ℝ)
    (hs : ∀ k, s k = (σ k : EReal)) (hv : ∀ k h, v k h = (ν k h : EReal)) (hst : Rep st C D) :
    Rep (runStep s v st) (C + ∑ k, Real.exp (σ k)) (fun h => D h + ∑ k, Real.exp (σ k) * ν k h) := by
  obtain rfl : s = fun k => (σ k : EReal) := funext hs
  obtain rfl : v = fun k h => (ν k h : EReal) := funext fun k => funext (hv k)
  obtain ⟨m, hm, hl, ha⟩ := hst
  obtain ⟨M, hM⟩ := exists_sup_coe σ
  obtain ⟨μ, hμ⟩ := exists_max_coe m M
  have hmax : max st.m (Finset.univ.sup fun k => (σ k : EReal)) = (μ : EReal) := by
    rw [hM, hm]; exact hμ
  have hexp : Real.exp (m - μ) * Real.exp (-m) = Real.exp (-μ) := by
    rw [← Real.exp_add]; congr 1; ring
  refine ⟨μ, ?_, ?_, ?_⟩
  · exact hmax
  · show Ideal.exp (st.m - max st.m (Finset.univ.sup fun k => (σ k : EReal))) * st.l
        + ∑ k, Ideal.exp ((σ k : EReal) - max st.m (Finset.univ.sup fun k => (σ k : EReal))) = _
    rw [hmax, hm, hl, sum_exp_sub, ← EReal.coe_sub, Ideal.exp_coe, ← EReal.coe_mul, ← EReal.coe_add]
    congr 1
    linear_combination C * hexp
  · intro h
    show Ideal.exp (st.m - max st.m (Finset.univ.sup fun k => (σ k : EReal))) * st.a h
        + ∑ k, Ideal.exp ((σ k : EReal) - max st.m (Finset.univ.sup fun k => (σ k : EReal))) * (ν k h : EReal) = _
    rw [hmax, hm, ha h, sum_exp_sub_mul, ← EReal.coe_sub, Ideal.exp_coe, ← EReal.coe_mul, ← EReal.coe_add]
    congr 1
    linear_combination D h * hexp

/-! ### The four tiles cover the 2048 rows -/

/-- (tile, row in tile) ↦ row, as a bijection: t = 512·(t / 512) + t % 512. -/
def tileEquiv : Fin 4 × Fin 512 ≃ Fin 2048 where
  toFun p := tileRow p.1 p.2
  invFun t := (⟨t.val / 512, by have := t.isLt; omega⟩, ⟨t.val % 512, by omega⟩)
  left_inv := by
    rintro ⟨⟨j, hj⟩, ⟨k, hk⟩⟩
    simp only [tileRow, Prod.mk.injEq, Fin.mk.injEq]
    constructor <;> omega
  right_inv := by
    rintro ⟨t, ht⟩
    simp only [tileRow, Fin.mk.injEq]
    omega

/-- A sum over the four tiles, tile by tile, is the sum over all rows. -/
theorem tile_sum (g : Fin 2048 → ℝ) :
    (∑ j : Fin 4, ∑ k : Fin 512, g (tileRow j k)) = ∑ t, g t :=
  (Fintype.sum_prod_type' (fun j k => g (tileRow j k))).symm.trans
    (Fintype.sum_equiv tileEquiv _ _ (fun _ => rfl))

/-- The four tiles written out. -/
theorem tile_sum_four (g : Fin 2048 → ℝ) :
    (∑ k : Fin 512, g (tileRow ⟨0, by decide⟩ k)) + (∑ k : Fin 512, g (tileRow ⟨1, by decide⟩ k))
      + (∑ k : Fin 512, g (tileRow ⟨2, by decide⟩ k)) + (∑ k : Fin 512, g (tileRow ⟨3, by decide⟩ k)) = ∑ t, g t := by
  rw [← tile_sum g, Fin.sum_univ_four]
  rfl

/-! ### Real entries -/

/-- With real entries the scores are real. -/
theorem score_coe (x : Fin 2048 → Fin 1024 → ℝ) (q t : Fin 2048) :
    score (fun t h => (x t h : EReal)) q t = ((∑ h, x q h * x t h : ℝ) : EReal) := by
  simp only [score, coe_sum, EReal.coe_mul]

theorem runAt_succ (r : Fin 2048 → Fin 1024 → EReal) (q : Fin 2048) (j : ℕ) (hj : j < 4) :
    runAt r q (j + 1)
      = runStep (fun k => score r q (tileRow ⟨j, hj⟩ k)) (fun k h => r (tileRow ⟨j, hj⟩ k) h) (runAt r q j) := by
  rw [runAt, dif_pos hj]

/-- After the four tiles the state carries the sums over all 2048 rows. -/
theorem rep_runAt_four (x : Fin 2048 → Fin 1024 → ℝ) (q : Fin 2048) :
    Rep (runAt (fun t h => (x t h : EReal)) q 4)
      (∑ t, Real.exp (∑ h, x q h * x t h))
      (fun h => ∑ t, Real.exp (∑ h', x q h' * x t h') * x t h) := by
  have h1 := rep_step_zero _ _ (fun k => ∑ h, x q h * x (tileRow ⟨0, by decide⟩ k) h)
    (fun k h => x (tileRow ⟨0, by decide⟩ k) h) (fun k => score_coe x q (tileRow ⟨0, by decide⟩ k)) (fun _ _ => rfl)
  have h2 := rep_step _ _ _ (fun k => ∑ h, x q h * x (tileRow ⟨1, by decide⟩ k) h)
    (fun k h => x (tileRow ⟨1, by decide⟩ k) h) _ _ (fun k => score_coe x q (tileRow ⟨1, by decide⟩ k)) (fun _ _ => rfl) h1
  have h3 := rep_step _ _ _ (fun k => ∑ h, x q h * x (tileRow ⟨2, by decide⟩ k) h)
    (fun k h => x (tileRow ⟨2, by decide⟩ k) h) _ _ (fun k => score_coe x q (tileRow ⟨2, by decide⟩ k)) (fun _ _ => rfl) h2
  have h4 := rep_step _ _ _ (fun k => ∑ h, x q h * x (tileRow ⟨3, by decide⟩ k) h)
    (fun k h => x (tileRow ⟨3, by decide⟩ k) h) _ _ (fun k => score_coe x q (tileRow ⟨3, by decide⟩ k)) (fun _ _ => rfl) h3
  rw [tile_sum_four (fun t => Real.exp (∑ h, x q h * x t h))] at h4
  have hD : (fun h => (∑ k, Real.exp (∑ h', x q h' * x (tileRow ⟨0, by decide⟩ k) h') * x (tileRow ⟨0, by decide⟩ k) h)
        + (∑ k, Real.exp (∑ h', x q h' * x (tileRow ⟨1, by decide⟩ k) h') * x (tileRow ⟨1, by decide⟩ k) h)
        + (∑ k, Real.exp (∑ h', x q h' * x (tileRow ⟨2, by decide⟩ k) h') * x (tileRow ⟨2, by decide⟩ k) h)
        + (∑ k, Real.exp (∑ h', x q h' * x (tileRow ⟨3, by decide⟩ k) h') * x (tileRow ⟨3, by decide⟩ k) h))
      = fun h => ∑ t, Real.exp (∑ h', x q h' * x t h') * x t h :=
    funext fun h => tile_sum_four (fun t => Real.exp (∑ h', x q h' * x t h') * x t h)
  rw [hD] at h4
  rw [show (4 : ℕ) = 3 + 1 from rfl, runAt_succ _ _ 3 (by decide), runAt_succ _ _ 2 (by decide),
    runAt_succ _ _ 1 (by decide), runAt_succ _ _ 0 (by decide)]
  exact h4

/-! ### The two arrangements agree -/

theorem scale_cancel (e d C : ℝ) (he : e ≠ 0) (hC : C ≠ 0) : e * d * (1 / (e * C)) = d / C := by
  field_simp

theorem scale_cancel_mul (e s v C : ℝ) (he : e ≠ 0) (hC : C ≠ 0) : e * s * (1 / (e * C)) * v = s * v / C := by
  field_simp

/-- The running arrangement is D/C. -/
theorem attRunning_coe (x : Fin 2048 → Fin 1024 → ℝ) (q : Fin 2048) (h : Fin 1024) :
    attRunning (fun t h => (x t h : EReal)) q h
      = (((∑ t, Real.exp (∑ h', x q h' * x t h') * x t h) / (∑ t, Real.exp (∑ h', x q h' * x t h')) : ℝ) : EReal) := by
  obtain ⟨m, _, hl, ha⟩ := rep_runAt_four x q
  have hC : 0 < ∑ t : Fin 2048, Real.exp (∑ h', x q h' * x t h') :=
    Finset.sum_pos (fun t _ => Real.exp_pos _) Finset.univ_nonempty
  have hm : 0 < Real.exp (-m) := Real.exp_pos _
  rw [attRunning, hl, ha h, Ideal.div_coe (mul_pos hm hC).ne', ← EReal.coe_mul, scale_cancel _ _ _ hm.ne' hC.ne']

/-- The direct arrangement is D/C. -/
theorem attDirect_coe (x : Fin 2048 → Fin 1024 → ℝ) (q : Fin 2048) (h : Fin 1024) :
    attDirect (fun t h => (x t h : EReal)) q h
      = (((∑ t, Real.exp (∑ h', x q h' * x t h') * x t h) / (∑ t, Real.exp (∑ h', x q h' * x t h')) : ℝ) : EReal) := by
  have hsc : score (fun t h => (x t h : EReal)) q = fun t => ((∑ h', x q h' * x t h' : ℝ) : EReal) :=
    funext fun t => score_coe x q t
  obtain ⟨M, hM⟩ := exists_sup_coe (fun t : Fin 2048 => ∑ h', x q h' * x t h')
  have hC : 0 < ∑ t : Fin 2048, Real.exp (∑ h', x q h' * x t h') :=
    Finset.sum_pos (fun t _ => Real.exp_pos _) Finset.univ_nonempty
  have hm : 0 < Real.exp (-M) := Real.exp_pos _
  have hterm : ∀ t : Fin 2048,
      Ideal.div (Ideal.exp (((∑ h', x q h' * x t h' : ℝ) : EReal) - (M : EReal)))
          ((Real.exp (-M) * ∑ k, Real.exp (∑ h', x q h' * x k h') : ℝ) : EReal) * (x t h : EReal)
        = ((Real.exp (∑ h', x q h' * x t h') * x t h / (∑ k, Real.exp (∑ h', x q h' * x k h')) : ℝ) : EReal) := by
    intro t
    rw [Ideal.div_coe (mul_pos hm hC).ne', ← EReal.coe_sub, Ideal.exp_coe, ← EReal.coe_mul, ← EReal.coe_mul,
      exp_sub_eq, scale_cancel_mul _ _ _ _ hm.ne' hC.ne']
  rw [attDirect, hsc, hM, sum_exp_sub]
  beta_reduce
  rw [Finset.sum_congr rfl (fun t _ => hterm t), ← coe_sum, ← Finset.sum_div]

/-- With real entries, the running arrangement of the softmax-weighted sum equals the direct one. -/
theorem attRunning_eq_attDirect (r : Fin 2048 → Fin 1024 → EReal) (hr : ∀ t h, ∃ x : ℝ, r t h = (x : EReal))
    (q : Fin 2048) (h : Fin 1024) :
    attRunning r q h = attDirect r q h := by
  choose x hx using hr
  obtain rfl : r = fun t h => (x t h : EReal) := funext fun t => funext (hx t)
  rw [attRunning_coe, attDirect_coe]

end Cert.Spec

end
-- ==== Proof.KI.Val1.lean ====
/-
  Region 1's result array after the run, at the ideal values: entry (b, q, c) is the layer norm of the row
  y = (attention of batch row b at position q, running arrangement) + (the linear layer's row), scaled, shifted and
  projected on row c of the padded classifier weight, plus the padded bias. Each batch row takes four grid points,
  one per key tile of 512 rows; the scratch after the j-th of them holds, row by row, the specification's running
  state after j tiles; the fourth writes the output block of the batch row back, and the eight blocks tile the array.
-/
import proofs.«139171_j57775900065974_2_alg».proof.Proof.KI.Body1
import proofs.«139171_j57775900065974_2_alg».proof.Proof.KI.Pay1
import proofs.«139171_j57775900065974_2_alg».proof.Proof.KI.Pay2
import proofs.«139171_j57775900065974_2_alg».proof.Proof.Algebra
import proofs.«139171_j57775900065974_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's result as one function of the whole arrays, entry by entry: R is the linear layer's result, g and sh
    the layer norm's scale and shift, W and B the padded classifier weight and bias. -/
def G1 (R : S8x2048x1024.Idx → EReal) (g sh : S1024.Idx → EReal) (W : S128x1024.Idx → EReal) (B : S128.Idx → EReal) :
    S8x2048x128.Idx → EReal :=
  fun i => Cert.Spec.tail
    (fun h => Cert.Spec.attRunning (fun s h' => R (ix3 (⟨(i 0).val, (i 0).isLt⟩ : Fin 8) s h')) (⟨(i 1).val, (i 1).isLt⟩ : Fin 2048) h
      + R (ix3 (⟨(i 0).val, (i 0).isLt⟩ : Fin 8) (⟨(i 1).val, (i 1).isLt⟩ : Fin 2048) h))
    (fun h => g (ix1 h)) (fun h => sh (ix1 h)) (fun h => W (ix2 (⟨(i 2).val, (i 2).isLt⟩ : Fin 128) h))
    (B (ix1 (⟨(i 2).val, (i 2).isLt⟩ : Fin 128)))

theorem G1_apply (R : S8x2048x1024.Idx → EReal) (g sh : S1024.Idx → EReal) (W : S128x1024.Idx → EReal) (B : S128.Idx → EReal)
    (b : Fin 8) (q : Fin 2048) (cc : Fin 128) :
    G1 R g sh W B (ix3 b q cc)
      = Cert.Spec.tail (fun h => Cert.Spec.attRunning (fun s h' => R (ix3 b s h')) q h + R (ix3 b q h))
          (fun h => g (ix1 h)) (fun h => sh (ix1 h)) (fun h => W (ix2 cc h)) (B (ix1 cc)) := rfl

/-- The index maps over the grid, whose point t is (batch row t / 4, key tile t % 4): the query block and the output
    block sit at the batch row, the key block at the batch row and the key tile, every other window at block 0. -/
theorem idx_facts1 : ∀ t : Fin cfg1.N, t.val < 32
    ∧ win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 1) = 0 ∧ win1_3.index t (0 : Fin 1) = 0
    ∧ win1_4.index t (0 : Fin 2) = 0 ∧ win1_4.index t (1 : Fin 2) = 0 ∧ win1_5.index t (0 : Fin 1) = 0
    ∧ win1_6.index t (0 : Fin 3) = t.val / 4 ∧ win1_6.index t (1 : Fin 3) = 0 ∧ win1_6.index t (2 : Fin 3) = 0 :=
  (by decide +kernel : ∀ t : Fin grid1.N, _)

/-! ## The blocks a point is handed, as reads of the arrays -/

/-- The query block of a point of batch row b is the linear layer's rows of that batch row. -/
theorem iblk1_0_apply (c : Dev nD) (t : Fin cfg1.N) (b : Fin 8) (hb : t.val / 4 = b.val) (q : Fin 2048) (h : Fin 1024) :
    iblk1 V c 0 t (ix3 (0 : Fin 1) q h) = V c main_v0 (ix3 b q h) := by
  obtain ⟨e, e00, e01, e02, e10, e11, e12, e2, e3, e40, e41, e5, e60, e61, e62⟩ := idx_facts1 t
  show V c main_v0 (((cfg1.win 0).blk t).view.emb (ix3 (0 : Fin 1) q h)) = _
  refine congrArg (V c main_v0) (funext fun a => Fin.ext ?_)
  match a with
  | ⟨0, _⟩ => show win1_0.index t (0 : Fin 3) * 1 + 1 * 0 = b.val; omega
  | ⟨1, _⟩ => show win1_0.index t (1 : Fin 3) * 2048 + 1 * q.val = q.val; omega
  | ⟨2, _⟩ => show win1_0.index t (2 : Fin 3) * 1024 + 1 * h.val = h.val; omega

/-- The key block of the point (b, j) is rows 512·j … 512·j + 511 of the linear layer's batch row b. -/
theorem iblk1_1_apply (c : Dev nD) (t : Fin cfg1.N) (b : Fin 8) (hb : t.val / 4 = b.val) (j : Fin 4) (hj : t.val % 4 = j.val)
    (k : Fin 512) (h : Fin 1024) :
    iblk1 V c 1 t (ix3 (0 : Fin 1) k h) = V c main_v0 (ix3 b (Cert.Spec.tileRow j k) h) := by
  obtain ⟨e, e00, e01, e02, e10, e11, e12, e2, e3, e40, e41, e5, e60, e61, e62⟩ := idx_facts1 t
  show V c main_v0 (((cfg1.win 1).blk t).view.emb (ix3 (0 : Fin 1) k h)) = _
  refine congrArg (V c main_v0) (funext fun a => Fin.ext ?_)
  match a with
  | ⟨0, _⟩ => show win1_1.index t (0 : Fin 3) * 1 + 1 * 0 = b.val; omega
  | ⟨1, _⟩ => show win1_1.index t (1 : Fin 3) * 512 + 1 * k.val = j.val * 512 + k.val; omega
  | ⟨2, _⟩ => show win1_1.index t (2 : Fin 3) * 1024 + 1 * h.val = h.val; omega

theorem iblk1_2_apply (c : Dev nD) (t : Fin cfg1.N) (h : Fin 1024) : iblk1 V c 2 t (ix1 h) = V c main_arg3 (ix1 h) := by
  obtain ⟨e, e00, e01, e02, e10, e11, e12, e2, e3, e40, e41, e5, e60, e61, e62⟩ := idx_facts1 t
  show V c main_arg3 (((cfg1.win 2).blk t).view.emb (ix1 h)) = _
  refine congrArg (V c main_arg3) (funext fun a => Fin.ext ?_)
  match a with
  | ⟨0, _⟩ => show win1_2.index t (0 : Fin 1) * 1024 + 1 * h.val = h.val; omega

theorem iblk1_3_apply (c : Dev nD) (t : Fin cfg1.N) (h : Fin 1024) : iblk1 V c 3 t (ix1 h) = V c main_arg4 (ix1 h) := by
  obtain ⟨e, e00, e01, e02, e10, e11, e12, e2, e3, e40, e41, e5, e60, e61, e62⟩ := idx_facts1 t
  show V c main_arg4 (((cfg1.win 3).blk t).view.emb (ix1 h)) = _
  refine congrArg (V c main_arg4) (funext fun a => Fin.ext ?_)
  match a with
  | ⟨0, _⟩ => show win1_3.index t (0 : Fin 1) * 1024 + 1 * h.val = h.val; omega

theorem iblk1_4_apply (c : Dev nD) (t : Fin cfg1.N) (cc : Fin 128) (h : Fin 1024) :
    iblk1 V c 4 t (ix2 cc h) = V c main_v1 (ix2 cc h) := by
  obtain ⟨e, e00, e01, e02, e10, e11, e12, e2, e3, e40, e41, e5, e60, e61, e62⟩ := idx_facts1 t
  show V c main_v1 (((cfg1.win 4).blk t).view.emb (ix2 cc h)) = _
  refine congrArg (V c main_v1) (funext fun a => Fin.ext ?_)
  match a with
  | ⟨0, _⟩ => show win1_4.index t (0 : Fin 2) * 128 + 1 * cc.val = cc.val; omega
  | ⟨1, _⟩ => show win1_4.index t (1 : Fin 2) * 1024 + 1 * h.val = h.val; omega

theorem iblk1_5_apply (c : Dev nD) (t : Fin cfg1.N) (cc : Fin 128) : iblk1 V c 5 t (ix1 cc) = V c main_v2 (ix1 cc) := by
  obtain ⟨e, e00, e01, e02, e10, e11, e12, e2, e3, e40, e41, e5, e60, e61, e62⟩ := idx_facts1 t
  show V c main_v2 (((cfg1.win 5).blk t).view.emb (ix1 cc)) = _
  refine congrArg (V c main_v2) (funext fun a => Fin.ext ?_)
  match a with
  | ⟨0, _⟩ => show win1_5.index t (0 : Fin 1) * 128 + 1 * cc.val = cc.val; omega

/-! ## The scratch, row by row, over the four points of a batch row -/

/-- One point's update of the scratch is, on row q, the specification's step over the point's key tile. -/
theorem rowOf_step (c : Dev nD) (t : Fin cfg1.N) (b : Fin 8) (hb : t.val / 4 = b.val) (j : Fin 4) (hj : t.val % 4 = j.val)
    (s : Scr Ideal) (q : Fin 2048) :
    rowOf (scrStep (iblk1 V c 0 t) (iblk1 V c 1 t) s) q
      = Cert.Spec.runStep (fun k => Cert.Spec.score (fun s h => V c main_v0 (ix3 b s h)) q (Cert.Spec.tileRow j k))
          (fun k h => V c main_v0 (ix3 b (Cert.Spec.tileRow j k) h)) (rowOf s q) := by
  refine (rowOf_scrStep _ _ s q).trans ?_
  refine congrArg₂ (fun f g => Cert.Spec.runStep f g (rowOf s q)) (funext fun k => ?_) (funext fun k => funext fun h => ?_)
  · show _ = Cert.Spec.score (fun s h => V c main_v0 (ix3 b s h)) q (Cert.Spec.tileRow j k)
    unfold Cert.Spec.score
    exact Finset.sum_congr rfl fun h _ =>
      congrArg₂ (fun a b : EReal => a * b) (iblk1_0_apply V c t b hb q h) (iblk1_1_apply V c t b hb j hj k h)
  · exact iblk1_1_apply V c t b hb j hj k h

/-- After the first n key tiles of batch row b (1 ≤ n ≤ 4) row q of the scratch is the specification's running state
    after n tiles. -/
theorem rowOf_scrAfter (c : Dev nD) (b : Fin 8) (q : Fin 2048) :
    ∀ n : ℕ, 1 ≤ n → n ≤ 4 →
      rowOf (scrAfter V c (4 * b.val + n)) q = Cert.Spec.runAt (fun s h => V c main_v0 (ix3 b s h)) q n
  | 0, h1, _ => absurd h1 (by omega)
  | m + 1, _, h4 => by
    have hN : cfg1.N = 32 := N_1
    have hb8 := b.isLt
    have ht : 4 * b.val + m < cfg1.N := by omega
    have hm : m < 4 := by omega
    have hs : scrAfter V c (4 * b.val + (m + 1))
        = scrStep (iblk1 V c 0 ⟨4 * b.val + m, ht⟩) (iblk1 V c 1 ⟨4 * b.val + m, ht⟩)
            (if (4 * b.val + m) % 4 = 0 then scrInit else scrAfter V c (4 * b.val + m)) :=
      scrAfter_succ V c ⟨4 * b.val + m, ht⟩
    rw [hs, rowOf_step V c ⟨4 * b.val + m, ht⟩ b (by show (4 * b.val + m) / 4 = b.val; omega) ⟨m, hm⟩
        (by show (4 * b.val + m) % 4 = m; omega), Cert.Spec.runAt_succ _ _ m hm]
    refine congrArg (Cert.Spec.runStep _ _) ?_
    by_cases hm0 : m = 0
    · subst hm0
      rw [if_pos (by omega), rowOf_scrInit]
      rfl
    · rw [if_neg (by omega)]
      exact rowOf_scrAfter c b q m (by omega) (by omega)

/-! ## What the last key tile of a batch row writes back, and the array after the run -/

/-- What a point with key tile 3 writes back is its block of `G1` of the arrays as the region finds them. -/
theorem flushed1_eq (c : Dev nD) (t : Fin cfg1.N) (ht : t.val % 4 = 3) :
    (dat1 V c).flushed 6 t
      = ((cfg1.win 6).blk t).view.read (Elt Ideal) (G1 (V c main_v0) (V c main_arg3) (V c main_arg4) (V c main_v1) (V c main_v2)) := by
  show (cfg1.win 6).cut (grid1.coords t) ((dat1 V c).after 6 t) = _
  rw [after1_6]
  obtain ⟨e, e00, e01, e02, e10, e11, e12, e2, e3, e40, e41, e5, e60, e61, e62⟩ := idx_facts1 t
  funext j
  obtain ⟨u, q, cc, rfl⟩ : ∃ (u : Fin 1) (q : Fin 2048) (cc : Fin 128), j = ix3 u q cc := ⟨j 0, j 1, j 2, eq_ix3 j⟩
  have hb : t.val / 4 < 8 := by omega
  have hemb : ((cfg1.win 6).blk t).view.emb (ix3 u q cc) = ix3 (⟨t.val / 4, hb⟩ : Fin 8) q cc := by
    funext a; apply Fin.ext
    have hu : u.val = 0 := by omega
    match a with
    | ⟨0, _⟩ => show win1_6.index t (0 : Fin 3) * 1 + 1 * u.val = t.val / 4; omega
    | ⟨1, _⟩ => show win1_6.index t (1 : Fin 3) * 2048 + 1 * q.val = q.val; omega
    | ⟨2, _⟩ => show win1_6.index t (2 : Fin 3) * 128 + 1 * cc.val = cc.val; omega
  show outAt1 V c t (ix3 u q cc)
    = G1 (V c main_v0) (V c main_arg3) (V c main_arg4) (V c main_v1) (V c main_v2) (((cfg1.win 6).blk t).view.emb (ix3 u q cc))
  rw [hemb, G1_apply]
  unfold outAt1
  rw [out1_6_apply]
  have hrow : rowOf (scrAfter V c (t.val + 1)) q
      = Cert.Spec.runAt (fun s h => V c main_v0 (ix3 (⟨t.val / 4, hb⟩ : Fin 8) s h)) q 4 := by
    have h4 := rowOf_scrAfter V c (⟨t.val / 4, hb⟩ : Fin 8) q 4 (by omega) (by omega)
    rwa [show 4 * (⟨t.val / 4, hb⟩ : Fin 8).val + 4 = t.val + 1 from by show 4 * (t.val / 4) + 4 = t.val + 1; omega] at h4
  refine congr (congr (congr (congr (congrArg Cert.Spec.tail (funext fun h => ?_)) (funext fun h => ?_)) (funext fun h => ?_))
    (funext fun h => ?_)) ?_
  · refine congrArg₂ (· + ·) ?_ (iblk1_0_apply V c t (⟨t.val / 4, hb⟩ : Fin 8) rfl q h)
    show Ideal.div ((rowOf (scrAfter V c (t.val + 1)) q).a h) (rowOf (scrAfter V c (t.val + 1)) q).l = _
    rw [hrow]
    rfl
  · exact iblk1_2_apply V c t h
  · exact iblk1_3_apply V c t h
  · exact iblk1_4_apply V c t cc h
  · exact iblk1_5_apply V c t cc

/-- An index of the array is in point `t`'s block iff each coordinate is in the block's range on its axis. -/
theorem mem_blk1 (t : Fin cfg1.N) (i : S8x2048x128.Idx) :
    i ∈ ((cfg1.win 6).blk t).view.set ↔ ∀ a : Fin 3, win1_6.index t a * S1x2048x128.size a ≤ (i a).val
      ∧ (i a).val < win1_6.index t a * S1x2048x128.size a + S1x2048x128.size a := by
  show i ∈ ((View.whole main_v3).slice (win1_6.rect t)).set ↔ _
  rw [View.set_slice_whole, Rect.mem_set_unit]
  exact Iff.rfl

/-- The blocks of the points with key tile 3 cover the array: index i lies in the block of the point (i 0, 3). -/
theorem cover1 (i : S8x2048x128.Idx) : ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 128 := (i 2).isLt
  have hN : cfg1.N = 32 := N_1
  obtain ⟨t, tv⟩ : ∃ t : Fin cfg1.N, t.val = 4 * (i 0).val + 3 := ⟨⟨4 * (i 0).val + 3, by omega⟩, rfl⟩
  obtain ⟨e, e00, e01, e02, e10, e11, e12, e2, e3, e40, e41, e5, e60, e61, e62⟩ := idx_facts1 t
  refine ⟨t, (flush1_6 t).2 (by omega), ?_⟩
  rw [mem_blk1]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 2048 ≤ (i 1).val ∧ (i 1).val < win1_6.index t (1 : Fin 3) * 2048 + 2048; omega
  | ⟨2, _⟩ => show win1_6.index t (2 : Fin 3) * 128 ≤ (i 2).val ∧ (i 2).val < win1_6.index t (2 : Fin 3) * 128 + 128; omega

/-- The result array after the run is `G1` of the arrays the region found. -/
theorem final1 (c : Dev nD) :
    (dat1 V c).arrAt 6 cfg1.N = G1 (V c main_v0) (V c main_arg3) (V c main_arg4) (V c main_v1) (V c main_v2) :=
  (dat1 V c).arrAt_eq_of_cover 6 _ (fun t hf => flushed1_eq V c t ((flush1_6 t).1 hf)) cover1

/-- The result array after the run, entry by entry, through the specification's running attention and tail. -/
theorem final1_apply (c : Dev nD) (b : Fin 8) (q : Fin 2048) (cc : Fin 128) :
    (dat1 V c).arrAt 6 cfg1.N (ix3 b q cc)
      = Cert.Spec.tail (fun h => Cert.Spec.attRunning (fun s h' => V c main_v0 (ix3 b s h')) q h + V c main_v0 (ix3 b q h))
          (fun h => V c main_arg3 (ix1 h)) (fun h => V c main_arg4 (ix1 h)) (fun h => V c main_v1 (ix2 cc h)) (V c main_v2 (ix1 cc)) := by
  rw [final1, G1_apply]

end Cert.KernelIdeal.Hand

end
-- ==== Proof.KI.Glue.lean ====
/-
  The host operations around the second region, read at an entry: the classifier weight padded from 16 to 128 rows and
  the bias padded from 16 to 128 entries read, inside the first 16, the unpadded arrays; and the first 16 of the 128
  output columns, sliced out at the end, read the region's result at the same column.
-/
import proofs.«139171_j57775900065974_2_alg».proof.Proof.KI.Defs
import Idealize.ShloMosaic.Lib.ValueLayout
import Idealize.ShloMosaic.Lib.Pipeline.Value
import Idealize.ShloMosaic.Lib.KernelVsHost

noncomputable section

namespace Cert.KernelIdeal.Hand

open Idealize.ShloMosaic Idealize.ShloMosaic.ValueIdx
open Cert.KernelIdeal Cert.KernelIdeal.Gen

variable {α : Type}

/-- Row c < 16 of the padded weight is row c of the weight. -/
theorem pad_w2_apply (x : S16x1024.Idx → α) {u : Shape} (v : u.Idx → α)
    (h : S16x1024.Pads ![0, 0] ![112, 0] ![0, 0] S128x1024) (hu : 0 < u.numel) (c : Fin 16) (j : Fin 1024) :
    pad S128x1024 ![0, 0] ![112, 0] ![0, 0] x v h hu (ix2 (⟨c.val, by have := c.isLt; omega⟩ : Fin 128) j) = x (ix2 c j) :=
  pad_apply_of_inside _ _ _ x v h hu _ (ix2 c j) (fun a => match a with
    | ⟨0, _⟩ => by show c.val = 0 + c.val * (0 + 1); omega
    | ⟨1, _⟩ => by show j.val = 0 + j.val * (0 + 1); omega)

/-- Entry c < 16 of the padded bias is entry c of the bias. -/
theorem pad_b2_apply (x : S16.Idx → α) {u : Shape} (v : u.Idx → α)
    (h : S16.Pads ![0] ![112] ![0] S128) (hu : 0 < u.numel) (c : Fin 16) :
    pad S128 ![0] ![112] ![0] x v h hu (ix1 (⟨c.val, by have := c.isLt; omega⟩ : Fin 128)) = x (ix1 c) :=
  pad_apply_of_inside _ _ _ x v h hu _ (ix1 c) (fun a => match a with
    | ⟨0, _⟩ => by show c.val = 0 + c.val * (0 + 1); omega)

/-- Column c < 16 of the sliced result is column c of the region's result. -/
theorem slice_out_apply (X : S8x2048x128.Idx → α) (h : S8x2048x128.Slices ![0, 0, 0] S8x2048x16) (b : Fin 8) (s : Fin 2048) (c : Fin 16) :
    extractStridedSlice S8x2048x16 ![0, 0, 0] X h (ix3 b s c) = X (ix3 b s (⟨c.val, by have := c.isLt; omega⟩ : Fin 128)) :=
  extractStridedSlice_apply _ X h (ix3 b s c) _ (fun a => match a with
    | ⟨0, _⟩ => by show b.val = 0 + b.val; omega
    | ⟨1, _⟩ => by show s.val = 0 + s.val; omega
    | ⟨2, _⟩ => by show c.val = 0 + c.val; omega)

end Cert.KernelIdeal.Hand

end
-- ==== Proof.RefRead.lean ====
/-
  The reference's run and its operations read at an index, as generated; the modules that state what the
  reference computes import this one.
-/
import proofs.«139171_j57775900065974_2_alg».proof.Proof.Gen.ReferenceIdeal.Run
import proofs.«139171_j57775900065974_2_alg».proof.Proof.Gen.ReferenceIdeal.Read
-- ==== Proof.Ref.lean ====
/-
  The reference program's result, read one operation at a time, is the specification's function.

  Stage by stage: the linear layer r = x·W1ᵀ + b1, the scores ⟨r_q, r_t⟩, the row maximum (a fold of max from −∞ over
  the 2048 scores, which is their supremum), the softmax weights exp(s − M) / Σ exp(s − M), the attended row, the
  residual y, the layer norm of y, and the classifier.
-/
import proofs.«139171_j57775900065974_2_alg».proof.Proof.RefRead
import proofs.«139171_j57775900065974_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

open ValueIdx Cert.Spec

section
variable (x0 : (⟨S8x2048x512, .f32⟩ : BufTy).Contents (Elt Ideal)) (x1 : (⟨S1024x512, .f32⟩ : BufTy).Contents (Elt Ideal))
  (x2 x3 x4 : (⟨S1024, .f32⟩ : BufTy).Contents (Elt Ideal)) (x5 : (⟨S16x1024, .f32⟩ : BufTy).Contents (Elt Ideal))
  (x6 : (⟨S16, .f32⟩ : BufTy).Contents (Elt Ideal))

/-! ### The index maps of the operations, at an index given by its coordinates -/

theorem lidx0 (b : Fin 8) (s : Fin 2048) (h : Fin 1024) (k : Fin 512) : lidx_main_v0 (ix3 b s h) k = ix3 b s k :=
  funext fun a => by match a with | ⟨0, _⟩ => rfl | ⟨1, _⟩ => rfl | ⟨2, _⟩ => rfl
theorem ridx0 (b : Fin 8) (s : Fin 2048) (h : Fin 1024) (k : Fin 512) : ridx_main_v0 (ix3 b s h) k = ix2 h k :=
  funext fun a => by match a with | ⟨0, _⟩ => rfl | ⟨1, _⟩ => rfl
theorem idx12 (b : Fin 8) (s : Fin 2048) (h : Fin 1024) : idx_main_v1 (idx_main_v2 (ix3 b s h)) = ix1 h :=
  funext fun a => by match a with | ⟨0, _⟩ => rfl

/-- The linear layer. -/
theorem v3_eq (b : Fin 8) (s : Fin 2048) (h : Fin 1024) :
    val_main_v3 (F := Ideal) x0 x1 x2 (ix3 b s h)
      = lin (fun s' d => x0 (ix3 b s' d)) (fun h d => x1 (ix2 h d)) (fun h => x2 (ix1 h)) s h := by
  rw [val_main_v3_apply, val_main_v0_apply, val_main_v2_apply, val_main_v1_apply, idx12, Ideal.addf_def]
  unfold lin
  congr 1
  exact Finset.sum_congr rfl fun k _ => by rw [lidx0, ridx0]

theorem lidx4 (b : Fin 8) (s t : Fin 2048) (k : Fin 1024) : lidx_main_v4 (ix3 b s t) k = ix3 b s k :=
  funext fun a => by match a with | ⟨0, _⟩ => rfl | ⟨1, _⟩ => rfl | ⟨2, _⟩ => rfl
theorem ridx4 (b : Fin 8) (s t : Fin 2048) (k : Fin 1024) : ridx_main_v4 (ix3 b s t) k = ix3 b t k :=
  funext fun a => by match a with | ⟨0, _⟩ => rfl | ⟨1, _⟩ => rfl | ⟨2, _⟩ => rfl

/-- The scores. -/
theorem v4_eq (b : Fin 8) (s t : Fin 2048) :
    val_main_v4 (F := Ideal) x0 x1 x2 (ix3 b s t)
      = score (lin (fun s' d => x0 (ix3 b s' d)) (fun h d => x1 (ix2 h d)) (fun h => x2 (ix1 h))) s t := by
  rw [val_main_v4_apply]
  unfold score
  exact Finset.sum_congr rfl fun k _ => by rw [lidx4, ridx4, v3_eq, v3_eq]

end

section
variable (x0 : (⟨S8x2048x512, .f32⟩ : BufTy).Contents (Elt Ideal)) (x1 : (⟨S1024x512, .f32⟩ : BufTy).Contents (Elt Ideal))
  (x2 x3 x4 : (⟨S1024, .f32⟩ : BufTy).Contents (Elt Ideal)) (x5 : (⟨S16x1024, .f32⟩ : BufTy).Contents (Elt Ideal))
  (x6 : (⟨S16, .f32⟩ : BufTy).Contents (Elt Ideal))

/-- The f32 word of −∞ is the bottom of the extended reals. -/
theorem ofBits_neg_inf : Ideal.ofBits .f32 0xFF800000#32 = (⊥ : EReal) := by simp [Ideal.ofBits, Ideal.ieee]

theorem red_S8x2048x2048 : S8x2048x2048.Reduces [2] S8x2048 := by decide

/-- The reduced index (b, s) with the coordinate `k` put back on the last axis is (b, s, k). -/
theorem lift5 (b : Fin 8) (s : Fin 2048) (k : Fin (S8x2048x2048.size 2)) :
    red_S8x2048x2048.lift (ix2 b s) k = ix3 b s (⟨k.val, k.isLt⟩ : Fin 2048) := by
  funext c; apply Fin.ext
  fin_cases c <;> rfl

/-- The row maximum: the reduce is a fold of max from −∞ over the 2048 scores of the row, and the supremum of a finite
    family in a lattice with a bottom is, by definition, the fold of the join from the bottom. -/
theorem v5_eq (b : Fin 8) (s : Fin 2048) :
    val_main_v5 (F := Ideal) x0 x1 x2 (ix2 b s)
      = Finset.univ.sup (score (lin (fun s' d => x0 (ix3 b s' d)) (fun h d => x1 (ix2 h d)) (fun h => x2 (ix1 h))) s) := by
  unfold val_main_v5
  rw [Host.reduce_eq_fold_single FloatOps.maximumf _ _ reducesTo_S8x2048x2048_S8x2048_d2 red_S8x2048x2048 h_S_]
  rw [val_main_cst_apply, Ideal.ofBits_def, ofBits_neg_inf]
  have hf : (val_main_v4 (F := Ideal) x0 x1 x2 ∘ red_S8x2048x2048.lift (ix2 b s))
      = fun k : Fin 2048 => score (lin (fun s' d => x0 (ix3 b s' d)) (fun h d => x1 (ix2 h d)) (fun h => x2 (ix1 h))) s k :=
    funext fun k => by
      show val_main_v4 (F := Ideal) x0 x1 x2 (red_S8x2048x2048.lift (ix2 b s) k) = _
      rw [lift5, v4_eq]
      rfl
  exact congrArg (fun f => Finset.fold max (⊥ : EReal) f (Finset.univ : Finset (Fin 2048))) hf

end

section
variable (x0 : (⟨S8x2048x512, .f32⟩ : BufTy).Contents (Elt Ideal)) (x1 : (⟨S1024x512, .f32⟩ : BufTy).Contents (Elt Ideal))
  (x2 x3 x4 : (⟨S1024, .f32⟩ : BufTy).Contents (Elt Ideal)) (x5 : (⟨S16x1024, .f32⟩ : BufTy).Contents (Elt Ideal))
  (x6 : (⟨S16, .f32⟩ : BufTy).Contents (Elt Ideal))

/-- The linear layer's output for batch row `b`, as the specification writes it. -/
abbrev rowR (b : Fin 8) : Fin 2048 → Fin 1024 → EReal :=
  lin (fun s' d => x0 (ix3 b s' d)) (fun h d => x1 (ix2 h d)) (fun h => x2 (ix1 h))

/-- The maximum with the broadcast −∞ changes nothing. -/
theorem v7_eq (b : Fin 8) (s : Fin 2048) :
    val_main_v7 (F := Ideal) x0 x1 x2 (ix2 b s) = Finset.univ.sup (score (rowR x0 x1 x2 b) s) := by
  rw [val_main_v7_apply, val_main_v6_apply, val_main_cst_0_apply, v5_eq, Ideal.maximumf_def, Ideal.ofBits_def, ofBits_neg_inf]
  exact max_eq_right bot_le

theorem idx89 (b : Fin 8) (s t : Fin 2048) : idx_main_v8 (idx_main_v9 (ix3 b s t)) = ix2 b s :=
  funext fun a => by match a with | ⟨0, _⟩ => rfl | ⟨1, _⟩ => rfl

/-- The exponential of a score less the row maximum. -/
theorem v11_eq (b : Fin 8) (s t : Fin 2048) :
    val_main_v11 (F := Ideal) x0 x1 x2 (ix3 b s t)
      = Ideal.exp (score (rowR x0 x1 x2 b) s t - Finset.univ.sup (score (rowR x0 x1 x2 b) s)) := by
  rw [val_main_v11_apply, val_main_v10_apply, val_main_v9_apply, val_main_v8_apply, idx89, v7_eq, v4_eq,
    Ideal.hostUnary_exp_def, Ideal.subf_def]

theorem idx12s (b : Fin 8) (s k : Fin 2048) : idx_main_v12 (ix2 b s) k = ix3 b s k :=
  funext fun a => by match a with | ⟨0, _⟩ => rfl | ⟨1, _⟩ => rfl | ⟨2, _⟩ => rfl

/-- The sum of the row's weights. -/
theorem v12_eq (b : Fin 8) (s : Fin 2048) :
    val_main_v12 (F := Ideal) x0 x1 x2 (ix2 b s)
      = ∑ u : Fin 2048, Ideal.exp (score (rowR x0 x1 x2 b) s u - Finset.univ.sup (score (rowR x0 x1 x2 b) s)) := by
  rw [val_main_v12_apply, val_main_cst_1_apply, Ideal.ofBits_def, Ideal.ofBits_zero_f32, zero_add]
  exact Finset.sum_congr rfl fun k _ => by rw [idx12s, v11_eq]

theorem idx1314 (b : Fin 8) (s t : Fin 2048) : idx_main_v13 (idx_main_v14 (ix3 b s t)) = ix2 b s :=
  funext fun a => by match a with | ⟨0, _⟩ => rfl | ⟨1, _⟩ => rfl

/-- The softmax weight. -/
theorem v15_eq (b : Fin 8) (s t : Fin 2048) :
    val_main_v15 (F := Ideal) x0 x1 x2 (ix3 b s t)
      = Ideal.div (Ideal.exp (score (rowR x0 x1 x2 b) s t - Finset.univ.sup (score (rowR x0 x1 x2 b) s)))
          (∑ u : Fin 2048, Ideal.exp (score (rowR x0 x1 x2 b) s u - Finset.univ.sup (score (rowR x0 x1 x2 b) s))) := by
  rw [val_main_v15_apply, val_main_v14_apply, val_main_v13_apply, idx1314, v12_eq, v11_eq, Ideal.hostDivf_def]

theorem lidx16 (b : Fin 8) (s : Fin 2048) (h : Fin 1024) (k : Fin 2048) : lidx_main_v16 (ix3 b s h) k = ix3 b s k :=
  funext fun a => by match a with | ⟨0, _⟩ => rfl | ⟨1, _⟩ => rfl | ⟨2, _⟩ => rfl
theorem ridx16 (b : Fin 8) (s : Fin 2048) (h : Fin 1024) (k : Fin 2048) : ridx_main_v16 (ix3 b s h) k = ix3 b k h :=
  funext fun a => by match a with | ⟨0, _⟩ => rfl | ⟨1, _⟩ => rfl | ⟨2, _⟩ => rfl

/-- The attended row. -/
theorem v16_eq (b : Fin 8) (s : Fin 2048) (h : Fin 1024) :
    val_main_v16 (F := Ideal) x0 x1 x2 (ix3 b s h) = attDirect (rowR x0 x1 x2 b) s h := by
  rw [val_main_v16_apply]
  unfold attDirect
  exact Finset.sum_congr rfl fun k _ => by rw [lidx16, ridx16, v15_eq, v3_eq]

/-- The residual: the attended row plus the linear layer's row. -/
theorem v17_eq (b : Fin 8) (s : Fin 2048) (h : Fin 1024) :
    val_main_v17 (F := Ideal) x0 x1 x2 (ix3 b s h)
      = attDirect (rowR x0 x1 x2 b) s h + rowR x0 x1 x2 b s h := by
  rw [val_main_v17_apply, v16_eq, v3_eq, Ideal.addf_def]

end

section
variable (x0 : (⟨S8x2048x512, .f32⟩ : BufTy).Contents (Elt Ideal)) (x1 : (⟨S1024x512, .f32⟩ : BufTy).Contents (Elt Ideal))
  (x2 x3 x4 : (⟨S1024, .f32⟩ : BufTy).Contents (Elt Ideal)) (x5 : (⟨S16x1024, .f32⟩ : BufTy).Contents (Elt Ideal))
  (x6 : (⟨S16, .f32⟩ : BufTy).Contents (Elt Ideal))

/-- The residual row y of batch row `b` at position `s`, as the specification writes it. -/
abbrev rowY (b : Fin 8) (s : Fin 2048) : Fin 1024 → EReal :=
  fun h => attDirect (rowR x0 x1 x2 b) s h + rowR x0 x1 x2 b s h

theorem idx18 (b : Fin 8) (s : Fin 2048) (k : Fin 1024) : idx_main_v18 (ix2 b s) k = ix3 b s k :=
  funext fun a => by match a with | ⟨0, _⟩ => rfl | ⟨1, _⟩ => rfl | ⟨2, _⟩ => rfl

/-- The row's sum. -/
theorem v18_eq (b : Fin 8) (s : Fin 2048) :
    val_main_v18 (F := Ideal) x0 x1 x2 (ix2 b s) = ∑ h' : Fin 1024, rowY x0 x1 x2 b s h' := by
  rw [val_main_v18_apply, val_main_cst_2_apply, Ideal.ofBits_def, Ideal.ofBits_zero_f32, zero_add]
  exact Finset.sum_congr rfl fun k _ => by rw [idx18, v17_eq]

/-- The row's mean, read at any index of the [8, 2048, 1] array over (b, s). -/
theorem v21_eq (b : Fin 8) (s : Fin 2048) (i : S8x2048x1.Idx) (hi : idx_main_v19 i = ix2 b s) :
    val_main_v21 (F := Ideal) x0 x1 x2 i = Ideal.div (∑ h' : Fin 1024, rowY x0 x1 x2 b s h') c1024 := by
  rw [val_main_v21_apply, val_main_v19_apply, val_main_v20_apply, val_main_cst_3_apply, hi, v18_eq,
    Ideal.hostDivf_def, Ideal.ofBits_def]

theorem idx1922 (b : Fin 8) (s : Fin 2048) (h : Fin 1024) : idx_main_v19 (idx_main_v22 (ix3 b s h)) = ix2 b s :=
  funext fun a => by match a with | ⟨0, _⟩ => rfl | ⟨1, _⟩ => rfl
theorem idx1929 (b : Fin 8) (s : Fin 2048) (h : Fin 1024) : idx_main_v19 (idx_main_v29 (ix3 b s h)) = ix2 b s :=
  funext fun a => by match a with | ⟨0, _⟩ => rfl | ⟨1, _⟩ => rfl

/-- The centred row. -/
theorem v23_eq (b : Fin 8) (s : Fin 2048) (h : Fin 1024) :
    val_main_v23 (F := Ideal) x0 x1 x2 (ix3 b s h)
      = rowY x0 x1 x2 b s h - Ideal.div (∑ h' : Fin 1024, rowY x0 x1 x2 b s h') c1024 := by
  rw [val_main_v23_apply, val_main_v22_apply, v21_eq x0 x1 x2 b s _ (idx1922 b s h), v17_eq, Ideal.subf_def]

/-- The centred row, as the second subtraction writes it. -/
theorem v30_eq (b : Fin 8) (s : Fin 2048) (h : Fin 1024) :
    val_main_v30 (F := Ideal) x0 x1 x2 (ix3 b s h)
      = rowY x0 x1 x2 b s h - Ideal.div (∑ h' : Fin 1024, rowY x0 x1 x2 b s h') c1024 := by
  rw [val_main_v30_apply, val_main_v29_apply, v21_eq x0 x1 x2 b s _ (idx1929 b s h), v17_eq, Ideal.subf_def]

theorem idx25 (b : Fin 8) (s : Fin 2048) (k : Fin 1024) : idx_main_v25 (ix2 b s) k = ix3 b s k :=
  funext fun a => by match a with | ⟨0, _⟩ => rfl | ⟨1, _⟩ => rfl | ⟨2, _⟩ => rfl

/-- The sum of the squares of the centred row. -/
theorem v25_eq (b : Fin 8) (s : Fin 2048) :
    val_main_v25 (F := Ideal) x0 x1 x2 (ix2 b s)
      = ∑ h' : Fin 1024, (rowY x0 x1 x2 b s h' - Ideal.div (∑ h'' : Fin 1024, rowY x0 x1 x2 b s h'') c1024)
          * (rowY x0 x1 x2 b s h' - Ideal.div (∑ h'' : Fin 1024, rowY x0 x1 x2 b s h'') c1024) := by
  rw [val_main_v25_apply, val_main_cst_4_apply, Ideal.ofBits_def, Ideal.ofBits_zero_f32, zero_add]
  exact Finset.sum_congr rfl fun k _ => by rw [idx25, val_main_v24_apply, v23_eq, Ideal.mulf_def]

theorem idx2634 (b : Fin 8) (s : Fin 2048) (h : Fin 1024) : idx_main_v26 (idx_main_v34 (ix3 b s h)) = ix2 b s :=
  funext fun a => by match a with | ⟨0, _⟩ => rfl | ⟨1, _⟩ => rfl

/-- The reciprocal square root of the variance plus epsilon, broadcast along the row. -/
theorem v34_eq (b : Fin 8) (s : Fin 2048) (h : Fin 1024) :
    val_main_v34 (F := Ideal) x0 x1 x2 (ix3 b s h)
      = Ideal.rsqrt (Ideal.div (∑ h' : Fin 1024, (rowY x0 x1 x2 b s h' - Ideal.div (∑ h'' : Fin 1024, rowY x0 x1 x2 b s h'') c1024)
          * (rowY x0 x1 x2 b s h' - Ideal.div (∑ h'' : Fin 1024, rowY x0 x1 x2 b s h'') c1024)) c1024 + cEps) := by
  rw [val_main_v34_apply, val_main_v33_apply, val_main_v32_apply, val_main_v28_apply, val_main_v26_apply,
    val_main_v27_apply, val_main_cst_5_apply, val_main_v31_apply, val_main_cst_6_apply, idx2634, v25_eq,
    Ideal.hostUnary_rsqrt_def, Ideal.addf_def, Ideal.hostDivf_def, Ideal.ofBits_def, Ideal.ofBits_def]

theorem idx3637 (b : Fin 8) (s : Fin 2048) (h : Fin 1024) : idx_main_v36 (idx_main_v37 (ix3 b s h)) = ix1 h :=
  funext fun a => by match a with | ⟨0, _⟩ => rfl
theorem idx3940 (b : Fin 8) (s : Fin 2048) (h : Fin 1024) : idx_main_v39 (idx_main_v40 (ix3 b s h)) = ix1 h :=
  funext fun a => by match a with | ⟨0, _⟩ => rfl

/-- The layer norm's output. -/
theorem v41_eq (b : Fin 8) (s : Fin 2048) (h : Fin 1024) :
    val_main_v41 (F := Ideal) x0 x1 x2 x3 x4 (ix3 b s h)
      = (rowY x0 x1 x2 b s h - Ideal.div (∑ h' : Fin 1024, rowY x0 x1 x2 b s h') c1024)
          * Ideal.rsqrt (Ideal.div (∑ h' : Fin 1024, (rowY x0 x1 x2 b s h' - Ideal.div (∑ h'' : Fin 1024, rowY x0 x1 x2 b s h'') c1024)
              * (rowY x0 x1 x2 b s h' - Ideal.div (∑ h'' : Fin 1024, rowY x0 x1 x2 b s h'') c1024)) c1024 + cEps)
          * x3 (ix1 h) + x4 (ix1 h) := by
  rw [val_main_v41_apply, val_main_v38_apply, val_main_v35_apply, val_main_v37_apply, val_main_v36_apply,
    val_main_v40_apply, val_main_v39_apply, idx3637, idx3940, v30_eq, v34_eq,
    Ideal.addf_def, Ideal.mulf_def, Ideal.mulf_def]

theorem lidx42 (b : Fin 8) (s : Fin 2048) (c : Fin 16) (k : Fin 1024) : lidx_main_v42 (ix3 b s c) k = ix3 b s k :=
  funext fun a => by match a with | ⟨0, _⟩ => rfl | ⟨1, _⟩ => rfl | ⟨2, _⟩ => rfl
theorem ridx42 (b : Fin 8) (s : Fin 2048) (c : Fin 16) (k : Fin 1024) : ridx_main_v42 (ix3 b s c) k = ix2 c k :=
  funext fun a => by match a with | ⟨0, _⟩ => rfl | ⟨1, _⟩ => rfl
theorem idx4344 (b : Fin 8) (s : Fin 2048) (c : Fin 16) : idx_main_v43 (idx_main_v44 (ix3 b s c)) = ix1 c :=
  funext fun a => by match a with | ⟨0, _⟩ => rfl

/-- The classifier's product with one row of the weights. -/
theorem v42_eq (b : Fin 8) (s : Fin 2048) (c : Fin 16) :
    val_main_v42 (F := Ideal) x0 x1 x2 x3 x4 x5 (ix3 b s c)
      = ∑ h : Fin 1024, ((rowY x0 x1 x2 b s h - Ideal.div (∑ h' : Fin 1024, rowY x0 x1 x2 b s h') c1024)
          * Ideal.rsqrt (Ideal.div (∑ h' : Fin 1024, (rowY x0 x1 x2 b s h' - Ideal.div (∑ h'' : Fin 1024, rowY x0 x1 x2 b s h'') c1024)
              * (rowY x0 x1 x2 b s h' - Ideal.div (∑ h'' : Fin 1024, rowY x0 x1 x2 b s h'') c1024)) c1024 + cEps)
          * x3 (ix1 h) + x4 (ix1 h)) * x5 (ix2 c h) := by
  rw [val_main_v42_apply]
  exact Finset.sum_congr rfl fun k _ => by rw [lidx42, ridx42, v41_eq]

/-- The reference's result at (b, s, c) is the specification's function of the argument arrays. -/
theorem ref_eq (b : Fin 8) (s : Fin 2048) (c : Fin 16) :
    Cert.ReferenceIdeal.Read.val_main_v45 (F := Ideal) x0 x1 x2 x3 x4 x5 x6 (ValueIdx.ix3 b s c)
      = Cert.Spec.outWith Cert.Spec.attDirect (fun s' d => x0 (ValueIdx.ix3 b s' d)) (fun h d => x1 (ValueIdx.ix2 h d)) (fun h => x2 (ValueIdx.ix1 h))
          (fun h => x3 (ValueIdx.ix1 h)) (fun h => x4 (ValueIdx.ix1 h)) (fun h => x5 (ValueIdx.ix2 c h)) (x6 (ValueIdx.ix1 c)) s := by
  rw [val_main_v45_apply, v42_eq, val_main_v44_apply, val_main_v43_apply, idx4344, Ideal.addf_def]
  unfold outWith Spec.tail
  rfl

end

end Cert.ReferenceIdeal.RefValue

end
-- ==== Proof.Finite.lean ====
/-
  From the precondition "all inputs finite" to "every entry of x, W1 and b1 is a real number", and from there to
  the linear layer having real entries, so that the two arrangements of the attention agree.
-/
import proofs.«139171_j57775900065974_2_alg».proof.Defs
import proofs.«139171_j57775900065974_2_alg».proof.Proof.Spec
import proofs.«139171_j57775900065974_2_alg».proof.Proof.Algebra
import Idealize.ShloMosaic.Lib.ReduceAll
import Idealize.ShloMosaic.Lib.ValueIdx

noncomputable section

namespace Cert.Finite

open Idealize.ShloMosaic

/-- A rank-0 array has one index. -/
instance : Subsingleton Cert.Pre_finite_inputs.S_.Idx := ⟨fun a b => funext fun d => d.elim0⟩

/-- An extended real whose absolute value max(x, −x) is below +∞ is a real number: both infinities have
    absolute value +∞. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x with
  | bot => simp [Ideal.cmp] at h
  | coe a => exact ⟨a, rfl⟩
  | top => simp [Ideal.cmp] at h

/-- The conjunction of two one-bit arrays is 1 at an index only if both are. -/
theorem andi_ix {s : Shape} (x y : IVec s 1) (i : s.Idx) (h : andi x y i = 1#1) : x i = 1#1 ∧ y i = 1#1 :=
  IntOp.andi_eq_one.1 h

/-- "All entries have absolute value below +∞" came out true: every entry is a real number. -/
theorem all_real {s : Shape} (a : FVec Ideal s .f32)
    (hb : Cert.Pre_finite_inputs.S_.BroadcastsInDim s (![] : Fin 0 → Fin s.rank)) {axes : List (Fin s.rank)}
    (hr : s.ReducesTo axes Cert.Pre_finite_inputs.S_) (hu : 0 < Cert.Pre_finite_inputs.S_.numel)
    (c : IVec Cert.Pre_finite_inputs.S_ 1)
    (e : Host.reduce IntOp.andi (cmpf .olt (Host.absf a)
        (broadcastInDim s ![] hb (constant Cert.Pre_finite_inputs.S_ .f32 0x7F800000#32))) c hr hu ValueIdx.ix0 = 1#1) :
    ∀ i, ∃ x : ℝ, a i = (x : EReal) := by
  intro i
  exact real_of_abs_lt_inf (a i) (Host.reduce_andi_all _ _ hr hu _ e i)

open Cert.Pre_finite_inputs in
/-- The printed precondition, all ones: the first three arrays have only real entries. -/
theorem fn_real [Cert.Pre_finite_inputs.Facts]
    (a0 : FVec Ideal S8x2048x512 .f32) (a1 : FVec Ideal S1024x512 .f32) (a2 a3 a4 : FVec Ideal S1024 .f32)
    (a5 : FVec Ideal S16x1024 .f32) (a6 : FVec Ideal S16 .f32)
    (h : Cert.Pre_finite_inputs.fn (F := Ideal) a0 a1 a2 a3 a4 a5 a6 = fun _ => 1#1) :
    (∀ i, ∃ x : ℝ, a0 i = (x : EReal)) ∧ (∀ i, ∃ x : ℝ, a1 i = (x : EReal)) ∧ (∀ i, ∃ x : ℝ, a2 i = (x : EReal)) := by
  have h0 := congrFun h ValueIdx.ix0
  dsimp only [Cert.Pre_finite_inputs.fn, Cert.Pre_finite_inputs.fn_part1] at h0
  obtain ⟨h28, -⟩ := andi_ix _ _ _ h0
  obtain ⟨h23, -⟩ := andi_ix _ _ _ h28
  obtain ⟨h18, -⟩ := andi_ix _ _ _ h23
  obtain ⟨h13, -⟩ := andi_ix _ _ _ h18
  obtain ⟨h8, h12⟩ := andi_ix _ _ _ h13
  obtain ⟨h3, h7⟩ := andi_ix _ _ _ h8
  exact ⟨all_real a0 _ _ _ _ h3, all_real a1 _ _ _ _ h7, all_real a2 _ _ _ _ h12⟩

/-- The certificate's precondition gives real entries of x, W1 and b1 on every device. -/
theorem pre_real (m : (ℓ : Loc Cert.KernelIdeal.nD Cert.KernelIdeal.τ Cert.KernelIdeal.sig) → Buf (Elt Ideal) ℓ)
    [Cert.Pre_finite_inputs.Facts] (hpre : Cert.Pre_KernelIdeal m) (c : Dev Cert.KernelIdeal.nD) :
    (∀ i, ∃ x : ℝ, (m ((c.tc : Thread Cert.KernelIdeal.nD Cert.KernelIdeal.τ).loc Cert.KernelIdeal.main_arg0)
        : FVec Ideal Cert.KernelIdeal.S8x2048x512 .f32) i = (x : EReal))
    ∧ (∀ i, ∃ x : ℝ, (m ((c.tc : Thread Cert.KernelIdeal.nD Cert.KernelIdeal.τ).loc Cert.KernelIdeal.main_arg1)
        : FVec Ideal Cert.KernelIdeal.S1024x512 .f32) i = (x : EReal))
    ∧ (∀ i, ∃ x : ℝ, (m ((c.tc : Thread Cert.KernelIdeal.nD Cert.KernelIdeal.τ).loc Cert.KernelIdeal.main_arg2)
        : FVec Ideal Cert.KernelIdeal.S1024 .f32) i = (x : EReal)) :=
  fn_real _ _ _ _ _ _ _ (hpre c)

/-! ### The linear layer has real entries -/

/-- A finite sum of reals is a real. -/
theorem sum_real {ι : Type} [Fintype ι] (f : ι → EReal) (hf : ∀ i, ∃ a : ℝ, f i = (a : EReal)) :
    ∃ a : ℝ, (∑ i, f i) = (a : EReal) := by
  choose g hg using hf
  refine ⟨∑ i, g i, ?_⟩
  rw [Cert.Spec.coe_sum]
  exact Finset.sum_congr rfl (fun i _ => hg i)

theorem lin_real (x : Fin 2048 → Fin 512 → EReal) (W1 : Fin 1024 → Fin 512 → EReal) (b1 : Fin 1024 → EReal)
    (hx : ∀ s d, ∃ a : ℝ, x s d = (a : EReal)) (hW : ∀ h d, ∃ a : ℝ, W1 h d = (a : EReal))
    (hb : ∀ h, ∃ a : ℝ, b1 h = (a : EReal)) (s : Fin 2048) (h : Fin 1024) :
    ∃ a : ℝ, Cert.Spec.lin x W1 b1 s h = (a : EReal) := by
  obtain ⟨p, hp⟩ := sum_real (fun d => x s d * W1 h d) (fun d => by
    obtain ⟨a, ha⟩ := hx s d
    obtain ⟨b, hb'⟩ := hW h d
    exact ⟨a * b, by rw [ha, hb', EReal.coe_mul]⟩)
  obtain ⟨b, hb'⟩ := hb h
  exact ⟨p + b, by rw [Cert.Spec.lin, hp, hb', EReal.coe_add]⟩

/-- With real inputs the result is the same whichever arrangement of the attention it is built on. -/
theorem out_running_eq_direct (x : Fin 2048 → Fin 512 → EReal) (W1 : Fin 1024 → Fin 512 → EReal) (b1 : Fin 1024 → EReal)
    (hx : ∀ s d, ∃ a : ℝ, x s d = (a : EReal)) (hW : ∀ h d, ∃ a : ℝ, W1 h d = (a : EReal))
    (hb : ∀ h, ∃ a : ℝ, b1 h = (a : EReal)) (g b w : Fin 1024 → EReal) (bias : EReal) (s : Fin 2048) :
    Cert.Spec.outWith Cert.Spec.attRunning x W1 b1 g b w bias s
      = Cert.Spec.outWith Cert.Spec.attDirect x W1 b1 g b w bias s := by
  have hatt : (fun h => Cert.Spec.attRunning (Cert.Spec.lin x W1 b1) s h + Cert.Spec.lin x W1 b1 s h)
      = fun h => Cert.Spec.attDirect (Cert.Spec.lin x W1 b1) s h + Cert.Spec.lin x W1 b1 s h :=
    funext fun h => by
      rw [Cert.Spec.attRunning_eq_attDirect (Cert.Spec.lin x W1 b1) (lin_real x W1 b1 hx hW hb) s h]
  unfold Cert.Spec.outWith
  rw [hatt]

end Cert.Finite

end
-- ==== Proof.Bridge.lean ====
/-
  The two idealized programs compute the same array.

  The kernel's result entry (b, s, c), c < 16, is the specification's output with the attention in its running
  arrangement: region 0 leaves the linear layer r in its result array; region 1 finds r (as query block and as key
  tiles), gamma, beta and the padded classifier, and leaves in row (b, s) the layer norm and projection of
  running-attention(r) + r; the final slice keeps the first 16 columns, where the padded weight and bias are the
  unpadded ones. The reference's entry is the same output with the attention in its direct arrangement. On finite
  inputs r is finite, and the two arrangements agree.
-/
import proofs.«139171_j57775900065974_2_alg».proof.Proof.KI.Run
import proofs.«139171_j57775900065974_2_alg».proof.Proof.KI.Val0
import proofs.«139171_j57775900065974_2_alg».proof.Proof.KI.Val1
import proofs.«139171_j57775900065974_2_alg».proof.Proof.KI.Glue
import proofs.«139171_j57775900065974_2_alg».proof.Proof.Ref
import proofs.«139171_j57775900065974_2_alg».proof.Proof.Finite
import proofs.«139171_j57775900065974_2_alg».proof.Proof.Gen.Pre_finite_inputs
import proofs.«139171_j57775900065974_2_alg».proof.Proof.Gen.KernelIdeal
import proofs.«139171_j57775900065974_2_alg».proof.Proof.Gen.ReferenceIdeal

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The kernel's result at entry (b, s, c): the specification's output over the running arrangement. -/
theorem kernel_entry (c : Dev nD) (b : Fin 8) (s : Fin 2048) (k : Fin 16) :
    extractStridedSlice S8x2048x16 ![0, 0, 0] ((dat1 (entry1 m ρ) c).arrAt 6 cfg1.N) slices_S8x2048x128_S8x2048x16_0_0_0 (ix3 b s k)
      = Cert.Spec.outWith Cert.Spec.attRunning
          (fun s' d => m ((c.tc : Thread nD τ).loc main_arg0) (ix3 b s' d))
          (fun h d => m ((c.tc : Thread nD τ).loc main_arg1) (ix2 h d))
          (fun h => m ((c.tc : Thread nD τ).loc main_arg2) (ix1 h))
          (fun h => m ((c.tc : Thread nD τ).loc main_arg3) (ix1 h))
          (fun h => m ((c.tc : Thread nD τ).loc main_arg4) (ix1 h))
          (fun h => m ((c.tc : Thread nD τ).loc main_arg5) (ix2 k h))
          (m ((c.tc : Thread nD τ).loc main_arg6) (ix1 k)) s := by
  have hr : ∀ (s' : Fin 2048) (h : Fin 1024), entry1 m ρ c main_v0 (ix3 b s' h)
      = Cert.Spec.lin (fun s'' d => m ((c.tc : Thread nD τ).loc main_arg0) (ix3 b s'' d))
          (fun h' d => m ((c.tc : Thread nD τ).loc main_arg1) (ix2 h' d))
          (fun h' => m ((c.tc : Thread nD τ).loc main_arg2) (ix1 h')) s' h := by
    intro s' h
    rw [entry1_main_v0, final0_apply]
    rfl
  have hw : ∀ h : Fin 1024, entry1 m ρ c main_v1 (ix2 (⟨k.val, by have := k.isLt; omega⟩ : Fin 128) h)
      = m ((c.tc : Thread nD τ).loc main_arg5) (ix2 k h) := by
    intro h
    rw [entry1_main_v1]
    exact pad_w2_apply _ _ _ _ k h
  have hb : entry1 m ρ c main_v2 (ix1 (⟨k.val, by have := k.isLt; omega⟩ : Fin 128))
      = m ((c.tc : Thread nD τ).loc main_arg6) (ix1 k) := by
    rw [entry1_main_v2]
    exact pad_b2_apply _ _ _ _ k
  rw [slice_out_apply, final1_apply, entry1_main_arg3, entry1_main_arg4, hb]
  unfold Cert.Spec.outWith
  have hfun : (fun (s' : Fin 2048) (h' : Fin 1024) => entry1 m ρ c main_v0 (ix3 b s' h'))
      = Cert.Spec.lin (fun s'' d => m ((c.tc : Thread nD τ).loc main_arg0) (ix3 b s'' d))
          (fun h' d => m ((c.tc : Thread nD τ).loc main_arg1) (ix2 h' d))
          (fun h' => m ((c.tc : Thread nD τ).loc main_arg2) (ix1 h')) :=
    funext fun s' => funext fun h' => hr s' h'
  rw [hfun]
  simp only [hr, hw]

end Cert.KernelIdeal.Hand

namespace Cert.Proof.Claims

open Idealize.ShloMosaic Idealize.ShloMosaic.TcCoe Idealize.ShloMosaic.ValueIdx
open Idealize.SL Idealize.SL.Sem

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: entry by entry the kernel's is the specification's
    output over the running attention, the reference's the same output over the direct attention, and on the finite
    inputs the precondition grants the two agree. -/
theorem algebraic : Cert.algebraic_KernelIdeal_ReferenceIdeal := by
  intro m ρ m' ρ' hpre hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1,
    (hagree c).2.2.2.2.1, (hagree c).2.2.2.2.2.1, (hagree c).2.2.2.2.2.2]
  obtain ⟨h0, h1, h2⟩ := Cert.Finite.pre_real m hpre c
  funext i
  obtain ⟨b, s, k, rfl⟩ : ∃ (b : Fin 8) (s : Fin 2048) (k : Fin 16), i = ix3 b s k := ⟨i 0, i 1, i 2, eq_ix3 i⟩
  rw [Cert.ReferenceIdeal.RefValue.ref_eq]
  refine Eq.trans ?_ (Cert.KernelIdeal.Hand.kernel_entry m ρ c b s k).symm
  exact (Cert.Finite.out_running_eq_direct _ _ _ (fun s' d => h0 _) (fun h d => h1 _) (fun h => h2 _) _ _ _ _ s).symm

end Cert.Proof.Claims

end
-- ==== Proof.lean ====
/-
  The certificate: a linear layer, self-attention over the layer's own rows, a residual, a layer norm and a
  16-way classifier — computed by two pipelined kernels (the linear layer; attention with a running maximum over
  four key tiles, fused with the residual, the layer norm and the classifier padded to 128 columns) against the plain
  formulation with one softmax over all 2048 keys.

  Frames. Each kernel program runs to the end, faults nowhere and leaves its seven argument arrays as launched: the
  two regions are run one after the other, the first leaving the linear layer's rows in its result array, the second
  reading that ONE array through two windows (a query block and a key tile, each holding half of the array's share)
  and carrying its running maximum, normaliser and accumulator in scratch from one key tile to the next. The same
  argument serves the word-level program and its idealization. The reference is a sequence of host operations.

  Values. At the ideal values the kernel's result entry is the layer norm and projection of
  running-attention(r) + r, the reference's that of direct-attention(r) + r, with r the linear layer's rows; on finite
  inputs r is finite and the running and the direct arrangement of the softmax-weighted sum agree. The idealization
  rewrote no operation, so nothing is owed for it.
-/
import proofs.«139171_j57775900065974_2_alg».proof.Defs
import proofs.«139171_j57775900065974_2_alg».proof.Proof.Gen.Kernel
import proofs.«139171_j57775900065974_2_alg».proof.Proof.Gen.KernelIdeal
import proofs.«139171_j57775900065974_2_alg».proof.Proof.Gen.ReferenceIdeal
import proofs.«139171_j57775900065974_2_alg».proof.Proof.Gen.Pre_finite_inputs
import proofs.«139171_j57775900065974_2_alg».proof.Proof.K.Run
import proofs.«139171_j57775900065974_2_alg».proof.Proof.KI.Run
import proofs.«139171_j57775900065974_2_alg».proof.Proof.Bridge

noncomputable section

namespace Cert.Proof

open Idealize.ShloMosaic Idealize.SL.Sem

/-- The word-level program's frame: the two-region run at the bit-exact values. -/
theorem frame_p : Cert.frame_Kernel := fun m ρ _ => Cert.Kernel.Hand.frame (F := Bits) m ρ

/-- The idealized program's frame: the same run at the ideal values. -/
theorem frame_pi : Cert.frame_KernelIdeal := fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_p, frame_pi, Cert.Proof.Claims.frame_ri, trivial, Cert.Proof.Claims.algebraic⟩

end Cert.Proof

end
